-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S2048x16 .f32 .bf16
  ∧ IdealRules.truncf_extf.Statement Cert.KernelIdeal.S1x16 .f32 .bf16
  ∧ IdealRules.truncf_extf.Statement Cert.KernelIdeal.S1024x64 .f32 .bf16
  ∧ IdealRules.truncf_extf.Statement Cert.KernelIdeal.S1x64 .f32 .bf16
  ∧ IdealRules.truncf_extf.Statement Cert.KernelIdeal.S2048x16 .f32 .bf16
  ∧ IdealRules.truncf_extf.Statement Cert.KernelIdeal.S1x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S2048x16 : Shape := ⟨2, ![2048, 16]⟩
abbrev S2048x2048 : Shape := ⟨2, ![2048, 2048]⟩
abbrev S1024x1024 : Shape := ⟨2, ![1024, 1024]⟩
abbrev S1024x2048 : Shape := ⟨2, ![1024, 2048]⟩
abbrev S128x64 : Shape := ⟨2, ![128, 64]⟩
abbrev S1x16 : Shape := ⟨2, ![1, 16]⟩
abbrev S64 : Shape := ⟨1, ![64]⟩
abbrev S16x16 : Shape := ⟨2, ![16, 16]⟩
abbrev S1x64 : Shape := ⟨2, ![1, 64]⟩
abbrev S16 : Shape := ⟨1, ![16]⟩
abbrev S64x16 : Shape := ⟨2, ![64, 16]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S128x64 : S_.BroadcastsInDim S128x64 (![] : Fin 0 → Fin S128x64.rank)
  reducesTo_S128x64_S_d0_1 : S128x64.ReducesTo [0, 1] S_
  bcast_S_S1x16 : S_.BroadcastsInDim S1x16 (![] : Fin 0 → Fin S1x16.rank)
  reducesTo_S1x16_S_d0_1 : S1x16.ReducesTo [0, 1] S_
  bcast_S_S64 : S_.BroadcastsInDim S64 (![] : Fin 0 → Fin S64.rank)
  reducesTo_S64_S_d0 : S64.ReducesTo [0] S_
  bcast_S_S16x16 : S_.BroadcastsInDim S16x16 (![] : Fin 0 → Fin S16x16.rank)
  reducesTo_S16x16_S_d0_1 : S16x16.ReducesTo [0, 1] S_
  bcast_S_S1x64 : S_.BroadcastsInDim S1x64 (![] : Fin 0 → Fin S1x64.rank)
  reducesTo_S1x64_S_d0_1 : S1x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64x16 .f32) (main_arg12 : FVec F S1x16 .f32) (main_arg13 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S64x16 .f32 := Host.absf main_arg11
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S1x16 .f32 := Host.absf main_arg12
  let main_cst_22 : FVec F S_ .f32 := constant S_ .f32 0x7F800000#32
  let main_v60 : FVec F S1x16 .f32 := broadcastInDim S1x16 ![] bcast_S_S1x16 main_cst_22
  let main_v61 : IVec S1x16 1 := cmpf .olt main_v59 main_v60
  let main_c_23 : IVec S_ 1 := constantI S_ 1 1#1
  let main_v62 : IVec S_ 1 := (fun x v => Host.reduce IntOp.andi x v reducesTo_S1x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg7 : FVec F S64 .f32) (main_arg8 : FVec F S16x16 .f32) (main_arg9 : FVec F S1x64 .f32) (main_arg10 : FVec F S16 .f32) (main_arg11 : FVec F S64x16 .f32) (main_arg12 : FVec F S1x16 .f32) (main_arg13 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_v48 main_v49 main_v50

def fn_part1 {F : FTy → Type} [FloatOps F] (main_arg4 : FVec F S1024x2048 .f32) (main_arg5 : FVec F S128x64 .f32) (main_arg6 : FVec F S1x16 .f32) (main_arg7 : FVec F S64 .f32) (main_arg8 : FVec F S16x16 .f32) (main_arg9 : FVec F S1x64 .f32) (main_arg10 : FVec F S16 .f32) (main_arg11 : FVec F S64x16 .f32) (main_arg12 : FVec F S1x16 .f32) (main_arg13 : FVec F S16 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S1x16 .f32 := Host.absf main_arg6
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x128 .f32) (main_arg1 : FVec F S2048x16 .f32) (main_arg2 : FVec F S2048x2048 .f32) (main_arg3 : FVec F S1024x1024 .f32) (main_arg4 : FVec F S1024x2048 .f32) (main_arg5 : FVec F S128x64 .f32) (main_arg6 : FVec F S1x16 .f32) (main_arg7 : FVec F S64 .f32) (main_arg8 : FVec F S16x16 .f32) (main_arg9 : FVec F S1x64 .f32) (main_arg10 : FVec F S16 .f32) (main_arg11 : FVec F S64x16 .f32) (main_arg12 : FVec F S1x16 .f32) (main_arg13 : FVec F S16 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x128 : Shape := ⟨2, ![1024, 128]⟩
abbrev S2048x16 : Shape := ⟨2, ![2048, 16]⟩
abbrev S2048x2048 : Shape := ⟨2, ![2048, 2048]⟩
abbrev S1024x1024 : Shape := ⟨2, ![1024, 1024]⟩
abbrev S1024x2048 : Shape := ⟨2, ![1024, 2048]⟩
abbrev S128x64 : Shape := ⟨2, ![128, 64]⟩
abbrev S1x16 : Shape := ⟨2, ![1, 16]⟩
abbrev S64 : Shape := ⟨1, ![64]⟩
abbrev S16x16 : Shape := ⟨2, ![16, 16]⟩
abbrev S1x64 : Shape := ⟨2, ![1, 64]⟩
abbrev S16 : Shape := ⟨1, ![16]⟩
abbrev S64x16 : Shape := ⟨2, ![64, 16]⟩
abbrev S1024x64 : Shape := ⟨2, ![1024, 64]⟩
abbrev S256x2048 : Shape := ⟨2, ![256, 2048]⟩
abbrev S256x1024 : Shape := ⟨2, ![256, 1024]⟩
abbrev S256x64 : Shape := ⟨2, ![256, 64]⟩
abbrev S1x2048 : Shape := ⟨2, ![1, 2048]⟩
abbrev S2048 : Shape := ⟨1, ![2048]⟩
abbrev S1024x256 : Shape := ⟨2, ![1024, 256]⟩
abbrev S256x16 : Shape := ⟨2, ![256, 16]⟩
abbrev S1024x1 : Shape := ⟨2, ![1024, 1]⟩
abbrev S1024 : Shape := ⟨1, ![1024]⟩
abbrev S1024x16 : Shape := ⟨2, ![1024, 16]⟩
abbrev S256 : Shape := ⟨1, ![256]⟩
abbrev S256x1 : Shape := ⟨2, ![256, 1]⟩

abbrev nBuf : Space → Nat
  | .hbm => 20
  | .vmem => 42
  | .smem => 0
  | _ => 0

abbrev bufTy : (tb : Table) → Fin (tcTables nBuf tb) → BufTy
  | .hbm, ⟨0, _⟩ => ⟨S1024x128, .f32⟩
  | .hbm, ⟨1, _⟩ => ⟨S2048x16, .f32⟩
  | .hbm, ⟨2, _⟩ => ⟨S2048x2048, .f32⟩
  | .hbm, ⟨3, _⟩ => ⟨S1024x1024, .f32⟩
  | .hbm, ⟨4, _⟩ => ⟨S1024x2048, .f32⟩
  | .hbm, ⟨5, _⟩ => ⟨S128x64, .f32⟩
  | .hbm, ⟨6, _⟩ => ⟨S1x16, .f32⟩
  | .hbm, ⟨7, _⟩ => ⟨S64, .f32⟩
  | .hbm, ⟨8, _⟩ => ⟨S16x16, .f32⟩
  | .hbm, ⟨9, _⟩ => ⟨S1x64, .f32⟩
  | .hbm, ⟨10, _⟩ => ⟨S16, .f32⟩
  | .hbm, ⟨11, _⟩ => ⟨S64x16, .f32⟩
  | .hbm, ⟨12, _⟩ => ⟨S1x16, .f32⟩
  | .hbm, ⟨13, _⟩ => ⟨S16, .f32⟩
  | .hbm, ⟨14, _⟩ => ⟨S1x64, .f32⟩
  | .hbm, ⟨15, _⟩ => ⟨S1x16, .f32⟩
  | .hbm, ⟨16, _⟩ => ⟨S1x16, .f32⟩
  | .hbm, ⟨17, _⟩ => ⟨S1024x64, .f32⟩
  | .hbm, ⟨18, _⟩ => ⟨S2048x16, .f32⟩
  | .hbm, ⟨19, _⟩ => ⟨S1024x16, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S256x1024, .f32⟩
  | .local _ .vmem, ⟨4, _⟩ => ⟨S256x1024, .f32⟩
  | .local _ .vmem, ⟨5, _⟩ => ⟨S1024x128, .f32⟩
  | .local _ .vmem, ⟨6, _⟩ => ⟨S2048x16, .f32⟩
  | .local _ .vmem, ⟨7, _⟩ => ⟨S128x64, .f32⟩
  | .local _ .vmem, ⟨8, _⟩ => ⟨S1x16, .f32⟩
  | .local _ .vmem, ⟨9, _⟩ => ⟨S1x64, .f32⟩
  | .local _ .vmem, ⟨10, _⟩ => ⟨S256x64, .f32⟩
  | .local _ .vmem, ⟨11, _⟩ => ⟨S256x64, .f32⟩
  | .local _ .vmem, ⟨12, _⟩ => ⟨S1x2048, .f32⟩
  | .local _ .vmem, ⟨13, _⟩ => ⟨S1024x64, .f32⟩
  | .local _ .vmem, ⟨14, _⟩ => ⟨S1024x256, .f32⟩
  | .local _ .vmem, ⟨15, _⟩ => ⟨S1024x256, .f32⟩
  | .local _ .vmem, ⟨16, _⟩ => ⟨S1024x2048, .f32⟩
  | .local _ .vmem, ⟨17, _⟩ => ⟨S256x2048, .f32⟩
  | .local _ .vmem, ⟨18, _⟩ => ⟨S256x2048, .f32⟩
  | .local _ .vmem, ⟨19, _⟩ => ⟨S1024x64, .f32⟩
  | .local _ .vmem, ⟨20, _⟩ => ⟨S2048x16, .f32⟩
  | .local _ .vmem, ⟨21, _⟩ => ⟨S16x16, .f32⟩
  | .local _ .vmem, ⟨22, _⟩ => ⟨S1x64, .f32⟩
  | .local _ .vmem, ⟨23, _⟩ => ⟨S1x16, .f32⟩
  | .local _ .vmem, ⟨24, _⟩ => ⟨S256x16, .f32⟩
  | .local _ .vmem, ⟨25, _⟩ => ⟨S256x16, .f32⟩
  | .local _ .vmem, ⟨26, _⟩ => ⟨S1024x1, .f32⟩
  | .local _ .vmem, ⟨27, _⟩ => ⟨S2048x16, .f32⟩
  | .local _ .vmem, ⟨28, _⟩ => ⟨S256x2048, .f32⟩
  | .local _ .vmem, ⟨29, _⟩ => ⟨S256x2048, .f32⟩
  | .local _ .vmem, ⟨30, _⟩ => ⟨S1024x2048, .f32⟩
  | .local _ .vmem, ⟨31, _⟩ => ⟨S256x1024, .f32⟩
  | .local _ .vmem, ⟨32, _⟩ => ⟨S256x1024, .f32⟩
  | .local _ .vmem, ⟨33, _⟩ => ⟨S1024x64, .f32⟩
  | .local _ .vmem, ⟨34, _⟩ => ⟨S2048x16, .f32⟩
  | .local _ .vmem, ⟨35, _⟩ => ⟨S64x16, .f32⟩
  | .local _ .vmem, ⟨36, _⟩ => ⟨S1x16, .f32⟩
  | .local _ .vmem, ⟨37, _⟩ => ⟨S1x16, .f32⟩
  | .local _ .vmem, ⟨38, _⟩ => ⟨S256x16, .f32⟩
  | .local _ .vmem, ⟨39, _⟩ => ⟨S256x16, .f32⟩
  | .local _ .vmem, ⟨40, _⟩ => ⟨S1x2048, .f32⟩
  | .local _ .vmem, ⟨41, _⟩ => ⟨S1024x16, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg8_1 : Ref sig .tc := ⟨.vmem, 39, rfl⟩
abbrev cc2_scratch0 : Ref sig .tc := ⟨.vmem, 40, rfl⟩
abbrev cc2_scratch1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S64_S1x64 : S64.ShapeCasts S1x64
  shapeCasts_S16_S1x16 : S16.ShapeCasts S1x16
  inb_S2048x16_S2048x16_0_0 : ∀ a, (![0, 0] : Fin 2 → Nat) a + S2048x16.size a ≤ S2048x16.size a
  h_S2048x16 : 0 < S2048x16.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  broadcasts_S1x16_S2048x16 : S1x16.Broadcasts S2048x16
  reduces_S2048x16_S2048 : S2048x16.Reduces [1] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x2048_S256x2048_0_0 : ∀ a, (![0, 0] : Fin 2 → Nat) a + S256x2048.size a ≤ S256x2048.size a
  h_S256x2048 : 0 < S256x2048.numel
  broadcasts_S1x2048_S256x2048 : S1x2048.Broadcasts S256x2048
  inb_S1024x2048_S1024x2048_0_0 : ∀ a, (![0, 0] : Fin 2 → Nat) a + S1024x2048.size a ≤ S1024x2048.size a
  h_S1024x2048 : 0 < S1024x2048.numel
  iota_S256x1024_d0_w32 : S256x1024.Iotas .tc 32 [0]
  iota_S256x1024_d1_w32 : S256x1024.Iotas .tc 32 [1]
  inb_S256x1024_S256x1024_0_0 : ∀ a, (![0, 0] : Fin 2 → Nat) a + S256x1024.size a ≤ S256x1024.size a
  h_S256x1024 : 0 < S256x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  broadcasts_S1x64_S1024x64 : S1x64.Broadcasts S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S16x16_S16x16_0_0 : ∀ a, (![0, 0] : Fin 2 → Nat) a + S16x16.size a ≤ S16x16.size a
  h_S16x16 : 0 < S16x16.numel
  shapeCasts_S2048x16_S2048x16 : S2048x16.ShapeCasts S2048x16
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  iota_S256x2048_d0_w32 : S256x2048.Iotas .tc 32 [0]
  iota_S256x2048_d1_w32 : S256x2048.Iotas .tc 32 [1]
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  inb_S64x16_S64x16_0_0 : ∀ a, (![0, 0] : Fin 2 → Nat) a + S64x16.size a ≤ S64x16.size a
  h_S64x16 : 0 < S64x16.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S256x16_S256 : S256x16.Reduces [1] S256
  shapeCasts_S256_S256x1 : S256.ShapeCasts S256x1
  broadcasts_S256x1_S256x16 : S256x1.Broadcasts S256x16
  dot_S1024x128_S128x64_S1024x64_1_0_0_1_n_n_wf : DotDims.WF S1024x128 S128x64 S1024x64 [1] [0] [0] [1] [] []
  dot_S256x2048_S1024x2048_S256x1024_1_1_0_0_n_n_wf : DotDims.WF S256x2048 S1024x2048 S256x1024 [1] [1] [0] [0] [] []
  dot_S256x1024_S1024x64_S256x64_1_0_0_1_n_n_wf : DotDims.WF S256x1024 S1024x64 S256x64 [1] [0] [0] [1] [] []
  dot_S2048x16_S16x16_S2048x16_1_0_0_1_n_n_wf : DotDims.WF S2048x16 S16x16 S2048x16 [1] [0] [0] [1] [] []
  dot_S1024x256_S1024x2048_S256x2048_0_0_1_1_n_n_wf : DotDims.WF S1024x256 S1024x2048 S256x2048 [0] [0] [1] [1] [] []
  dot_S256x2048_S2048x16_S256x16_1_0_0_1_n_n_wf : DotDims.WF S256x2048 S2048x16 S256x16 [1] [0] [0] [1] [] []
  dot_S1024x64_S64x16_S1024x16_1_0_0_1_n_n_wf : DotDims.WF S1024x64 S64x16 S1024x16 [1] [0] [0] [1] [] []
  dot_S256x1024_S1024x16_S256x16_1_0_0_1_n_n_wf : DotDims.WF S256x1024 S1024x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S2048x16.size a
  hwx0_4 : ∀ i : grid0.Coords, EltTy.bits .f32 = 32 ∨ (Rect.block (s := S2048x16) S2048x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S1024x64.size a
  hwx0_8 : ∀ i : grid0.Coords, EltTy.bits .f32 = 32 ∨ (Rect.block (s := S1024x64) S256x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x2048.size a
  hwx1_0 : ∀ i : grid1.Coords, EltTy.bits .f32 = 32 ∨ (Rect.block (s := S1024x2048) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .f32 = 32 ∨ (Rect.block (s := S1024x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .f32 = 32 ∨ (Rect.block (s := S2048x2048) S256x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1024x64.size a
  hwx1_3 : ∀ i : grid1.Coords, EltTy.bits .f32 = 32 ∨ (Rect.block (s := S1024x64) S1024x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x16.size a ≤ S2048x16.size a
  hwx1_4 : ∀ i : grid1.Coords, EltTy.bits .f32 = 32 ∨ (Rect.block (s := S2048x16) S2048x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x16.size a ≤ S2048x16.size a
  hwx1_8 : ∀ i : grid1.Coords, EltTy.bits .f32 = 32 ∨ (Rect.block (s := S2048x16) S256x16.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S1024x2048.size a
  hwx2_0 : ∀ i : grid2.Coords, EltTy.bits .f32 = 32 ∨ (Rect.block (s := S1024x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .f32 = 32 ∨ (Rect.block (s := S1024x2048) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S1024x1024.size a
  hwx2_2 : ∀ i : grid2.Coords, EltTy.bits .f32 = 32 ∨ (Rect.block (s := S1024x1024) S256x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S1024x64.size a
  hwx2_3 : ∀ i : grid2.Coords, EltTy.bits .f32 = 32 ∨ (Rect.block (s := S1024x64) S1024x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x16.size a ≤ S2048x16.size a
  hwx2_4 : ∀ i : grid2.Coords, EltTy.bits .f32 = 32 ∨ (Rect.block (s := S2048x16) S2048x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x16.size a ≤ S1x16.size a
  hwx2_7 : ∀ i : grid2.Coords, EltTy.bits .f32 = 32 ∨ (Rect.block (s := S1x16) S1x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x16.size a ≤ S1024x16.size a
  hwx2_8 : ∀ i : grid2.Coords, EltTy.bits .f32 = 32 ∨ (Rect.block (s := S1024x16) S256x16.size (cc2_transform_8 i) (hinb2_8 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S1024x256_S1024x2048_S256x2048_0_0_1_1_n_n : DotDims S1024x256 S1024x2048 S256x2048 where
  lhsContracting := [0]
  rhsContracting := [0]
  lhsNonContracting := [1]
  rhsNonContracting := [1]
  lhsBatch := []
  rhsBatch := []
  wf := dot_S1024x256_S1024x2048_S256x2048_0_0_1_1_n_n_wf
def dot_S256x2048_S2048x16_S256x16_1_0_0_1_n_n : DotDims S256x2048 S2048x16 S256x16 where
  lhsContracting := [1]
  rhsContracting := [0]
  lhsNonContracting := [0]
  rhsNonContracting := [1]
  lhsBatch := []
  rhsBatch := []
  wf := dot_S256x2048_S2048x16_S256x16_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf

abbrev win0_0 : Pipeline.Window sig grid0 :=
  Pipeline.Window.ofSpec (Memref.whole main_arg4) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2048x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg4) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S2048x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S256x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg4) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2048x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v5) S256x16.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1024x128 : Shape := ⟨2, ![1024, 128]⟩
abbrev S2048x16 : Shape := ⟨2, ![2048, 16]⟩
abbrev S2048x2048 : Shape := ⟨2, ![2048, 2048]⟩
abbrev S1024x1024 : Shape := ⟨2, ![1024, 1024]⟩
abbrev S1024x2048 : Shape := ⟨2, ![1024, 2048]⟩
abbrev S128x64 : Shape := ⟨2, ![128, 64]⟩
abbrev S1x16 : Shape := ⟨2, ![1, 16]⟩
abbrev S64 : Shape := ⟨1, ![64]⟩
abbrev S16x16 : Shape := ⟨2, ![16, 16]⟩
abbrev S1x64 : Shape := ⟨2, ![1, 64]⟩
abbrev S16 : Shape := ⟨1, ![16]⟩
abbrev S64x16 : Shape := ⟨2, ![64, 16]⟩
abbrev S16x1 : Shape := ⟨2, ![16, 1]⟩
abbrev S2048x1 : Shape := ⟨2, ![2048, 1]⟩
abbrev S2048 : Shape := ⟨1, ![2048]⟩
abbrev S1x2048 : Shape := ⟨2, ![1, 2048]⟩
abbrev S2048x1024 : Shape := ⟨2, ![2048, 1024]⟩
abbrev S_ : Shape := ⟨0, ![]⟩
abbrev S1024x64 : Shape := ⟨2, ![1024, 64]⟩
abbrev S64x1 : Shape := ⟨2, ![64, 1]⟩
abbrev S1024x1 : Shape := ⟨2, ![1024, 1]⟩
abbrev S1024 : Shape := ⟨1, ![1024]⟩
abbrev S1x1024 : Shape := ⟨2, ![1, 1024]⟩
abbrev S1024x16 : Shape := ⟨2, ![1024, 16]⟩

abbrev nBuf : Space → Nat
  | .hbm => 119
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S2048x16, .f32⟩
  | .hbm, ⟨2, _⟩ => ⟨S2048x2048, .f32⟩
  | .hbm, ⟨3, _⟩ => ⟨S1024x1024, .f32⟩
  | .hbm, ⟨4, _⟩ => ⟨S1024x2048, .f32⟩
  | .hbm, ⟨5, _⟩ => ⟨S128x64, .f32⟩
  | .hbm, ⟨6, _⟩ => ⟨S1x16, .f32⟩
  | .hbm, ⟨7, _⟩ => ⟨S64, .f32⟩
  | .hbm, ⟨8, _⟩ => ⟨S16x16, .f32⟩
  | .hbm, ⟨9, _⟩ => ⟨S1x64, .f32⟩
  | .hbm, ⟨10, _⟩ => ⟨S16, .f32⟩
  | .hbm, ⟨11, _⟩ => ⟨S64x16, .f32⟩
  | .hbm, ⟨12, _⟩ => ⟨S1x16, .f32⟩
  | .hbm, ⟨13, _⟩ => ⟨S16, .f32⟩
  | .hbm, ⟨14, _⟩ => ⟨S16x1, .f32⟩
  | .hbm, ⟨15, _⟩ => ⟨S2048x1, .f32⟩
  | .hbm, ⟨16, _⟩ => ⟨S2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S2048x1024, .f32⟩
  | .hbm, ⟨21, _⟩ => ⟨S1024x1024, .f32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x64, .f32⟩
  | .hbm, ⟨36, _⟩ => ⟨S1024x64, .f32⟩
  | .hbm, ⟨37, _⟩ => ⟨S1x64, .f32⟩
  | .hbm, ⟨38, _⟩ => ⟨S1024x64, .f32⟩
  | .hbm, ⟨39, _⟩ => ⟨S1024x64, .f32⟩
  | .hbm, ⟨40, _⟩ => ⟨S_, .f32⟩
  | .hbm, ⟨41, _⟩ => ⟨S1024x64, .f32⟩
  | .hbm, ⟨42, _⟩ => ⟨S1024x64, .f32⟩
  | .hbm, ⟨43, _⟩ => ⟨S_, .f32⟩
  | .hbm, ⟨44, _⟩ => ⟨S2048x16, .f32⟩
  | .hbm, ⟨45, _⟩ => ⟨S2048x16, .f32⟩
  | .hbm, ⟨46, _⟩ => ⟨S64x1, .f32⟩
  | .hbm, ⟨47, _⟩ => ⟨S1024x1, .f32⟩
  | .hbm, ⟨48, _⟩ => ⟨S1024, .f32⟩
  | .hbm, ⟨49, _⟩ => ⟨S2048x1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x2048, .f32⟩
  | .hbm, ⟨54, _⟩ => ⟨S2048x2048, .i32⟩
  | .hbm, ⟨55, _⟩ => ⟨S2048x2048, .i32⟩
  | .hbm, ⟨56, _⟩ => ⟨S_, .i32⟩
  | .hbm, ⟨57, _⟩ => ⟨S2048x2048, .i32⟩
  | .hbm, ⟨58, _⟩ => ⟨S2048x2048, .i32⟩
  | .hbm, ⟨59, _⟩ => ⟨S2048x2048, .i1⟩
  | .hbm, ⟨60, _⟩ => ⟨S2048x2048, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x16, .f32⟩
  | .hbm, ⟨68, _⟩ => ⟨S2048x16, .f32⟩
  | .hbm, ⟨69, _⟩ => ⟨S1x16, .f32⟩
  | .hbm, ⟨70, _⟩ => ⟨S2048x16, .f32⟩
  | .hbm, ⟨71, _⟩ => ⟨S2048x16, .f32⟩
  | .hbm, ⟨72, _⟩ => ⟨S_, .f32⟩
  | .hbm, ⟨73, _⟩ => ⟨S1024x64, .f32⟩
  | .hbm, ⟨74, _⟩ => ⟨S1024x64, .f32⟩
  | .hbm, ⟨75, _⟩ => ⟨S_, .f32⟩
  | .hbm, ⟨76, _⟩ => ⟨S2048x16, .f32⟩
  | .hbm, ⟨77, _⟩ => ⟨S2048x16, .f32⟩
  | .hbm, ⟨78, _⟩ => ⟨S16x1, .f32⟩
  | .hbm, ⟨79, _⟩ => ⟨S2048x1, .f32⟩
  | .hbm, ⟨80, _⟩ => ⟨S2048, .f32⟩
  | .hbm, ⟨81, _⟩ => ⟨S1x2048, .f32⟩
  | .hbm, ⟨82, _⟩ => ⟨S1024x2048, .f32⟩
  | .hbm, ⟨83, _⟩ => ⟨S1024x2048, .f32⟩
  | .hbm, ⟨84, _⟩ => ⟨S2048x1024, .f32⟩
  | .hbm, ⟨85, _⟩ => ⟨S1024x1024, .f32⟩
  | .hbm, ⟨86, _⟩ => ⟨S1024x1024, .i32⟩
  | .hbm, ⟨87, _⟩ => ⟨S1024x1024, .i32⟩
  | .hbm, ⟨88, _⟩ => ⟨S_, .i32⟩
  | .hbm, ⟨89, _⟩ => ⟨S1024x1024, .i32⟩
  | .hbm, ⟨90, _⟩ => ⟨S1024x1024, .i32⟩
  | .hbm, ⟨91, _⟩ => ⟨S1024x1024, .i1⟩
  | .hbm, ⟨92, _⟩ => ⟨S1024x1024, .f32⟩
  | .hbm, ⟨93, _⟩ => ⟨S_, .f32⟩
  | .hbm, ⟨94, _⟩ => ⟨S1024x1024, .f32⟩
  | .hbm, ⟨95, _⟩ => ⟨S1024x1024, .f32⟩
  | .hbm, ⟨96, _⟩ => ⟨S1024x1024, .f32⟩
  | .hbm, ⟨97, _⟩ => ⟨S1024x1024, .f32⟩
  | .hbm, ⟨98, _⟩ => ⟨S1024x1024, .f32⟩
  | .hbm, ⟨99, _⟩ => ⟨S1024x16, .f32⟩
  | .hbm, ⟨100, _⟩ => ⟨S1024x16, .f32⟩
  | .hbm, ⟨101, _⟩ => ⟨S1x16, .f32⟩
  | .hbm, ⟨102, _⟩ => ⟨S1024x16, .f32⟩
  | .hbm, ⟨103, _⟩ => ⟨S1024x16, .f32⟩
  | .hbm, ⟨104, _⟩ => ⟨S_, .f32⟩
  | .hbm, ⟨105, _⟩ => ⟨S1024, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S1024x1, .f32⟩
  | .hbm, ⟨110, _⟩ => ⟨S1024x16, .f32⟩
  | .hbm, ⟨111, _⟩ => ⟨S1024x16, .f32⟩
  | .hbm, ⟨112, _⟩ => ⟨S1024x16, .f32⟩
  | .hbm, ⟨113, _⟩ => ⟨S_, .f32⟩
  | .hbm, ⟨114, _⟩ => ⟨S1024, .f32⟩
  | .hbm, ⟨115, _⟩ => ⟨S1024x1, .f32⟩
  | .hbm, ⟨116, _⟩ => ⟨S1024x1, .f32⟩
  | .hbm, ⟨117, _⟩ => ⟨S1024x16, .f32⟩
  | .hbm, ⟨118, _⟩ => ⟨S1024x16, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_call1_cst : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_v50 : Ref sig .tc := ⟨.hbm, 74, rfl⟩
abbrev main_call3_cst : Ref sig .tc := ⟨.hbm, 75, rfl⟩
abbrev main_call3_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_2 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_3 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call4_cst : Ref sig .tc := ⟨.hbm, 104, rfl⟩
abbrev main_call4_v0 : Ref sig .tc := ⟨.hbm, 105, rfl⟩
abbrev main_call4_cst_0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_cst_1 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_v76 : Ref sig .tc := ⟨.hbm, 118, rfl⟩

abbrev nD : Nat := 1
abbrev τ : Topo := Topo.v7x

variable {F : FTy → Type} [FloatOps F]

class Facts₀ : Prop where
  transposes_S1x16_S16x1_1_0 : S1x16.Transposes [1, 0] S16x1
  shapeCasts_S2048x1_S2048 : S2048x1.ShapeCasts S2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  transposes_S1024x2048_S2048x1024_1_0 : S1024x2048.Transposes [1, 0] S2048x1024
  bcast_S_S1024x1024 : S_.BroadcastsInDim S1024x1024 (![] : Fin 0 → Fin S1024x1024.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S_S2048x16 : S_.BroadcastsInDim S2048x16 (![] : Fin 0 → Fin S2048x16.rank)
  transposes_S1x64_S64x1_1_0 : S1x64.Transposes [1, 0] S64x1
  shapeCasts_S1024x1_S1024 : S1024x1.ShapeCasts S1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x2048 : S_.BroadcastsInDim S2048x2048 (![] : Fin 0 → Fin S2048x2048.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S1x16_S1024x16_0_1 : S1x16.BroadcastsInDim S1024x16 (![0, 1] : Fin 2 → Fin S1024x16.rank)
  reducesTo_S1024x16_S1024_d1 : S1024x16.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  dot_S2048x16_S16x1_S2048x1_1_0_0_1_n_n_wf : DotDims.WF S2048x16 S16x1 S2048x1 [1] [0] [0] [1] [] []
  dot_S1024x2048_S2048x1024_S1024x1024_1_0_0_1_n_n_wf : DotDims.WF S1024x2048 S2048x1024 S1024x1024 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  dot_S1024x64_S64x1_S1024x1_1_0_0_1_n_n_wf : DotDims.WF S1024x64 S64x1 S1024x1 [1] [0] [0] [1] [] []
  dot_S2048x1024_S1024x2048_S2048x2048_1_0_0_1_n_n_wf : DotDims.WF S2048x1024 S1024x2048 S2048x2048 [1] [0] [0] [1] [] []
  dot_S2048x16_S16x16_S2048x16_1_0_0_1_n_n_wf : DotDims.WF S2048x16 S16x16 S2048x16 [1] [0] [0] [1] [] []
  dot_S2048x2048_S2048x16_S2048x16_1_0_0_1_n_n_wf : DotDims.WF S2048x2048 S2048x16 S2048x16 [1] [0] [0] [1] [] []
  dot_S1024x64_S64x16_S1024x16_1_0_0_1_n_n_wf : DotDims.WF S1024x64 S64x16 S1024x16 [1] [0] [0] [1] [] []
  dot_S1024x1024_S1024x16_S1024x16_1_0_0_1_n_n_wf : DotDims.WF S1024x1024 S1024x16 S1024x16 [1] [0] [0] [1] [] []

variable [Facts₀]

def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

class Facts : Prop extends Facts₀ where

variable [Facts]
-- ==== Proof.KBody0.lean ====
/-
  The body of kernel 0, run symbolically at a grid point of either kind: at the first point it fills its two
  scratch buffers (the projection weights and the projected features) before the block's rows; at a later
  point it reads them back as the first point left them.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-point branch's condition of kernel 0, from the grid coordinate. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The body of kernel 0 at a grid point where the first-point branch is taken: on whole memrefs, the inputs at
    their contents, the output buffer at anything, the two scratch buffers at anything, it runs to the continuation holding the
    inputs as they were, the output with the pieces its stores wrote and each scratch with the pieces stored into it. The pieces are found
    by the run itself. -/
noncomputable def kernelRun0_A (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : cond0 i)
    (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) :
    Σ' (L9 : List (View.Piece (Elt F) S256x64 .f32)) (LS0 : List (View.Piece (Elt F) S1x2048 .f32)), { LS1 : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__node_kernel_eq_skeleton]; unfold cc0__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]; · iexists _; iexact HS0
    iexists _; iexact HS1

set_option maxHeartbeats 4000000 in
/-- The body of kernel 0 at a grid point where the first-point branch is not taken: on whole memrefs, the inputs at
    their contents, the output buffer at anything, the two scratch buffers at given contents, it runs to the continuation holding the
    inputs as they were, the output with the pieces its stores wrote and the scratch buffers untouched. The pieces are found
    by the run itself. -/
noncomputable def kernelRun0_B (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : ¬cond0 i)
    (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) (xs0 : Vec F S1x2048 .f32) (xs1 : Vec F S1024x64 .f32) :
    { L9 : List (View.Piece (Elt F) S256x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ owns (c : Thread nD τ) arg10 fullShare xs0 ∗ owns (c : Thread nD τ) arg11 fullShare xs1) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__node_kernel_eq_skeleton]; unfold cc0__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]
    · iexists _; isplitr; · ipureintro; exact harg10.read_unread _
      iexact HS0
    iexists _; isplitr; · ipureintro; exact harg11.read_unread _
    iexact HS1

end Cert.Kernel.Hand

end
-- ==== Proof.KRegion0.lean ====
/-
  Kernel 0 as a pipeline: what every window's staging buffer and the two scratch buffers hold after each grid
  point, the invariant that carries the scratch from the first point to the later ones, and the body
  obligation at every point.  The arrays' contents when the region is entered are a parameter `V`.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import proofs.«181512_g78709570666604_cont_9to1_m_429_6_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .f32 := win0_8.stage (cfg0.slots t 8)
abbrev hs0_8 (t : Fin cfg0.N) : (ms0_8 t).IsWhole := hstage0_8 ((cfg0.slots t 8).cast nbuf0_8)
/-- The two scratch operands. -/
abbrev scM0_0 : Memref sig .tc .vmem S1x2048 .f32 := Memref.whole cc0_scratch0
abbrev scM0_1 : Memref sig .tc .vmem S1024x64 .f32 := Memref.whole cc0_scratch1
/-- Views through which the output's and the scratch buffers' contents are stated. -/
abbrev VO0 : View sig .tc .vmem S256x64 .f32 := (Memref.whole cc0_stg8_0 : Memref sig .tc .vmem S256x64 .f32).view
abbrev VS0_0 : View sig .tc .vmem S1x2048 .f32 := scM0_0.view
abbrev VS0_1 : View sig .tc .vmem S1024x64 .f32 := scM0_1.view

/-- The body's run at the first point, on that point's memrefs and blocks. -/
def runA0 (c : Dev nD) :=
  kernelRun0_A (F := F) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) ((hcond0 t0_0).mpr rfl) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)

/-- What the first point leaves in the two scratch buffers. -/
def scr0_0 (c : Dev nD) : Vec F S1x2048 .f32 := VS0_0.read (Elt F) (VS0_0.writes (Elt F) VS0_0.junk (runA0 V c).2.1)
def scr0_1 (c : Dev nD) : Vec F S1024x64 .f32 := VS0_1.read (Elt F) (VS0_1.writes (Elt F) VS0_1.junk (runA0 V c).2.2.1)

/-- The body's run at a later point, the scratch buffers at what the first point left. -/
def runB0 (c : Dev nD) (t : Fin cfg0.N) (h : ¬t.val = 0) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (scr0_0 V c) (scr0_1 V c)

/-- What the output window's staging buffer holds after the body at point `t`. -/
def outAt0 (c : Dev nD) (t : Fin cfg0.N) : Vec F S256x64 .f32 :=
  if h : t.val = 0 then VO0.read (Elt F) (VO0.writes (Elt F) VO0.junk (runA0 V c).1)
  else VO0.read (Elt F) (VO0.writes (Elt F) VO0.junk (runB0 V c t h).1)

/-- The stores of either run tile the buffers they write. -/
theorem coverA0_out (c : Dev nD) (y : S256x64.Idx) : ∃ pc ∈ (runA0 V c).1, y ∈ pc.1.set :=
  View.cover_of_tiledL (runA0 V c).1 S256x64.size (by sl_kernel_rfl) y
theorem coverA0_s0 (c : Dev nD) (y : S1x2048.Idx) : ∃ pc ∈ (runA0 V c).2.1, y ∈ pc.1.set :=
  View.cover_of_tiledL (runA0 V c).2.1 S1x2048.size (by sl_kernel_rfl) y
theorem coverA0_s1 (c : Dev nD) (y : S1024x64.Idx) : ∃ pc ∈ (runA0 V c).2.2.1, y ∈ pc.1.set :=
  View.cover_of_tiledL (runA0 V c).2.2.1 S1024x64.size (by sl_kernel_rfl) y
theorem coverB0_out (c : Dev nD) (t : Fin cfg0.N) (h : ¬t.val = 0) (y : S256x64.Idx) : ∃ pc ∈ (runB0 V c t h).1, y ∈ pc.1.set :=
  View.cover_of_tiledL (runB0 V c t h).1 S256x64.size (by sl_kernel_rfl) y

/-- The region invariant before position `n`: before the first point every scoped buffer that is no staging buffer
    at anything; afterwards the two scratch buffers at what the first point left, the other such buffers at
    anything; the generator register at some state throughout. -/
def PhiS0 (c : Dev nD) : ℕ → sProp 𝕄
  | 0 => Pipeline.ΦA spec0 c
  | _ + 1 => iprop(iprop(iprop(owns (c : Thread nD τ) scM0_0 fullShare (scr0_0 V c) ∗ owns (c : Thread nD τ) scM0_1 fullShare (scr0_1 V c))
      ∗ Pipeline.scopedRestBut (Ix := Unit) (Name := ℕ) (U := UR sig nD τ) (Lvl := ℕ) (Val := Elt F) spec0 c [cc0_scratch0, cc0_scratch1]) ∗ (∃ r, prngReg c r))

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

theorem PhiS0_succ (c : Dev nD) (n : ℕ) : PhiS0 V c (n + 1)
      = iprop(iprop(iprop(owns (c : Thread nD τ) scM0_0 fullShare (scr0_0 V c) ∗ owns (c : Thread nD τ) scM0_1 fullShare (scr0_1 V c))
      ∗ Pipeline.scopedRestBut (Ix := Unit) (Name := ℕ) (U := UR sig nD τ) (Lvl := ℕ) (Val := Elt F) spec0 c [cc0_scratch0, cc0_scratch1]) ∗ (∃ r, prngReg c r)) := rfl

/-- After any point the invariant gives the class's back: the scratch buffers' named contents are forgotten. -/
theorem PhiS0_out (c : Dev nD) (n : ℕ) : PhiS0 V c (n + 1) ⊢ Pipeline.ΦA spec0 c := by
  rw [PhiS0_succ, PhiA0_eq]
  iintro ⟨⟨⟨HS0, HS1⟩, HB⟩, Hg⟩
  isplitl [HS0 HS1 HB]
  · isplitl [HS0 HS1]
    · isplitl [HS0]; · iexists _; iexact HS0
      iexists _; iexact HS1
    iexact HB
  iexact Hg

/-- The proof data of the pipeline on core `c`: the arrays as the region finds them; after the body each input's
    buffer at its block and the output's at `outAt0`; the two windows on the shared array each at half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outAt0 V c t
  Φ t := PhiS0 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- The shares the arrays are held at: the shared array halved between windows 0 and 1, every other array whole. -/
theorem share0_0 (c : Dev nD) : (dat0 V c).share 0 = fullShare.left := rfl
theorem share0_1 (c : Dev nD) : (dat0 V c).share 1 = fullShare.right := rfl
theorem share0_ge2 (c : Dev nD) : ∀ w : Fin cfg0.W, 2 ≤ w.val → (dat0 V c).share w = fullShare
  | ⟨0, _⟩, h => absurd h (by show ¬ 2 ≤ 0; omega)
  | ⟨1, _⟩, h => absurd h (by show ¬ 2 ≤ 1; omega)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨n + 9, h⟩, _ => absurd h (Nat.not_lt.2 (Nat.le_add_left _ _))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at any point: the inputs' memrefs hold their blocks; at the first point the scratch buffers are handed
    over at anything and come back at what the run stored; at a later point they are handed over at what the first
    point left and come back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) from rfl, show (dat0 V c).Φ t.castSucc = PhiS0 V c t.val from by dsimp only [dat0]; simp only [Fin.coe_castSucc], PhiS0_succ]
  rw [after0_0, after0_1, after0_2, after0_3, after0_4, after0_5, after0_6, after0_7, after0_8]
  by_cases hz : t.val = 0
  · obtain rfl : t = t0_0 := Fin.ext hz
    rw [show PhiS0 V c (t0_0 : Fin cfg0.N).val = Pipeline.ΦA spec0 c from rfl, PhiA0_eq]
    rw [show outAt0 V c t0_0 = VO0.read (Elt F) (VO0.writes (Elt F) VO0.junk (runA0 V c).1) from dif_pos rfl]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA0 V c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, ⟨%es0, HS0⟩, ⟨%es1, HS1⟩⟩
    isplitl [HS0 HS1 HB Hg]
    · isplitl [HS0 HS1 HB]
      · isplitl [HS0 HS1]
        · isplitl [HS0]
          · unfold owns; iexists _; isplitr
            swap; · iexact HS0
            ipureintro; exact View.read_writes_of_cover _ _ _ _ _ (coverA0_s0 V c)
          · unfold owns; iexists _; isplitr
            swap; · iexact HS1
            ipureintro; exact View.read_writes_of_cover _ _ _ _ _ (coverA0_s1 V c)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA0_out V c)
  · obtain ⟨n, hn⟩ : ∃ n, t.val = n + 1 := ⟨t.val - 1, by omega⟩
    rw [show PhiS0 V c t.val = PhiS0 V c (n + 1) from by rw [hn]]
    rw [show outAt0 V c t = VO0.read (Elt F) (VO0.writes (Elt F) VO0.junk (runB0 V c t hz).1) from dif_neg hz]
    rw [PhiS0_succ]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB0 V c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 HB Hg]
    · isplitl [HS0 HS1 HB]
      · isplitl [HS0 HS1]
        · isplitl [HS0]; · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB0_out V c t hz)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KBody1.lean ====
/-
  The body of kernel 1, run symbolically at a grid point of either kind: at the first point it fills its two
  scratch buffers (the projection weights and the projected features) before the block's rows; at a later
  point it reads them back as the first point left them.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-point branch's condition of kernel 1, from the grid coordinate. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

set_option maxHeartbeats 4000000 in
/-- The body of kernel 1 at a grid point where the first-point branch is taken: on whole memrefs, the inputs at
    their contents, the output buffer at anything, the two scratch buffers at anything, it runs to the continuation holding the
    inputs as they were, the output with the pieces its stores wrote and each scratch with the pieces stored into it. The pieces are found
    by the run itself. -/
noncomputable def kernelRun1_A (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) :
    Σ' (L9 : List (View.Piece (Elt F) S256x16 .f32)) (LS0 : List (View.Piece (Elt F) S1024x1 .f32)), { LS1 : List (View.Piece (Elt F) S2048x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]; · iexists _; iexact HS0
    iexists _; iexact HS1

set_option maxHeartbeats 4000000 in
/-- The body of kernel 1 at a grid point where the first-point branch is not taken: on whole memrefs, the inputs at
    their contents, the output buffer at anything, the two scratch buffers at given contents, it runs to the continuation holding the
    inputs as they were, the output with the pieces its stores wrote and the scratch buffers untouched. The pieces are found
    by the run itself. -/
noncomputable def kernelRun1_B (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : ¬cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) (xs0 : Vec F S1024x1 .f32) (xs1 : Vec F S2048x16 .f32) :
    { L9 : List (View.Piece (Elt F) S256x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ owns (c : Thread nD τ) arg10 fullShare xs0 ∗ owns (c : Thread nD τ) arg11 fullShare xs1) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]
    · iexists _; isplitr; · ipureintro; exact harg10.read_unread _
      iexact HS0
    iexists _; isplitr; · ipureintro; exact harg11.read_unread _
    iexact HS1

end Cert.Kernel.Hand

end
-- ==== Proof.KRegion1.lean ====
/-
  Kernel 1 as a pipeline: what every window's staging buffer and the two scratch buffers hold after each grid
  point, the invariant that carries the scratch from the first point to the later ones, and the body
  obligation at every point.  The arrays' contents when the region is entered are a parameter `V`.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import proofs.«181512_g78709570666604_cont_9to1_m_429_6_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x16 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x16 .f32 := win1_8.stage (cfg1.slots t 8)
abbrev hs1_8 (t : Fin cfg1.N) : (ms1_8 t).IsWhole := hstage1_8 ((cfg1.slots t 8).cast nbuf1_8)
/-- The two scratch operands. -/
abbrev scM1_0 : Memref sig .tc .vmem S1024x1 .f32 := Memref.whole cc1_scratch0
abbrev scM1_1 : Memref sig .tc .vmem S2048x16 .f32 := Memref.whole cc1_scratch1
/-- Views through which the output's and the scratch buffers' contents are stated. -/
abbrev VO1 : View sig .tc .vmem S256x16 .f32 := (Memref.whole cc1_stg8_0 : Memref sig .tc .vmem S256x16 .f32).view
abbrev VS1_0 : View sig .tc .vmem S1024x1 .f32 := scM1_0.view
abbrev VS1_1 : View sig .tc .vmem S2048x16 .f32 := scM1_1.view

/-- The body's run at the first point, on that point's memrefs and blocks. -/
def runA1 (c : Dev nD) :=
  kernelRun1_A (F := F) c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1_0 (Memref.isWhole_whole _) scM1_1 (Memref.isWhole_whole _) ((hcond1 t1_0).mpr rfl) (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)

/-- What the first point leaves in the two scratch buffers. -/
def scr1_0 (c : Dev nD) : Vec F S1024x1 .f32 := VS1_0.read (Elt F) (VS1_0.writes (Elt F) VS1_0.junk (runA1 V c).2.1)
def scr1_1 (c : Dev nD) : Vec F S2048x16 .f32 := VS1_1.read (Elt F) (VS1_1.writes (Elt F) VS1_1.junk (runA1 V c).2.2.1)

/-- The body's run at a later point, the scratch buffers at what the first point left. -/
def runB1 (c : Dev nD) (t : Fin cfg1.N) (h : ¬t.val = 0) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun hc => h ((hcond1 t).mp hc)) (iblk1 V c 0 t) (iblk1 V c 1 t) (iblk1 V c 2 t) (iblk1 V c 3 t) (iblk1 V c 4 t) (iblk1 V c 5 t) (iblk1 V c 6 t) (iblk1 V c 7 t) (scr1_0 V c) (scr1_1 V c)

/-- What the output window's staging buffer holds after the body at point `t`. -/
def outAt1 (c : Dev nD) (t : Fin cfg1.N) : Vec F S256x16 .f32 :=
  if h : t.val = 0 then VO1.read (Elt F) (VO1.writes (Elt F) VO1.junk (runA1 V c).1)
  else VO1.read (Elt F) (VO1.writes (Elt F) VO1.junk (runB1 V c t h).1)

/-- The stores of either run tile the buffers they write. -/
theorem coverA1_out (c : Dev nD) (y : S256x16.Idx) : ∃ pc ∈ (runA1 V c).1, y ∈ pc.1.set :=
  View.cover_of_tiledL (runA1 V c).1 S256x16.size (by sl_kernel_rfl) y
theorem coverA1_s0 (c : Dev nD) (y : S1024x1.Idx) : ∃ pc ∈ (runA1 V c).2.1, y ∈ pc.1.set :=
  View.cover_of_tiledL (runA1 V c).2.1 S1024x1.size (by sl_kernel_rfl) y
theorem coverA1_s1 (c : Dev nD) (y : S2048x16.Idx) : ∃ pc ∈ (runA1 V c).2.2.1, y ∈ pc.1.set :=
  View.cover_of_tiledL (runA1 V c).2.2.1 S2048x16.size (by sl_kernel_rfl) y
theorem coverB1_out (c : Dev nD) (t : Fin cfg1.N) (h : ¬t.val = 0) (y : S256x16.Idx) : ∃ pc ∈ (runB1 V c t h).1, y ∈ pc.1.set :=
  View.cover_of_tiledL (runB1 V c t h).1 S256x16.size (by sl_kernel_rfl) y

/-- The region invariant before position `n`: before the first point every scoped buffer that is no staging buffer
    at anything; afterwards the two scratch buffers at what the first point left, the other such buffers at
    anything; the generator register at some state throughout. -/
def PhiS1 (c : Dev nD) : ℕ → sProp 𝕄
  | 0 => Pipeline.ΦA spec1 c
  | _ + 1 => iprop(iprop(iprop(owns (c : Thread nD τ) scM1_0 fullShare (scr1_0 V c) ∗ owns (c : Thread nD τ) scM1_1 fullShare (scr1_1 V c))
      ∗ Pipeline.scopedRestBut (Ix := Unit) (Name := ℕ) (U := UR sig nD τ) (Lvl := ℕ) (Val := Elt F) spec1 c [cc1_scratch0, cc1_scratch1]) ∗ (∃ r, prngReg c r))

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

theorem PhiS1_succ (c : Dev nD) (n : ℕ) : PhiS1 V c (n + 1)
      = iprop(iprop(iprop(owns (c : Thread nD τ) scM1_0 fullShare (scr1_0 V c) ∗ owns (c : Thread nD τ) scM1_1 fullShare (scr1_1 V c))
      ∗ Pipeline.scopedRestBut (Ix := Unit) (Name := ℕ) (U := UR sig nD τ) (Lvl := ℕ) (Val := Elt F) spec1 c [cc1_scratch0, cc1_scratch1]) ∗ (∃ r, prngReg c r)) := rfl

/-- After any point the invariant gives the class's back: the scratch buffers' named contents are forgotten. -/
theorem PhiS1_out (c : Dev nD) (n : ℕ) : PhiS1 V c (n + 1) ⊢ Pipeline.ΦA spec1 c := by
  rw [PhiS1_succ, PhiA1_eq]
  iintro ⟨⟨⟨HS0, HS1⟩, HB⟩, Hg⟩
  isplitl [HS0 HS1 HB]
  · isplitl [HS0 HS1]
    · isplitl [HS0]; · iexists _; iexact HS0
      iexists _; iexact HS1
    iexact HB
  iexact Hg

/-- The proof data of the pipeline on core `c`: the arrays as the region finds them; after the body each input's
    buffer at its block and the output's at `outAt1`; the two windows on the shared array each at half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outAt1 V c t
  Φ t := PhiS1 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- The shares the arrays are held at: the shared array halved between windows 0 and 1, every other array whole. -/
theorem share1_0 (c : Dev nD) : (dat1 V c).share 0 = fullShare.left := rfl
theorem share1_1 (c : Dev nD) : (dat1 V c).share 1 = fullShare.right := rfl
theorem share1_ge2 (c : Dev nD) : ∀ w : Fin cfg1.W, 2 ≤ w.val → (dat1 V c).share w = fullShare
  | ⟨0, _⟩, h => absurd h (by show ¬ 2 ≤ 0; omega)
  | ⟨1, _⟩, h => absurd h (by show ¬ 2 ≤ 1; omega)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨n + 9, h⟩, _ => absurd h (Nat.not_lt.2 (Nat.le_add_left _ _))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks; at the first point the scratch buffers are handed
    over at anything and come back at what the run stored; at a later point they are handed over at what the first
    point left and come back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) from rfl, show (dat1 V c).Φ t.castSucc = PhiS1 V c t.val from by dsimp only [dat1]; simp only [Fin.coe_castSucc], PhiS1_succ]
  rw [after1_0, after1_1, after1_2, after1_3, after1_4, after1_5, after1_6, after1_7, after1_8]
  by_cases hz : t.val = 0
  · obtain rfl : t = t1_0 := Fin.ext hz
    rw [show PhiS1 V c (t1_0 : Fin cfg1.N).val = Pipeline.ΦA spec1 c from rfl, PhiA1_eq]
    rw [show outAt1 V c t1_0 = VO1.read (Elt F) (VO1.writes (Elt F) VO1.junk (runA1 V c).1) from dif_pos rfl]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA1 V c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, ⟨%es0, HS0⟩, ⟨%es1, HS1⟩⟩
    isplitl [HS0 HS1 HB Hg]
    · isplitl [HS0 HS1 HB]
      · isplitl [HS0 HS1]
        · isplitl [HS0]
          · unfold owns; iexists _; isplitr
            swap; · iexact HS0
            ipureintro; exact View.read_writes_of_cover _ _ _ _ _ (coverA1_s0 V c)
          · unfold owns; iexists _; isplitr
            swap; · iexact HS1
            ipureintro; exact View.read_writes_of_cover _ _ _ _ _ (coverA1_s1 V c)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA1_out V c)
  · obtain ⟨n, hn⟩ : ∃ n, t.val = n + 1 := ⟨t.val - 1, by omega⟩
    rw [show PhiS1 V c t.val = PhiS1 V c (n + 1) from by rw [hn]]
    rw [show outAt1 V c t = VO1.read (Elt F) (VO1.writes (Elt F) VO1.junk (runB1 V c t hz).1) from dif_neg hz]
    rw [PhiS1_succ]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB1 V c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 HB Hg]
    · isplitl [HS0 HS1 HB]
      · isplitl [HS0 HS1]
        · isplitl [HS0]; · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB1_out V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KBody2.lean ====
/-
  The body of kernel 2, run symbolically at a grid point of either kind: at the first point it fills its two
  scratch buffers (the projection weights and the projected features) before the block's rows; at a later
  point it reads them back as the first point left them.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-point branch's condition of kernel 2, from the grid coordinate. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

set_option maxHeartbeats 4000000 in
/-- The body of kernel 2 at a grid point where the first-point branch is taken: on whole memrefs, the inputs at
    their contents, the output buffer at anything, the two scratch buffers at anything, it runs to the continuation holding the
    inputs as they were, the output with the pieces its stores wrote and each scratch with the pieces stored into it. The pieces are found
    by the run itself. -/
noncomputable def kernelRun2_A (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : cond2 i)
    (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) :
    Σ' (L9 : List (View.Piece (Elt F) S256x16 .f32)) (LS0 : List (View.Piece (Elt F) S1x2048 .f32)), { LS1 : List (View.Piece (Elt F) S1024x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__node_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__node_kernel_eq_skeleton]; unfold cc2__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]; · iexists _; iexact HS0
    iexists _; iexact HS1

set_option maxHeartbeats 4000000 in
/-- The body of kernel 2 at a grid point where the first-point branch is not taken: on whole memrefs, the inputs at
    their contents, the output buffer at anything, the two scratch buffers at given contents, it runs to the continuation holding the
    inputs as they were, the output with the pieces its stores wrote and the scratch buffers untouched. The pieces are found
    by the run itself. -/
noncomputable def kernelRun2_B (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : ¬cond2 i)
    (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) (xs0 : Vec F S1x2048 .f32) (xs1 : Vec F S1024x16 .f32) :
    { L9 : List (View.Piece (Elt F) S256x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ owns (c : Thread nD τ) arg10 fullShare xs0 ∗ owns (c : Thread nD τ) arg11 fullShare xs1) -∗ K ⟨⟩))
          ⊢ wp frame (wpE (defs₀ (F := F)) Variants.none c none) E (cc2__node_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc2__node_kernel_eq_skeleton]; unfold cc2__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]
    · iexists _; isplitr; · ipureintro; exact harg10.read_unread _
      iexact HS0
    iexists _; isplitr; · ipureintro; exact harg11.read_unread _
    iexact HS1

end Cert.Kernel.Hand

end
-- ==== Proof.KRegion2.lean ====
/-
  Kernel 2 as a pipeline: what every window's staging buffer and the two scratch buffers hold after each grid
  point, the invariant that carries the scratch from the first point to the later ones, and the body
  obligation at every point.  The arrays' contents when the region is entered are a parameter `V`.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import proofs.«181512_g78709570666604_cont_9to1_m_429_6_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, and its wholeness. -/
abbrev ms2_0 (t : Fin cfg2.N) : Memref sig .tc .vmem S256x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x16 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x16 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x16 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x16 .f32 := win2_8.stage (cfg2.slots t 8)
abbrev hs2_8 (t : Fin cfg2.N) : (ms2_8 t).IsWhole := hstage2_8 ((cfg2.slots t 8).cast nbuf2_8)
/-- The two scratch operands. -/
abbrev scM2_0 : Memref sig .tc .vmem S1x2048 .f32 := Memref.whole cc2_scratch0
abbrev scM2_1 : Memref sig .tc .vmem S1024x16 .f32 := Memref.whole cc2_scratch1
/-- Views through which the output's and the scratch buffers' contents are stated. -/
abbrev VO2 : View sig .tc .vmem S256x16 .f32 := (Memref.whole cc2_stg8_0 : Memref sig .tc .vmem S256x16 .f32).view
abbrev VS2_0 : View sig .tc .vmem S1x2048 .f32 := scM2_0.view
abbrev VS2_1 : View sig .tc .vmem S1024x16 .f32 := scM2_1.view

/-- The body's run at the first point, on that point's memrefs and blocks. -/
def runA2 (c : Dev nD) :=
  kernelRun2_A (F := F) c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) (ms2_8 t2_0) (hs2_8 t2_0) scM2_0 (Memref.isWhole_whole _) scM2_1 (Memref.isWhole_whole _) ((hcond2 t2_0).mpr rfl) (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0)

/-- What the first point leaves in the two scratch buffers. -/
def scr2_0 (c : Dev nD) : Vec F S1x2048 .f32 := VS2_0.read (Elt F) (VS2_0.writes (Elt F) VS2_0.junk (runA2 V c).2.1)
def scr2_1 (c : Dev nD) : Vec F S1024x16 .f32 := VS2_1.read (Elt F) (VS2_1.writes (Elt F) VS2_1.junk (runA2 V c).2.2.1)

/-- The body's run at a later point, the scratch buffers at what the first point left. -/
def runB2 (c : Dev nD) (t : Fin cfg2.N) (h : ¬t.val = 0) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hc => h ((hcond2 t).mp hc)) (iblk2 V c 0 t) (iblk2 V c 1 t) (iblk2 V c 2 t) (iblk2 V c 3 t) (iblk2 V c 4 t) (iblk2 V c 5 t) (iblk2 V c 6 t) (iblk2 V c 7 t) (scr2_0 V c) (scr2_1 V c)

/-- What the output window's staging buffer holds after the body at point `t`. -/
def outAt2 (c : Dev nD) (t : Fin cfg2.N) : Vec F S256x16 .f32 :=
  if h : t.val = 0 then VO2.read (Elt F) (VO2.writes (Elt F) VO2.junk (runA2 V c).1)
  else VO2.read (Elt F) (VO2.writes (Elt F) VO2.junk (runB2 V c t h).1)

/-- The stores of either run tile the buffers they write. -/
theorem coverA2_out (c : Dev nD) (y : S256x16.Idx) : ∃ pc ∈ (runA2 V c).1, y ∈ pc.1.set :=
  View.cover_of_tiledL (runA2 V c).1 S256x16.size (by sl_kernel_rfl) y
theorem coverA2_s0 (c : Dev nD) (y : S1x2048.Idx) : ∃ pc ∈ (runA2 V c).2.1, y ∈ pc.1.set :=
  View.cover_of_tiledL (runA2 V c).2.1 S1x2048.size (by sl_kernel_rfl) y
theorem coverA2_s1 (c : Dev nD) (y : S1024x16.Idx) : ∃ pc ∈ (runA2 V c).2.2.1, y ∈ pc.1.set :=
  View.cover_of_tiledL (runA2 V c).2.2.1 S1024x16.size (by sl_kernel_rfl) y
theorem coverB2_out (c : Dev nD) (t : Fin cfg2.N) (h : ¬t.val = 0) (y : S256x16.Idx) : ∃ pc ∈ (runB2 V c t h).1, y ∈ pc.1.set :=
  View.cover_of_tiledL (runB2 V c t h).1 S256x16.size (by sl_kernel_rfl) y

/-- The region invariant before position `n`: before the first point every scoped buffer that is no staging buffer
    at anything; afterwards the two scratch buffers at what the first point left, the other such buffers at
    anything; the generator register at some state throughout. -/
def PhiS2 (c : Dev nD) : ℕ → sProp 𝕄
  | 0 => Pipeline.ΦA spec2 c
  | _ + 1 => iprop(iprop(iprop(owns (c : Thread nD τ) scM2_0 fullShare (scr2_0 V c) ∗ owns (c : Thread nD τ) scM2_1 fullShare (scr2_1 V c))
      ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem PhiS2_succ (c : Dev nD) (n : ℕ) : PhiS2 V c (n + 1)
      = iprop(iprop(iprop(owns (c : Thread nD τ) scM2_0 fullShare (scr2_0 V c) ∗ owns (c : Thread nD τ) scM2_1 fullShare (scr2_1 V c))
      ∗ Pipeline.scopedRestBut (Ix := Unit) (Name := ℕ) (U := UR sig nD τ) (Lvl := ℕ) (Val := Elt F) spec2 c [cc2_scratch0, cc2_scratch1]) ∗ (∃ r, prngReg c r)) := rfl

/-- After any point the invariant gives the class's back: the scratch buffers' named contents are forgotten. -/
theorem PhiS2_out (c : Dev nD) (n : ℕ) : PhiS2 V c (n + 1) ⊢ Pipeline.ΦA spec2 c := by
  rw [PhiS2_succ, PhiA2_eq]
  iintro ⟨⟨⟨HS0, HS1⟩, HB⟩, Hg⟩
  isplitl [HS0 HS1 HB]
  · isplitl [HS0 HS1]
    · isplitl [HS0]; · iexists _; iexact HS0
      iexists _; iexact HS1
    iexact HB
  iexact Hg

/-- The proof data of the pipeline on core `c`: the arrays as the region finds them; after the body each input's
    buffer at its block and the output's at `outAt2`; the two windows on the shared array each at half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outAt2 V c t
  Φ t := PhiS2 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The shares the arrays are held at: the shared array halved between windows 0 and 1, every other array whole. -/
theorem share2_0 (c : Dev nD) : (dat2 V c).share 0 = fullShare.left := rfl
theorem share2_1 (c : Dev nD) : (dat2 V c).share 1 = fullShare.right := rfl
theorem share2_ge2 (c : Dev nD) : ∀ w : Fin cfg2.W, 2 ≤ w.val → (dat2 V c).share w = fullShare
  | ⟨0, _⟩, h => absurd h (by show ¬ 2 ≤ 0; omega)
  | ⟨1, _⟩, h => absurd h (by show ¬ 2 ≤ 1; omega)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨n + 9, h⟩, _ => absurd h (Nat.not_lt.2 (Nat.le_add_left _ _))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks; at the first point the scratch buffers are handed
    over at anything and come back at what the run stored; at a later point they are handed over at what the first
    point left and come back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) from rfl, show (dat2 V c).Φ t.castSucc = PhiS2 V c t.val from by dsimp only [dat2]; simp only [Fin.coe_castSucc], PhiS2_succ]
  rw [after2_0, after2_1, after2_2, after2_3, after2_4, after2_5, after2_6, after2_7, after2_8]
  by_cases hz : t.val = 0
  · obtain rfl : t = t2_0 := Fin.ext hz
    rw [show PhiS2 V c (t2_0 : Fin cfg2.N).val = Pipeline.ΦA spec2 c from rfl, PhiA2_eq]
    rw [show outAt2 V c t2_0 = VO2.read (Elt F) (VO2.writes (Elt F) VO2.junk (runA2 V c).1) from dif_pos rfl]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA2 V c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, ⟨%es0, HS0⟩, ⟨%es1, HS1⟩⟩
    isplitl [HS0 HS1 HB Hg]
    · isplitl [HS0 HS1 HB]
      · isplitl [HS0 HS1]
        · isplitl [HS0]
          · unfold owns; iexists _; isplitr
            swap; · iexact HS0
            ipureintro; exact View.read_writes_of_cover _ _ _ _ _ (coverA2_s0 V c)
          · unfold owns; iexists _; isplitr
            swap; · iexact HS1
            ipureintro; exact View.read_writes_of_cover _ _ _ _ _ (coverA2_s1 V c)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA2_out V c)
  · obtain ⟨n, hn⟩ : ∃ n, t.val = n + 1 := ⟨t.val - 1, by omega⟩
    rw [show PhiS2 V c t.val = PhiS2 V c (n + 1) from by rw [hn]]
    rw [show outAt2 V c t = VO2.read (Elt F) (VO2.writes (Elt F) VO2.junk (runB2 V c t hz).1) from dif_neg hz]
    rw [PhiS2_succ]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB2 V c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 HB Hg]
    · isplitl [HS0 HS1 HB]
      · isplitl [HS0 HS1]
        · isplitl [HS0]; · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB2_out V c t hz)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KShare0.lean ====
/-
  Kernel 0's windows 0 and 1 read one array (the incidence matrix, once by blocks and once whole).  The buffers
  behind the windows' arrays, each held whole, make the pipeline's arrays with that one buffer's ownership split in
  two halves, one per window; and the halves join again when the region is left.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share
variable {c : Dev nD} (dat : Dat τ (Elt F) Unit ℕ (UR sig nD τ) ℕ cfg0 c)

/-- The eight distinct buffers behind the nine windows' arrays. -/
theorem arrRefs0_eq : (Finset.univ.image (Pipeline.arrRef spec0) : Finset (Ref sig .tc)) = [Pipeline.arrRef spec0 1, Pipeline.arrRef spec0 2, Pipeline.arrRef spec0 3, Pipeline.arrRef spec0 4, Pipeline.arrRef spec0 5, Pipeline.arrRef spec0 6, Pipeline.arrRef spec0 7, Pipeline.arrRef spec0 8].toFinset := by decide
theorem arrRefs0_nodup : ([Pipeline.arrRef spec0 1, Pipeline.arrRef spec0 2, Pipeline.arrRef spec0 3, Pipeline.arrRef spec0 4, Pipeline.arrRef spec0 5, Pipeline.arrRef spec0 6, Pipeline.arrRef spec0 7, Pipeline.arrRef spec0 8] : List (Ref sig .tc)).Nodup := by decide

/-- One window's array, whole, at share `q`, as a points-to of the buffer behind it. -/
theorem arr_pt0 (w : Fin cfg0.W) (q : PosShare TreeShare) (hs : dat.share w = q)
    (Fw : (w : Fin cfg0.W) → Buf (Elt F) ((cfg0.win w).arr.view.loc (c.tc : Thread nD τ)))
    (V : (b : Ref sig .tc) → Buf (Elt F) ((c.tc : Thread nD τ).loc b)) (hF : Fw w = V (Pipeline.arrRef spec0 w)) :
    ((cfg0.win w).arr.view.loc (c.tc : Thread nD τ) ↦[(cfg0.win w).arr.view.set]{dat.share w} Fw w : sProp 𝕄)
      = (((c.tc : Thread nD τ).loc (Pipeline.arrRef spec0 w)) ↦{q} V (Pipeline.arrRef spec0 w)) := by
  rw [(arr_whole0 w).set_eq_univ, hs, hF]

/-- The buffers behind the arrays, one by one. -/
theorem arrBufs0_eq (V : (b : Ref sig .tc) → Buf (Elt F) ((c.tc : Thread nD τ).loc b)) :
    (Pipeline.arrBufs spec0 c V : sProp 𝕄) = iprop((((c.tc : Thread nD τ).loc (Pipeline.arrRef spec0 1)) ↦{fullShare} V (Pipeline.arrRef spec0 1)) ∗ (((c.tc : Thread nD τ).loc (Pipeline.arrRef spec0 2)) ↦{fullShare} V (Pipeline.arrRef spec0 2)) ∗ (((c.tc : Thread nD τ).loc (Pipeline.arrRef spec0 3)) ↦{fullShare} V (Pipeline.arrRef spec0 3)) ∗ (((c.tc : Thread nD τ).loc (Pipeline.arrRef spec0 4)) ↦{fullShare} V (Pipeline.arrRef spec0 4)) ∗ (((c.tc : Thread nD τ).loc (Pipeline.arrRef spec0 5)) ↦{fullShare} V (Pipeline.arrRef spec0 5)) ∗ (((c.tc : Thread nD τ).loc (Pipeline.arrRef spec0 6)) ↦{fullShare} V (Pipeline.arrRef spec0 6)) ∗ (((c.tc : Thread nD τ).loc (Pipeline.arrRef spec0 7)) ↦{fullShare} V (Pipeline.arrRef spec0 7)) ∗ (((c.tc : Thread nD τ).loc (Pipeline.arrRef spec0 8)) ↦{fullShare} V (Pipeline.arrRef spec0 8))) := by
  unfold Pipeline.arrBufs
  exact bigSep_eq_bigSepL_of_eq _ arrRefs0_eq arrRefs0_nodup _

/-- ENTRY: the buffers behind the arrays, whole at `V`, are the pipeline's arrays at `V`'s contents, the shared
    buffer split between windows 0 and 1. -/
theorem arrays_of_arrBufs0 (hq0 : dat.share 0 = fullShare.left) (hq1 : dat.share 1 = fullShare.right)
    (hq : ∀ w : Fin cfg0.W, 2 ≤ w.val → dat.share w = fullShare)
    (Fw : (w : Fin cfg0.W) → Buf (Elt F) ((cfg0.win w).arr.view.loc (c.tc : Thread nD τ)))
    (V : (b : Ref sig .tc) → Buf (Elt F) ((c.tc : Thread nD τ).loc b)) (hF : ∀ w, Fw w = V (Pipeline.arrRef spec0 w)) :
    (Pipeline.arrBufs spec0 c V : sProp 𝕄) ⊢ dat.arrays Fw := by
  rw [arrBufs0_eq]; unfold Dat.arrays
  rw [bigSep_W0]
  iintro ⟨H1, H2, H3, H4, H5, H6, H7, H8⟩
  ihave Hs := (pointsTo_share (PosShare.mem_left_op_right fullShare)).1 $$ H1
  icases Hs with ⟨Ha, Hb⟩
  isplitl [Ha]; · iapply (Entails.of_eq (arr_pt0 dat 0 _ hq0 Fw V (hF 0)).symm); iexact Ha
  isplitl [Hb]; · iapply (Entails.of_eq (arr_pt0 dat 1 _ hq1 Fw V (hF 1)).symm); iexact Hb
  isplitl [H2]; · iapply (Entails.of_eq (arr_pt0 dat 2 _ (hq 2 (by decide)) Fw V (hF 2)).symm); iexact H2
  isplitl [H3]; · iapply (Entails.of_eq (arr_pt0 dat 3 _ (hq 3 (by decide)) Fw V (hF 3)).symm); iexact H3
  isplitl [H4]; · iapply (Entails.of_eq (arr_pt0 dat 4 _ (hq 4 (by decide)) Fw V (hF 4)).symm); iexact H4
  isplitl [H5]; · iapply (Entails.of_eq (arr_pt0 dat 5 _ (hq 5 (by decide)) Fw V (hF 5)).symm); iexact H5
  isplitl [H6]; · iapply (Entails.of_eq (arr_pt0 dat 6 _ (hq 6 (by decide)) Fw V (hF 6)).symm); iexact H6
  isplitl [H7]; · iapply (Entails.of_eq (arr_pt0 dat 7 _ (hq 7 (by decide)) Fw V (hF 7)).symm); iexact H7
  iapply (Entails.of_eq (arr_pt0 dat 8 _ (hq 8 (by decide)) Fw V (hF 8)).symm); iexact H8

/-- EXIT: the pipeline's arrays at `V`'s contents are the buffers behind them whole at `V`, the two halves joined. -/
theorem arrBufs_of_arrays0 (hq0 : dat.share 0 = fullShare.left) (hq1 : dat.share 1 = fullShare.right)
    (hq : ∀ w : Fin cfg0.W, 2 ≤ w.val → dat.share w = fullShare)
    (Fw : (w : Fin cfg0.W) → Buf (Elt F) ((cfg0.win w).arr.view.loc (c.tc : Thread nD τ)))
    (V : (b : Ref sig .tc) → Buf (Elt F) ((c.tc : Thread nD τ).loc b)) (hF : ∀ w, Fw w = V (Pipeline.arrRef spec0 w)) :
    dat.arrays Fw ⊢ (Pipeline.arrBufs spec0 c V : sProp 𝕄) := by
  rw [arrBufs0_eq]; unfold Dat.arrays
  rw [bigSep_W0]
  iintro ⟨Ha, Hb, H2, H3, H4, H5, H6, H7, H8⟩
  isplitl [Ha Hb]
  · iapply (pointsTo_share (PosShare.mem_left_op_right fullShare)).2
    isplitl [Ha]; · iapply (Entails.of_eq (arr_pt0 dat 0 _ hq0 Fw V (hF 0))); iexact Ha
    iapply (Entails.of_eq (arr_pt0 dat 1 _ hq1 Fw V (hF 1))); iexact Hb
  isplitl [H2]; · iapply (Entails.of_eq (arr_pt0 dat 2 _ (hq 2 (by decide)) Fw V (hF 2))); iexact H2
  isplitl [H3]; · iapply (Entails.of_eq (arr_pt0 dat 3 _ (hq 3 (by decide)) Fw V (hF 3))); iexact H3
  isplitl [H4]; · iapply (Entails.of_eq (arr_pt0 dat 4 _ (hq 4 (by decide)) Fw V (hF 4))); iexact H4
  isplitl [H5]; · iapply (Entails.of_eq (arr_pt0 dat 5 _ (hq 5 (by decide)) Fw V (hF 5))); iexact H5
  isplitl [H6]; · iapply (Entails.of_eq (arr_pt0 dat 6 _ (hq 6 (by decide)) Fw V (hF 6))); iexact H6
  isplitl [H7]; · iapply (Entails.of_eq (arr_pt0 dat 7 _ (hq 7 (by decide)) Fw V (hF 7))); iexact H7
  iapply (Entails.of_eq (arr_pt0 dat 8 _ (hq 8 (by decide)) Fw V (hF 8))); iexact H8

/-- ENTRY, from a core's unscoped buffers at `V`: the pipeline's arrays and the unscoped rest. -/
theorem arrays_of_unscopedBufs0 (hq0 : dat.share 0 = fullShare.left) (hq1 : dat.share 1 = fullShare.right)
    (hq : ∀ w : Fin cfg0.W, 2 ≤ w.val → dat.share w = fullShare)
    (V : (b : Ref sig .tc) → Buf (Elt F) ((c.tc : Thread nD τ).loc b)) (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs (0 : Fin 3) winFacts₀0.arr_unscoped c V]
  exact sep_mono (arrays_of_arrBufs0 dat hq0 hq1 hq _ V fun w => by rw [show dat.arrAt w 0 = dat.A w from rfl, hA]) .rfl

/-- EXIT, to a core's unscoped buffers at any valuation `V'` that has the arrays at `Fw` and agrees with `V` off them. -/
theorem unscopedBufs_of_arrays0 (hq0 : dat.share 0 = fullShare.left) (hq1 : dat.share 1 = fullShare.right)
    (hq : ∀ w : Fin cfg0.W, 2 ≤ w.val → dat.share w = fullShare)
    (V V' : (b : Ref sig .tc) → Buf (Elt F) ((c.tc : Thread nD τ).loc b))
    (Fw : (w : Fin cfg0.W) → Buf (Elt F) ((cfg0.win w).arr.view.loc (c.tc : Thread nD τ)))
    (hF : ∀ w, Fw w = V' (Pipeline.arrRef spec0 w))
    (hrest : ∀ b, b ∉ Finset.univ.image (Pipeline.arrRef spec0) → V' b = V b) :
    iprop(dat.arrays Fw ∗ Pipeline.unscopedRest spec0 c V) ⊢ (unscopedBufs c V' : sProp 𝕄) := by
  rw [Pipeline.unscopedBufs_split₀ cfgs (0 : Fin 3) winFacts₀0.arr_unscoped c V']
  refine sep_mono (arrBufs_of_arrays0 dat hq0 hq1 hq Fw V' hF) (Entails.of_eq ?_)
  unfold Pipeline.unscopedRest
  exact bigSep_congr fun b hb => by rw [hrest b (Finset.mem_sdiff.mp hb).2]

end Share

end Cert.Kernel.Hand

end
-- ==== Proof.KShare1.lean ====
/-
  Kernel 1's windows 0 and 1 read one array (the incidence matrix, once by blocks and once whole).  The buffers
  behind the windows' arrays, each held whole, make the pipeline's arrays with that one buffer's ownership split in
  two halves, one per window; and the halves join again when the region is left.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share
variable {c : Dev nD} (dat : Dat τ (Elt F) Unit ℕ (UR sig nD τ) ℕ cfg1 c)

/-- The eight distinct buffers behind the nine windows' arrays. -/
theorem arrRefs1_eq : (Finset.univ.image (Pipeline.arrRef spec1) : Finset (Ref sig .tc)) = [Pipeline.arrRef spec1 1, Pipeline.arrRef spec1 2, Pipeline.arrRef spec1 3, Pipeline.arrRef spec1 4, Pipeline.arrRef spec1 5, Pipeline.arrRef spec1 6, Pipeline.arrRef spec1 7, Pipeline.arrRef spec1 8].toFinset := by decide
theorem arrRefs1_nodup : ([Pipeline.arrRef spec1 1, Pipeline.arrRef spec1 2, Pipeline.arrRef spec1 3, Pipeline.arrRef spec1 4, Pipeline.arrRef spec1 5, Pipeline.arrRef spec1 6, Pipeline.arrRef spec1 7, Pipeline.arrRef spec1 8] : List (Ref sig .tc)).Nodup := by decide

/-- One window's array, whole, at share `q`, as a points-to of the buffer behind it. -/
theorem arr_pt1 (w : Fin cfg1.W) (q : PosShare TreeShare) (hs : dat.share w = q)
    (Fw : (w : Fin cfg1.W) → Buf (Elt F) ((cfg1.win w).arr.view.loc (c.tc : Thread nD τ)))
    (V : (b : Ref sig .tc) → Buf (Elt F) ((c.tc : Thread nD τ).loc b)) (hF : Fw w = V (Pipeline.arrRef spec1 w)) :
    ((cfg1.win w).arr.view.loc (c.tc : Thread nD τ) ↦[(cfg1.win w).arr.view.set]{dat.share w} Fw w : sProp 𝕄)
      = (((c.tc : Thread nD τ).loc (Pipeline.arrRef spec1 w)) ↦{q} V (Pipeline.arrRef spec1 w)) := by
  rw [(arr_whole1 w).set_eq_univ, hs, hF]

/-- The buffers behind the arrays, one by one. -/
theorem arrBufs1_eq (V : (b : Ref sig .tc) → Buf (Elt F) ((c.tc : Thread nD τ).loc b)) :
    (Pipeline.arrBufs spec1 c V : sProp 𝕄) = iprop((((c.tc : Thread nD τ).loc (Pipeline.arrRef spec1 1)) ↦{fullShare} V (Pipeline.arrRef spec1 1)) ∗ (((c.tc : Thread nD τ).loc (Pipeline.arrRef spec1 2)) ↦{fullShare} V (Pipeline.arrRef spec1 2)) ∗ (((c.tc : Thread nD τ).loc (Pipeline.arrRef spec1 3)) ↦{fullShare} V (Pipeline.arrRef spec1 3)) ∗ (((c.tc : Thread nD τ).loc (Pipeline.arrRef spec1 4)) ↦{fullShare} V (Pipeline.arrRef spec1 4)) ∗ (((c.tc : Thread nD τ).loc (Pipeline.arrRef spec1 5)) ↦{fullShare} V (Pipeline.arrRef spec1 5)) ∗ (((c.tc : Thread nD τ).loc (Pipeline.arrRef spec1 6)) ↦{fullShare} V (Pipeline.arrRef spec1 6)) ∗ (((c.tc : Thread nD τ).loc (Pipeline.arrRef spec1 7)) ↦{fullShare} V (Pipeline.arrRef spec1 7)) ∗ (((c.tc : Thread nD τ).loc (Pipeline.arrRef spec1 8)) ↦{fullShare} V (Pipeline.arrRef spec1 8))) := by
  unfold Pipeline.arrBufs
  exact bigSep_eq_bigSepL_of_eq _ arrRefs1_eq arrRefs1_nodup _

/-- ENTRY: the buffers behind the arrays, whole at `V`, are the pipeline's arrays at `V`'s contents, the shared
    buffer split between windows 0 and 1. -/
theorem arrays_of_arrBufs1 (hq0 : dat.share 0 = fullShare.left) (hq1 : dat.share 1 = fullShare.right)
    (hq : ∀ w : Fin cfg1.W, 2 ≤ w.val → dat.share w = fullShare)
    (Fw : (w : Fin cfg1.W) → Buf (Elt F) ((cfg1.win w).arr.view.loc (c.tc : Thread nD τ)))
    (V : (b : Ref sig .tc) → Buf (Elt F) ((c.tc : Thread nD τ).loc b)) (hF : ∀ w, Fw w = V (Pipeline.arrRef spec1 w)) :
    (Pipeline.arrBufs spec1 c V : sProp 𝕄) ⊢ dat.arrays Fw := by
  rw [arrBufs1_eq]; unfold Dat.arrays
  rw [bigSep_W1]
  iintro ⟨H1, H2, H3, H4, H5, H6, H7, H8⟩
  ihave Hs := (pointsTo_share (PosShare.mem_left_op_right fullShare)).1 $$ H1
  icases Hs with ⟨Ha, Hb⟩
  isplitl [Ha]; · iapply (Entails.of_eq (arr_pt1 dat 0 _ hq0 Fw V (hF 0)).symm); iexact Ha
  isplitl [Hb]; · iapply (Entails.of_eq (arr_pt1 dat 1 _ hq1 Fw V (hF 1)).symm); iexact Hb
  isplitl [H2]; · iapply (Entails.of_eq (arr_pt1 dat 2 _ (hq 2 (by decide)) Fw V (hF 2)).symm); iexact H2
  isplitl [H3]; · iapply (Entails.of_eq (arr_pt1 dat 3 _ (hq 3 (by decide)) Fw V (hF 3)).symm); iexact H3
  isplitl [H4]; · iapply (Entails.of_eq (arr_pt1 dat 4 _ (hq 4 (by decide)) Fw V (hF 4)).symm); iexact H4
  isplitl [H5]; · iapply (Entails.of_eq (arr_pt1 dat 5 _ (hq 5 (by decide)) Fw V (hF 5)).symm); iexact H5
  isplitl [H6]; · iapply (Entails.of_eq (arr_pt1 dat 6 _ (hq 6 (by decide)) Fw V (hF 6)).symm); iexact H6
  isplitl [H7]; · iapply (Entails.of_eq (arr_pt1 dat 7 _ (hq 7 (by decide)) Fw V (hF 7)).symm); iexact H7
  iapply (Entails.of_eq (arr_pt1 dat 8 _ (hq 8 (by decide)) Fw V (hF 8)).symm); iexact H8

/-- EXIT: the pipeline's arrays at `V`'s contents are the buffers behind them whole at `V`, the two halves joined. -/
theorem arrBufs_of_arrays1 (hq0 : dat.share 0 = fullShare.left) (hq1 : dat.share 1 = fullShare.right)
    (hq : ∀ w : Fin cfg1.W, 2 ≤ w.val → dat.share w = fullShare)
    (Fw : (w : Fin cfg1.W) → Buf (Elt F) ((cfg1.win w).arr.view.loc (c.tc : Thread nD τ)))
    (V : (b : Ref sig .tc) → Buf (Elt F) ((c.tc : Thread nD τ).loc b)) (hF : ∀ w, Fw w = V (Pipeline.arrRef spec1 w)) :
    dat.arrays Fw ⊢ (Pipeline.arrBufs spec1 c V : sProp 𝕄) := by
  rw [arrBufs1_eq]; unfold Dat.arrays
  rw [bigSep_W1]
  iintro ⟨Ha, Hb, H2, H3, H4, H5, H6, H7, H8⟩
  isplitl [Ha Hb]
  · iapply (pointsTo_share (PosShare.mem_left_op_right fullShare)).2
    isplitl [Ha]; · iapply (Entails.of_eq (arr_pt1 dat 0 _ hq0 Fw V (hF 0))); iexact Ha
    iapply (Entails.of_eq (arr_pt1 dat 1 _ hq1 Fw V (hF 1))); iexact Hb
  isplitl [H2]; · iapply (Entails.of_eq (arr_pt1 dat 2 _ (hq 2 (by decide)) Fw V (hF 2))); iexact H2
  isplitl [H3]; · iapply (Entails.of_eq (arr_pt1 dat 3 _ (hq 3 (by decide)) Fw V (hF 3))); iexact H3
  isplitl [H4]; · iapply (Entails.of_eq (arr_pt1 dat 4 _ (hq 4 (by decide)) Fw V (hF 4))); iexact H4
  isplitl [H5]; · iapply (Entails.of_eq (arr_pt1 dat 5 _ (hq 5 (by decide)) Fw V (hF 5))); iexact H5
  isplitl [H6]; · iapply (Entails.of_eq (arr_pt1 dat 6 _ (hq 6 (by decide)) Fw V (hF 6))); iexact H6
  isplitl [H7]; · iapply (Entails.of_eq (arr_pt1 dat 7 _ (hq 7 (by decide)) Fw V (hF 7))); iexact H7
  iapply (Entails.of_eq (arr_pt1 dat 8 _ (hq 8 (by decide)) Fw V (hF 8))); iexact H8

/-- ENTRY, from a core's unscoped buffers at `V`: the pipeline's arrays and the unscoped rest. -/
theorem arrays_of_unscopedBufs1 (hq0 : dat.share 0 = fullShare.left) (hq1 : dat.share 1 = fullShare.right)
    (hq : ∀ w : Fin cfg1.W, 2 ≤ w.val → dat.share w = fullShare)
    (V : (b : Ref sig .tc) → Buf (Elt F) ((c.tc : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs (1 : Fin 3) winFacts₀1.arr_unscoped c V]
  exact sep_mono (arrays_of_arrBufs1 dat hq0 hq1 hq _ V fun w => by rw [show dat.arrAt w 0 = dat.A w from rfl, hA]) .rfl

/-- EXIT, to a core's unscoped buffers at any valuation `V'` that has the arrays at `Fw` and agrees with `V` off them. -/
theorem unscopedBufs_of_arrays1 (hq0 : dat.share 0 = fullShare.left) (hq1 : dat.share 1 = fullShare.right)
    (hq : ∀ w : Fin cfg1.W, 2 ≤ w.val → dat.share w = fullShare)
    (V V' : (b : Ref sig .tc) → Buf (Elt F) ((c.tc : Thread nD τ).loc b))
    (Fw : (w : Fin cfg1.W) → Buf (Elt F) ((cfg1.win w).arr.view.loc (c.tc : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) := by
  rw [Pipeline.unscopedBufs_split₀ cfgs (1 : Fin 3) winFacts₀1.arr_unscoped c V']
  refine sep_mono (arrBufs_of_arrays1 dat hq0 hq1 hq Fw V' hF) (Entails.of_eq ?_)
  unfold Pipeline.unscopedRest
  exact bigSep_congr fun b hb => by rw [hrest b (Finset.mem_sdiff.mp hb).2]

end Share

end Cert.Kernel.Hand

end
-- ==== Proof.KShare2.lean ====
/-
  Kernel 2's windows 0 and 1 read one array (the incidence matrix, once by blocks and once whole).  The buffers
  behind the windows' arrays, each held whole, make the pipeline's arrays with that one buffer's ownership split in
  two halves, one per window; and the halves join again when the region is left.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share
variable {c : Dev nD} (dat : Dat τ (Elt F) Unit ℕ (UR sig nD τ) ℕ cfg2 c)

/-- The eight distinct buffers behind the nine windows' arrays. -/
theorem arrRefs2_eq : (Finset.univ.image (Pipeline.arrRef spec2) : Finset (Ref sig .tc)) = [Pipeline.arrRef spec2 1, Pipeline.arrRef spec2 2, Pipeline.arrRef spec2 3, Pipeline.arrRef spec2 4, Pipeline.arrRef spec2 5, Pipeline.arrRef spec2 6, Pipeline.arrRef spec2 7, Pipeline.arrRef spec2 8].toFinset := by decide
theorem arrRefs2_nodup : ([Pipeline.arrRef spec2 1, Pipeline.arrRef spec2 2, Pipeline.arrRef spec2 3, Pipeline.arrRef spec2 4, Pipeline.arrRef spec2 5, Pipeline.arrRef spec2 6, Pipeline.arrRef spec2 7, Pipeline.arrRef spec2 8] : List (Ref sig .tc)).Nodup := by decide

/-- One window's array, whole, at share `q`, as a points-to of the buffer behind it. -/
theorem arr_pt2 (w : Fin cfg2.W) (q : PosShare TreeShare) (hs : dat.share w = q)
    (Fw : (w : Fin cfg2.W) → Buf (Elt F) ((cfg2.win w).arr.view.loc (c.tc : Thread nD τ)))
    (V : (b : Ref sig .tc) → Buf (Elt F) ((c.tc : Thread nD τ).loc b)) (hF : Fw w = V (Pipeline.arrRef spec2 w)) :
    ((cfg2.win w).arr.view.loc (c.tc : Thread nD τ) ↦[(cfg2.win w).arr.view.set]{dat.share w} Fw w : sProp 𝕄)
      = (((c.tc : Thread nD τ).loc (Pipeline.arrRef spec2 w)) ↦{q} V (Pipeline.arrRef spec2 w)) := by
  rw [(arr_whole2 w).set_eq_univ, hs, hF]

/-- The buffers behind the arrays, one by one. -/
theorem arrBufs2_eq (V : (b : Ref sig .tc) → Buf (Elt F) ((c.tc : Thread nD τ).loc b)) :
    (Pipeline.arrBufs spec2 c V : sProp 𝕄) = iprop((((c.tc : Thread nD τ).loc (Pipeline.arrRef spec2 1)) ↦{fullShare} V (Pipeline.arrRef spec2 1)) ∗ (((c.tc : Thread nD τ).loc (Pipeline.arrRef spec2 2)) ↦{fullShare} V (Pipeline.arrRef spec2 2)) ∗ (((c.tc : Thread nD τ).loc (Pipeline.arrRef spec2 3)) ↦{fullShare} V (Pipeline.arrRef spec2 3)) ∗ (((c.tc : Thread nD τ).loc (Pipeline.arrRef spec2 4)) ↦{fullShare} V (Pipeline.arrRef spec2 4)) ∗ (((c.tc : Thread nD τ).loc (Pipeline.arrRef spec2 5)) ↦{fullShare} V (Pipeline.arrRef spec2 5)) ∗ (((c.tc : Thread nD τ).loc (Pipeline.arrRef spec2 6)) ↦{fullShare} V (Pipeline.arrRef spec2 6)) ∗ (((c.tc : Thread nD τ).loc (Pipeline.arrRef spec2 7)) ↦{fullShare} V (Pipeline.arrRef spec2 7)) ∗ (((c.tc : Thread nD τ).loc (Pipeline.arrRef spec2 8)) ↦{fullShare} V (Pipeline.arrRef spec2 8))) := by
  unfold Pipeline.arrBufs
  exact bigSep_eq_bigSepL_of_eq _ arrRefs2_eq arrRefs2_nodup _

/-- ENTRY: the buffers behind the arrays, whole at `V`, are the pipeline's arrays at `V`'s contents, the shared
    buffer split between windows 0 and 1. -/
theorem arrays_of_arrBufs2 (hq0 : dat.share 0 = fullShare.left) (hq1 : dat.share 1 = fullShare.right)
    (hq : ∀ w : Fin cfg2.W, 2 ≤ w.val → dat.share w = fullShare)
    (Fw : (w : Fin cfg2.W) → Buf (Elt F) ((cfg2.win w).arr.view.loc (c.tc : Thread nD τ)))
    (V : (b : Ref sig .tc) → Buf (Elt F) ((c.tc : Thread nD τ).loc b)) (hF : ∀ w, Fw w = V (Pipeline.arrRef spec2 w)) :
    (Pipeline.arrBufs spec2 c V : sProp 𝕄) ⊢ dat.arrays Fw := by
  rw [arrBufs2_eq]; unfold Dat.arrays
  rw [bigSep_W2]
  iintro ⟨H1, H2, H3, H4, H5, H6, H7, H8⟩
  ihave Hs := (pointsTo_share (PosShare.mem_left_op_right fullShare)).1 $$ H1
  icases Hs with ⟨Ha, Hb⟩
  isplitl [Ha]; · iapply (Entails.of_eq (arr_pt2 dat 0 _ hq0 Fw V (hF 0)).symm); iexact Ha
  isplitl [Hb]; · iapply (Entails.of_eq (arr_pt2 dat 1 _ hq1 Fw V (hF 1)).symm); iexact Hb
  isplitl [H2]; · iapply (Entails.of_eq (arr_pt2 dat 2 _ (hq 2 (by decide)) Fw V (hF 2)).symm); iexact H2
  isplitl [H3]; · iapply (Entails.of_eq (arr_pt2 dat 3 _ (hq 3 (by decide)) Fw V (hF 3)).symm); iexact H3
  isplitl [H4]; · iapply (Entails.of_eq (arr_pt2 dat 4 _ (hq 4 (by decide)) Fw V (hF 4)).symm); iexact H4
  isplitl [H5]; · iapply (Entails.of_eq (arr_pt2 dat 5 _ (hq 5 (by decide)) Fw V (hF 5)).symm); iexact H5
  isplitl [H6]; · iapply (Entails.of_eq (arr_pt2 dat 6 _ (hq 6 (by decide)) Fw V (hF 6)).symm); iexact H6
  isplitl [H7]; · iapply (Entails.of_eq (arr_pt2 dat 7 _ (hq 7 (by decide)) Fw V (hF 7)).symm); iexact H7
  iapply (Entails.of_eq (arr_pt2 dat 8 _ (hq 8 (by decide)) Fw V (hF 8)).symm); iexact H8

/-- EXIT: the pipeline's arrays at `V`'s contents are the buffers behind them whole at `V`, the two halves joined. -/
theorem arrBufs_of_arrays2 (hq0 : dat.share 0 = fullShare.left) (hq1 : dat.share 1 = fullShare.right)
    (hq : ∀ w : Fin cfg2.W, 2 ≤ w.val → dat.share w = fullShare)
    (Fw : (w : Fin cfg2.W) → Buf (Elt F) ((cfg2.win w).arr.view.loc (c.tc : Thread nD τ)))
    (V : (b : Ref sig .tc) → Buf (Elt F) ((c.tc : Thread nD τ).loc b)) (hF : ∀ w, Fw w = V (Pipeline.arrRef spec2 w)) :
    dat.arrays Fw ⊢ (Pipeline.arrBufs spec2 c V : sProp 𝕄) := by
  rw [arrBufs2_eq]; unfold Dat.arrays
  rw [bigSep_W2]
  iintro ⟨Ha, Hb, H2, H3, H4, H5, H6, H7, H8⟩
  isplitl [Ha Hb]
  · iapply (pointsTo_share (PosShare.mem_left_op_right fullShare)).2
    isplitl [Ha]; · iapply (Entails.of_eq (arr_pt2 dat 0 _ hq0 Fw V (hF 0))); iexact Ha
    iapply (Entails.of_eq (arr_pt2 dat 1 _ hq1 Fw V (hF 1))); iexact Hb
  isplitl [H2]; · iapply (Entails.of_eq (arr_pt2 dat 2 _ (hq 2 (by decide)) Fw V (hF 2))); iexact H2
  isplitl [H3]; · iapply (Entails.of_eq (arr_pt2 dat 3 _ (hq 3 (by decide)) Fw V (hF 3))); iexact H3
  isplitl [H4]; · iapply (Entails.of_eq (arr_pt2 dat 4 _ (hq 4 (by decide)) Fw V (hF 4))); iexact H4
  isplitl [H5]; · iapply (Entails.of_eq (arr_pt2 dat 5 _ (hq 5 (by decide)) Fw V (hF 5))); iexact H5
  isplitl [H6]; · iapply (Entails.of_eq (arr_pt2 dat 6 _ (hq 6 (by decide)) Fw V (hF 6))); iexact H6
  isplitl [H7]; · iapply (Entails.of_eq (arr_pt2 dat 7 _ (hq 7 (by decide)) Fw V (hF 7))); iexact H7
  iapply (Entails.of_eq (arr_pt2 dat 8 _ (hq 8 (by decide)) Fw V (hF 8))); iexact H8

/-- ENTRY, from a core's unscoped buffers at `V`: the pipeline's arrays and the unscoped rest. -/
theorem arrays_of_unscopedBufs2 (hq0 : dat.share 0 = fullShare.left) (hq1 : dat.share 1 = fullShare.right)
    (hq : ∀ w : Fin cfg2.W, 2 ≤ w.val → dat.share w = fullShare)
    (V : (b : Ref sig .tc) → Buf (Elt F) ((c.tc : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs (2 : Fin 3) winFacts₀2.arr_unscoped c V]
  exact sep_mono (arrays_of_arrBufs2 dat hq0 hq1 hq _ V fun w => by rw [show dat.arrAt w 0 = dat.A w from rfl, hA]) .rfl

/-- EXIT, to a core's unscoped buffers at any valuation `V'` that has the arrays at `Fw` and agrees with `V` off them. -/
theorem unscopedBufs_of_arrays2 (hq0 : dat.share 0 = fullShare.left) (hq1 : dat.share 1 = fullShare.right)
    (hq : ∀ w : Fin cfg2.W, 2 ≤ w.val → dat.share w = fullShare)
    (V V' : (b : Ref sig .tc) → Buf (Elt F) ((c.tc : Thread nD τ).loc b))
    (Fw : (w : Fin cfg2.W) → Buf (Elt F) ((cfg2.win w).arr.view.loc (c.tc : Thread nD τ)))
    (hF : ∀ w, Fw w = V' (Pipeline.arrRef spec2 w))
    (hrest : ∀ b, b ∉ Finset.univ.image (Pipeline.arrRef spec2) → V' b = V b) :
    iprop(dat.arrays Fw ∗ Pipeline.unscopedRest spec2 c V) ⊢ (unscopedBufs c V' : sProp 𝕄) := by
  rw [Pipeline.unscopedBufs_split₀ cfgs (2 : Fin 3) winFacts₀2.arr_unscoped c V']
  refine sep_mono (arrBufs_of_arrays2 dat hq0 hq1 hq Fw V' hF) (Entails.of_eq ?_)
  unfold Pipeline.unscopedRest
  exact bigSep_congr fun b hb => by rw [hrest b (Finset.mem_sdiff.mp hb).2]

end Share

end Cert.Kernel.Hand

end
-- ==== Proof.KRun.lean ====
/-
  The whole program as four segments — the three reshapes of the biases, then the three kernels — run from the
  launch to the return: the contents of every unscoped buffer at each boundary, every pipeline's proof data at its
  region's entry contents, each region as a segment, and the run, whose final memory holds every unscoped buffer
  at the last boundary's contents.
-/
import proofs.«181512_g78709570666604_cont_9to1_m_429_6_alg».proof.Proof.Gen.Kernel.Launch
import proofs.«181512_g78709570666604_cont_9to1_m_429_6_alg».proof.Proof.Gen.Kernel.Skeleton
import proofs.«181512_g78709570666604_cont_9to1_m_429_6_alg».proof.Proof.Gen.Kernel.Points
import proofs.«181512_g78709570666604_cont_9to1_m_429_6_alg».proof.Proof.Gen.Kernel.Regions
import proofs.«181512_g78709570666604_cont_9to1_m_429_6_alg».proof.Proof.KRegion0
import proofs.«181512_g78709570666604_cont_9to1_m_429_6_alg».proof.Proof.KRegion1
import proofs.«181512_g78709570666604_cont_9to1_m_429_6_alg».proof.Proof.KRegion2
import proofs.«181512_g78709570666604_cont_9to1_m_429_6_alg».proof.Proof.KShare0
import proofs.«181512_g78709570666604_cont_9to1_m_429_6_alg».proof.Proof.KShare1
import proofs.«181512_g78709570666604_cont_9to1_m_429_6_alg».proof.Proof.KShare2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev U0 (c : Dev nD) : Valuation τ sig (Elt F) := fun b => m (c, b)
/-- After the three reshapes (region 0's entry). -/
abbrev U1 (c : Dev nD) : Valuation τ sig (Elt F) := StableHlo.after hostOps0 (U0 m c)
abbrev R1 (c : Dev nD) (b : Ref sig .tc) : Buf (Elt F) ((c : Thread nD τ).loc b) := U1 m c b
/-- After region 0: its result array at what the pipeline leaves, every other buffer as before. -/
def U2 (c : Dev nD) : Valuation τ sig (Elt F) := Function.update (U1 m c) (Proc.devRef .tc main_v3) ((dat0 (R1 m) c).arrAt 8 cfg0.N)
abbrev R2 (c : Dev nD) (b : Ref sig .tc) : Buf (Elt F) ((c : Thread nD τ).loc b) := U2 m c b
/-- After region 1. -/
def U3 (c : Dev nD) : Valuation τ sig (Elt F) := Function.update (U2 m c) (Proc.devRef .tc main_v4) ((dat1 (R2 m) c).arrAt 8 cfg1.N)
abbrev R3 (c : Dev nD) (b : Ref sig .tc) : Buf (Elt F) ((c : Thread nD τ).loc b) := U3 m c b
/-- After region 2. -/
def U4 (c : Dev nD) : Valuation τ sig (Elt F) := Function.update (U3 m c) (Proc.devRef .tc main_v5) ((dat2 (R3 m) c).arrAt 8 cfg2.N)
abbrev R4 (c : Dev nD) (b : Ref sig .tc) : Buf (Elt F) ((c : Thread nD τ).loc b) := U4 m c b

theorem U2_self (c : Dev nD) : R2 m c main_v3 = (dat0 (R1 m) c).arrAt 8 cfg0.N := by delta R2 U2; exact Function.update_self ..
theorem U2_of_ne (c : Dev nD) (b : Ref sig .tc) (h : b ≠ main_v3) : R2 m c b = R1 m c b := by
  delta R2 U2; exact Function.update_of_ne (StableHlo.devRef_ne_of_ne h) ..
theorem U3_self (c : Dev nD) : R3 m c main_v4 = (dat1 (R2 m) c).arrAt 8 cfg1.N := by delta R3 U3; exact Function.update_self ..
theorem U3_of_ne (c : Dev nD) (b : Ref sig .tc) (h : b ≠ main_v4) : R3 m c b = R2 m c b := by
  delta R3 U3; exact Function.update_of_ne (StableHlo.devRef_ne_of_ne h) ..
theorem U4_self (c : Dev nD) : R4 m c main_v5 = (dat2 (R3 m) c).arrAt 8 cfg2.N := by delta R4 U4; exact Function.update_self ..
theorem U4_of_ne (c : Dev nD) (b : Ref sig .tc) (h : b ≠ main_v5) : R4 m c b = R3 m c b := by
  delta R4 U4; exact Function.update_of_ne (StableHlo.devRef_ne_of_ne h) ..

/-- At region 0's exit each of its arrays holds what the pipeline leaves there, and every other buffer what it held at entry. -/
theorem hF0 (c : Dev nD) : ∀ w : Fin cfg0.W, (dat0 (R1 m) c).arrAt w cfg0.N = R2 m c (Pipeline.arrRef spec0 w)
  | ⟨0, _⟩ => ((dat0 (R1 m) c).arrAt_in 0 rfl _).trans ((A_eq0 (R1 m) c 0).trans (U2_of_ne m c _ (by decide)).symm)
  | ⟨1, _⟩ => ((dat0 (R1 m) c).arrAt_in 1 rfl _).trans ((A_eq0 (R1 m) c 1).trans (U2_of_ne m c _ (by decide)).symm)
  | ⟨2, _⟩ => ((dat0 (R1 m) c).arrAt_in 2 rfl _).trans ((A_eq0 (R1 m) c 2).trans (U2_of_ne m c _ (by decide)).symm)
  | ⟨3, _⟩ => ((dat0 (R1 m) c).arrAt_in 3 rfl _).trans ((A_eq0 (R1 m) c 3).trans (U2_of_ne m c _ (by decide)).symm)
  | ⟨4, _⟩ => ((dat0 (R1 m) c).arrAt_in 4 rfl _).trans ((A_eq0 (R1 m) c 4).trans (U2_of_ne m c _ (by decide)).symm)
  | ⟨5, _⟩ => ((dat0 (R1 m) c).arrAt_in 5 rfl _).trans ((A_eq0 (R1 m) c 5).trans (U2_of_ne m c _ (by decide)).symm)
  | ⟨6, _⟩ => ((dat0 (R1 m) c).arrAt_in 6 rfl _).trans ((A_eq0 (R1 m) c 6).trans (U2_of_ne m c _ (by decide)).symm)
  | ⟨7, _⟩ => ((dat0 (R1 m) c).arrAt_in 7 rfl _).trans ((A_eq0 (R1 m) c 7).trans (U2_of_ne m c _ (by decide)).symm)
  | ⟨8, _⟩ => (U2_self m c).symm
  | ⟨n + 9, h⟩ => absurd h (Nat.not_lt.2 (Nat.le_add_left _ _))
theorem hrest0 (c : Dev nD) : ∀ b, b ∉ Finset.univ.image (Pipeline.arrRef spec0) → R2 m c b = R1 m c b :=
  fun b hb => U2_of_ne m c b fun e => hb (Finset.mem_image.mpr ⟨8, Finset.mem_univ _, e.symm⟩)

/-- At region 1's exit each of its arrays holds what the pipeline leaves there, and every other buffer what it held at entry. -/
theorem hF1 (c : Dev nD) : ∀ w : Fin cfg1.W, (dat1 (R2 m) c).arrAt w cfg1.N = R3 m c (Pipeline.arrRef spec1 w)
  | ⟨0, _⟩ => ((dat1 (R2 m) c).arrAt_in 0 rfl _).trans ((A_eq1 (R2 m) c 0).trans (U3_of_ne m c _ (by decide)).symm)
  | ⟨1, _⟩ => ((dat1 (R2 m) c).arrAt_in 1 rfl _).trans ((A_eq1 (R2 m) c 1).trans (U3_of_ne m c _ (by decide)).symm)
  | ⟨2, _⟩ => ((dat1 (R2 m) c).arrAt_in 2 rfl _).trans ((A_eq1 (R2 m) c 2).trans (U3_of_ne m c _ (by decide)).symm)
  | ⟨3, _⟩ => ((dat1 (R2 m) c).arrAt_in 3 rfl _).trans ((A_eq1 (R2 m) c 3).trans (U3_of_ne m c _ (by decide)).symm)
  | ⟨4, _⟩ => ((dat1 (R2 m) c).arrAt_in 4 rfl _).trans ((A_eq1 (R2 m) c 4).trans (U3_of_ne m c _ (by decide)).symm)
  | ⟨5, _⟩ => ((dat1 (R2 m) c).arrAt_in 5 rfl _).trans ((A_eq1 (R2 m) c 5).trans (U3_of_ne m c _ (by decide)).symm)
  | ⟨6, _⟩ => ((dat1 (R2 m) c).arrAt_in 6 rfl _).trans ((A_eq1 (R2 m) c 6).trans (U3_of_ne m c _ (by decide)).symm)
  | ⟨7, _⟩ => ((dat1 (R2 m) c).arrAt_in 7 rfl _).trans ((A_eq1 (R2 m) c 7).trans (U3_of_ne m c _ (by decide)).symm)
  | ⟨8, _⟩ => (U3_self m c).symm
  | ⟨n + 9, h⟩ => absurd h (Nat.not_lt.2 (Nat.le_add_left _ _))
theorem hrest1 (c : Dev nD) : ∀ b, b ∉ Finset.univ.image (Pipeline.arrRef spec1) → R3 m c b = R2 m c b :=
  fun b hb => U3_of_ne m c b fun e => hb (Finset.mem_image.mpr ⟨8, Finset.mem_univ _, e.symm⟩)

/-- At region 2's exit each of its arrays holds what the pipeline leaves there, and every other buffer what it held at entry. -/
theorem hF2 (c : Dev nD) : ∀ w : Fin cfg2.W, (dat2 (R3 m) c).arrAt w cfg2.N = R4 m c (Pipeline.arrRef spec2 w)
  | ⟨0, _⟩ => ((dat2 (R3 m) c).arrAt_in 0 rfl _).trans ((A_eq2 (R3 m) c 0).trans (U4_of_ne m c _ (by decide)).symm)
  | ⟨1, _⟩ => ((dat2 (R3 m) c).arrAt_in 1 rfl _).trans ((A_eq2 (R3 m) c 1).trans (U4_of_ne m c _ (by decide)).symm)
  | ⟨2, _⟩ => ((dat2 (R3 m) c).arrAt_in 2 rfl _).trans ((A_eq2 (R3 m) c 2).trans (U4_of_ne m c _ (by decide)).symm)
  | ⟨3, _⟩ => ((dat2 (R3 m) c).arrAt_in 3 rfl _).trans ((A_eq2 (R3 m) c 3).trans (U4_of_ne m c _ (by decide)).symm)
  | ⟨4, _⟩ => ((dat2 (R3 m) c).arrAt_in 4 rfl _).trans ((A_eq2 (R3 m) c 4).trans (U4_of_ne m c _ (by decide)).symm)
  | ⟨5, _⟩ => ((dat2 (R3 m) c).arrAt_in 5 rfl _).trans ((A_eq2 (R3 m) c 5).trans (U4_of_ne m c _ (by decide)).symm)
  | ⟨6, _⟩ => ((dat2 (R3 m) c).arrAt_in 6 rfl _).trans ((A_eq2 (R3 m) c 6).trans (U4_of_ne m c _ (by decide)).symm)
  | ⟨7, _⟩ => ((dat2 (R3 m) c).arrAt_in 7 rfl _).trans ((A_eq2 (R3 m) c 7).trans (U4_of_ne m c _ (by decide)).symm)
  | ⟨8, _⟩ => (U4_self m c).symm
  | ⟨n + 9, h⟩ => absurd h (Nat.not_lt.2 (Nat.le_add_left _ _))
theorem hrest2 (c : Dev nD) : ∀ b, b ∉ Finset.univ.image (Pipeline.arrRef spec2) → R4 m c b = R3 m c b :=
  fun b hb => U4_of_ne m c b fun e => hb (Finset.mem_image.mpr ⟨8, Finset.mem_univ _, e.symm⟩)

/-- A buffer that neither a reshape nor a region writes reaches the end as launched. -/
theorem R4_of (c : Dev nD) (b : Ref sig .tc) (h5 : b ≠ main_v5) (h4 : b ≠ main_v4) (h3 : b ≠ main_v3) (h : b ∉ hostOps0_W) :
    R4 m c b = m ((c : Thread nD τ).loc b) :=
  (U4_of_ne m c b h5).trans <| (U3_of_ne m c b h4).trans <| (U2_of_ne m c b h3).trans <| (V1_of m c b h).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
  | ⟨2, _⟩ => fun c => dat2 (R3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The reshapes as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (U4 m c) ∗ ∃ r, prngReg c r)

/-! ## The regions as segments -/

set_option backward.isDefEq.respectTransparency.types false in
/-- Region 0 over the thread state: entered from every unscoped buffer at the contents before it, left at the
    contents after it. Its arrays are split out of the unscoped buffers (the shared array's ownership halved
    between its two windows) and put back at the exit contents; the generator register goes into the invariant and
    comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := arrays_of_unscopedBufs0 (pdats m 0 c) (share0_0 (R1 m) c) (share0_1 (R1 m) c) (share0_ge2 (R1 m) c) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PhiS0_out (R1 m) c 3).trans ?_
    unfold Pipeline.ΦA
    iintro ⟨Hr, Hp⟩
    isplitl [Hp]; · iexact Hp
    isplitr; · iempintro
    iexact Hr
  hexit c := by
    have hjoin := unscopedBufs_of_arrays0 (pdats m 0 c) (share0_0 (R1 m) c) (share0_1 (R1 m) c) (share0_ge2 (R1 m) c)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers (the shared array's ownership halved
    between its two windows) and put back at the exit contents; the generator register goes into the invariant and
    comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := arrays_of_unscopedBufs1 (pdats m 1 c) (share1_0 (R2 m) c) (share1_1 (R2 m) c) (share1_ge2 (R2 m) c) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from PhiS1_out (R2 m) c 7).trans ?_
    unfold Pipeline.ΦA
    iintro ⟨Hr, Hp⟩
    isplitl [Hp]; · iexact Hp
    isplitr; · iempintro
    iexact Hr
  hexit c := by
    have hjoin := unscopedBufs_of_arrays1 (pdats m 1 c) (share1_0 (R2 m) c) (share1_1 (R2 m) c) (share1_ge2 (R2 m) c)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers (the shared array's ownership halved
    between its two windows) and put back at the exit contents; the generator register goes into the invariant and
    comes back; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (R3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (R3 m c)
  hentry c := by
    rw [Pipeline.ownSems0_none]
    have hsplit := arrays_of_unscopedBufs2 (pdats m 2 c) (share2_0 (R3 m) c) (share2_1 (R3 m) c) (share2_ge2 (R3 m) c) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from PhiS2_out (R3 m) c 3).trans ?_
    unfold Pipeline.ΦA
    iintro ⟨Hr, Hp⟩
    isplitl [Hp]; · iexact Hp
    isplitr; · iempintro
    iexact Hr
  hexit c := by
    have hjoin := unscopedBufs_of_arrays2 (pdats m 2 c) (share2_0 (R3 m) c) (share2_1 (R3 m) c) (share2_ge2 (R3 m) c)
      (R3 m c) (R4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = U4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (R4_of m c main_arg0 (by decide) (by decide) (by decide) (by decide)),
    (h c _ (mem_uc main_arg1 (by decide))).trans (R4_of m c main_arg1 (by decide) (by decide) (by decide) (by decide)),
    (h c _ (mem_uc main_arg2 (by decide))).trans (R4_of m c main_arg2 (by decide) (by decide) (by decide) (by decide)),
    (h c _ (mem_uc main_arg3 (by decide))).trans (R4_of m c main_arg3 (by decide) (by decide) (by decide) (by decide)),
    (h c _ (mem_uc main_arg4 (by decide))).trans (R4_of m c main_arg4 (by decide) (by decide) (by decide) (by decide)),
    (h c _ (mem_uc main_arg5 (by decide))).trans (R4_of m c main_arg5 (by decide) (by decide) (by decide) (by decide)),
    (h c _ (mem_uc main_arg6 (by decide))).trans (R4_of m c main_arg6 (by decide) (by decide) (by decide) (by decide)),
    (h c _ (mem_uc main_arg7 (by decide))).trans (R4_of m c main_arg7 (by decide) (by decide) (by decide) (by decide)),
    (h c _ (mem_uc main_arg8 (by decide))).trans (R4_of m c main_arg8 (by decide) (by decide) (by decide) (by decide)),
    (h c _ (mem_uc main_arg9 (by decide))).trans (R4_of m c main_arg9 (by decide) (by decide) (by decide) (by decide)),
    (h c _ (mem_uc main_arg10 (by decide))).trans (R4_of m c main_arg10 (by decide) (by decide) (by decide) (by decide)),
    (h c _ (mem_uc main_arg11 (by decide))).trans (R4_of m c main_arg11 (by decide) (by decide) (by decide) (by decide)),
    (h c _ (mem_uc main_arg12 (by decide))).trans (R4_of m c main_arg12 (by decide) (by decide) (by decide) (by decide)),
    (h c _ (mem_uc main_arg13 (by decide))).trans (R4_of m c main_arg13 (by decide) (by decide) (by decide) (by decide))⟩) (run_main m ρ)

/-- THE RESULT: the result array ends at what the last pipeline leaves in it, beside the frame. -/
theorem run_result : θ_run defs (onTc (τ := τ) (main (F := F))) ⟨m, fun _ => 0, ρ⟩ (fun r => ∀ c : Dev nD,
      r.2.mem ((c.tc : Thread nD τ).loc main_v5) = (dat2 (R3 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_v5 (by decide))).trans (U4_self m c), (h c _ (mem_uc main_arg0 (by decide))).trans (R4_of m c main_arg0 (by decide) (by decide) (by decide) (by decide)),
    (h c _ (mem_uc main_arg1 (by decide))).trans (R4_of m c main_arg1 (by decide) (by decide) (by decide) (by decide)),
    (h c _ (mem_uc main_arg2 (by decide))).trans (R4_of m c main_arg2 (by decide) (by decide) (by decide) (by decide)),
    (h c _ (mem_uc main_arg3 (by decide))).trans (R4_of m c main_arg3 (by decide) (by decide) (by decide) (by decide)),
    (h c _ (mem_uc main_arg4 (by decide))).trans (R4_of m c main_arg4 (by decide) (by decide) (by decide) (by decide)),
    (h c _ (mem_uc main_arg5 (by decide))).trans (R4_of m c main_arg5 (by decide) (by decide) (by decide) (by decide)),
    (h c _ (mem_uc main_arg6 (by decide))).trans (R4_of m c main_arg6 (by decide) (by decide) (by decide) (by decide)),
    (h c _ (mem_uc main_arg7 (by decide))).trans (R4_of m c main_arg7 (by decide) (by decide) (by decide) (by decide)),
    (h c _ (mem_uc main_arg8 (by decide))).trans (R4_of m c main_arg8 (by decide) (by decide) (by decide) (by decide)),
    (h c _ (mem_uc main_arg9 (by decide))).trans (R4_of m c main_arg9 (by decide) (by decide) (by decide) (by decide)),
    (h c _ (mem_uc main_arg10 (by decide))).trans (R4_of m c main_arg10 (by decide) (by decide) (by decide) (by decide)),
    (h c _ (mem_uc main_arg11 (by decide))).trans (R4_of m c main_arg11 (by decide) (by decide) (by decide) (by decide)),
    (h c _ (mem_uc main_arg12 (by decide))).trans (R4_of m c main_arg12 (by decide) (by decide) (by decide) (by decide)),
    (h c _ (mem_uc main_arg13 (by decide))).trans (R4_of m c main_arg13 (by decide) (by decide) (by decide) (by decide))⟩) (run_main m ρ)

end Cert.Kernel.Hand

end
-- ==== Proof.KIBody0.lean ====
/-
  The body of kernel 0, run symbolically at a grid point of either kind: at the first point it fills its two
  scratch buffers (the projection weights and the projected features) before the block's rows; at a later
  point it reads them back as the first point left them.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-point branch's condition of kernel 0, from the grid coordinate. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The body of kernel 0 at a grid point where the first-point branch is taken: on whole memrefs, the inputs at
    their contents, the output buffer at anything, the two scratch buffers at anything, it runs to the continuation holding the
    inputs as they were, the output with the pieces its stores wrote and each scratch with the pieces stored into it. The pieces are found
    by the run itself. -/
noncomputable def kernelRun0_A (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : cond0 i)
    (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) :
    Σ' (L9 : List (View.Piece (Elt F) S256x64 .f32)) (LS0 : List (View.Piece (Elt F) S1x2048 .f32)), { LS1 : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__node_kernel_eq_skeleton]; unfold cc0__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]; · iexists _; iexact HS0
    iexists _; iexact HS1

set_option maxHeartbeats 4000000 in
/-- The body of kernel 0 at a grid point where the first-point branch is not taken: on whole memrefs, the inputs at
    their contents, the output buffer at anything, the two scratch buffers at given contents, it runs to the continuation holding the
    inputs as they were, the output with the pieces its stores wrote and the scratch buffers untouched. The pieces are found
    by the run itself. -/
noncomputable def kernelRun0_B (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : ¬cond0 i)
    (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) (xs0 : Vec F S1x2048 .f32) (xs1 : Vec F S1024x64 .f32) :
    { L9 : List (View.Piece (Elt F) S256x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ owns (c : Thread nD τ) arg10 fullShare xs0 ∗ owns (c : Thread nD τ) arg11 fullShare xs1) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__node_kernel_eq_skeleton]; unfold cc0__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]
    · iexists _; isplitr; · ipureintro; exact harg10.read_unread _
      iexact HS0
    iexists _; isplitr; · ipureintro; exact harg11.read_unread _
    iexact HS1

end Cert.KernelIdeal.Hand

end
-- ==== Proof.KIRegion0.lean ====
/-
  Kernel 0 as a pipeline: what every window's staging buffer and the two scratch buffers hold after each grid
  point, the invariant that carries the scratch from the first point to the later ones, and the body
  obligation at every point.  The arrays' contents when the region is entered are a parameter `V`.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import proofs.«181512_g78709570666604_cont_9to1_m_429_6_alg».proof.Proof.KIBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .f32 := win0_8.stage (cfg0.slots t 8)
abbrev hs0_8 (t : Fin cfg0.N) : (ms0_8 t).IsWhole := hstage0_8 ((cfg0.slots t 8).cast nbuf0_8)
/-- The two scratch operands. -/
abbrev scM0_0 : Memref sig .tc .vmem S1x2048 .f32 := Memref.whole cc0_scratch0
abbrev scM0_1 : Memref sig .tc .vmem S1024x64 .f32 := Memref.whole cc0_scratch1
/-- Views through which the output's and the scratch buffers' contents are stated. -/
abbrev VO0 : View sig .tc .vmem S256x64 .f32 := (Memref.whole cc0_stg8_0 : Memref sig .tc .vmem S256x64 .f32).view
abbrev VS0_0 : View sig .tc .vmem S1x2048 .f32 := scM0_0.view
abbrev VS0_1 : View sig .tc .vmem S1024x64 .f32 := scM0_1.view

/-- The body's run at the first point, on that point's memrefs and blocks. -/
def runA0 (c : Dev nD) :=
  kernelRun0_A (F := F) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) ((hcond0 t0_0).mpr rfl) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)

/-- What the first point leaves in the two scratch buffers. -/
def scr0_0 (c : Dev nD) : Vec F S1x2048 .f32 := VS0_0.read (Elt F) (VS0_0.writes (Elt F) VS0_0.junk (runA0 V c).2.1)
def scr0_1 (c : Dev nD) : Vec F S1024x64 .f32 := VS0_1.read (Elt F) (VS0_1.writes (Elt F) VS0_1.junk (runA0 V c).2.2.1)

/-- The body's run at a later point, the scratch buffers at what the first point left. -/
def runB0 (c : Dev nD) (t : Fin cfg0.N) (h : ¬t.val = 0) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (scr0_0 V c) (scr0_1 V c)

/-- What the output window's staging buffer holds after the body at point `t`. -/
def outAt0 (c : Dev nD) (t : Fin cfg0.N) : Vec F S256x64 .f32 :=
  if h : t.val = 0 then VO0.read (Elt F) (VO0.writes (Elt F) VO0.junk (runA0 V c).1)
  else VO0.read (Elt F) (VO0.writes (Elt F) VO0.junk (runB0 V c t h).1)

/-- The stores of either run tile the buffers they write. -/
theorem coverA0_out (c : Dev nD) (y : S256x64.Idx) : ∃ pc ∈ (runA0 V c).1, y ∈ pc.1.set :=
  View.cover_of_tiledL (runA0 V c).1 S256x64.size (by sl_kernel_rfl) y
theorem coverA0_s0 (c : Dev nD) (y : S1x2048.Idx) : ∃ pc ∈ (runA0 V c).2.1, y ∈ pc.1.set :=
  View.cover_of_tiledL (runA0 V c).2.1 S1x2048.size (by sl_kernel_rfl) y
theorem coverA0_s1 (c : Dev nD) (y : S1024x64.Idx) : ∃ pc ∈ (runA0 V c).2.2.1, y ∈ pc.1.set :=
  View.cover_of_tiledL (runA0 V c).2.2.1 S1024x64.size (by sl_kernel_rfl) y
theorem coverB0_out (c : Dev nD) (t : Fin cfg0.N) (h : ¬t.val = 0) (y : S256x64.Idx) : ∃ pc ∈ (runB0 V c t h).1, y ∈ pc.1.set :=
  View.cover_of_tiledL (runB0 V c t h).1 S256x64.size (by sl_kernel_rfl) y

/-- The region invariant before position `n`: before the first point every scoped buffer that is no staging buffer
    at anything; afterwards the two scratch buffers at what the first point left, the other such buffers at
    anything; the generator register at some state throughout. -/
def PhiS0 (c : Dev nD) : ℕ → sProp 𝕄
  | 0 => Pipeline.ΦA spec0 c
  | _ + 1 => iprop(iprop(iprop(owns (c : Thread nD τ) scM0_0 fullShare (scr0_0 V c) ∗ owns (c : Thread nD τ) scM0_1 fullShare (scr0_1 V c))
      ∗ Pipeline.scopedRestBut (Ix := Unit) (Name := ℕ) (U := UR sig nD τ) (Lvl := ℕ) (Val := Elt F) spec0 c [cc0_scratch0, cc0_scratch1]) ∗ (∃ r, prngReg c r))

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

theorem PhiS0_succ (c : Dev nD) (n : ℕ) : PhiS0 V c (n + 1)
      = iprop(iprop(iprop(owns (c : Thread nD τ) scM0_0 fullShare (scr0_0 V c) ∗ owns (c : Thread nD τ) scM0_1 fullShare (scr0_1 V c))
      ∗ Pipeline.scopedRestBut (Ix := Unit) (Name := ℕ) (U := UR sig nD τ) (Lvl := ℕ) (Val := Elt F) spec0 c [cc0_scratch0, cc0_scratch1]) ∗ (∃ r, prngReg c r)) := rfl

/-- After any point the invariant gives the class's back: the scratch buffers' named contents are forgotten. -/
theorem PhiS0_out (c : Dev nD) (n : ℕ) : PhiS0 V c (n + 1) ⊢ Pipeline.ΦA spec0 c := by
  rw [PhiS0_succ, PhiA0_eq]
  iintro ⟨⟨⟨HS0, HS1⟩, HB⟩, Hg⟩
  isplitl [HS0 HS1 HB]
  · isplitl [HS0 HS1]
    · isplitl [HS0]; · iexists _; iexact HS0
      iexists _; iexact HS1
    iexact HB
  iexact Hg

/-- The proof data of the pipeline on core `c`: the arrays as the region finds them; after the body each input's
    buffer at its block and the output's at `outAt0`; the two windows on the shared array each at half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outAt0 V c t
  Φ t := PhiS0 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- The shares the arrays are held at: the shared array halved between windows 0 and 1, every other array whole. -/
theorem share0_0 (c : Dev nD) : (dat0 V c).share 0 = fullShare.left := rfl
theorem share0_1 (c : Dev nD) : (dat0 V c).share 1 = fullShare.right := rfl
theorem share0_ge2 (c : Dev nD) : ∀ w : Fin cfg0.W, 2 ≤ w.val → (dat0 V c).share w = fullShare
  | ⟨0, _⟩, h => absurd h (by show ¬ 2 ≤ 0; omega)
  | ⟨1, _⟩, h => absurd h (by show ¬ 2 ≤ 1; omega)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨n + 9, h⟩, _ => absurd h (Nat.not_lt.2 (Nat.le_add_left _ _))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at any point: the inputs' memrefs hold their blocks; at the first point the scratch buffers are handed
    over at anything and come back at what the run stored; at a later point they are handed over at what the first
    point left and come back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) from rfl, show (dat0 V c).Φ t.castSucc = PhiS0 V c t.val from by dsimp only [dat0]; simp only [Fin.coe_castSucc], PhiS0_succ]
  rw [after0_0, after0_1, after0_2, after0_3, after0_4, after0_5, after0_6, after0_7, after0_8]
  by_cases hz : t.val = 0
  · obtain rfl : t = t0_0 := Fin.ext hz
    rw [show PhiS0 V c (t0_0 : Fin cfg0.N).val = Pipeline.ΦA spec0 c from rfl, PhiA0_eq]
    rw [show outAt0 V c t0_0 = VO0.read (Elt F) (VO0.writes (Elt F) VO0.junk (runA0 V c).1) from dif_pos rfl]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA0 V c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, ⟨%es0, HS0⟩, ⟨%es1, HS1⟩⟩
    isplitl [HS0 HS1 HB Hg]
    · isplitl [HS0 HS1 HB]
      · isplitl [HS0 HS1]
        · isplitl [HS0]
          · unfold owns; iexists _; isplitr
            swap; · iexact HS0
            ipureintro; exact View.read_writes_of_cover _ _ _ _ _ (coverA0_s0 V c)
          · unfold owns; iexists _; isplitr
            swap; · iexact HS1
            ipureintro; exact View.read_writes_of_cover _ _ _ _ _ (coverA0_s1 V c)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA0_out V c)
  · obtain ⟨n, hn⟩ : ∃ n, t.val = n + 1 := ⟨t.val - 1, by omega⟩
    rw [show PhiS0 V c t.val = PhiS0 V c (n + 1) from by rw [hn]]
    rw [show outAt0 V c t = VO0.read (Elt F) (VO0.writes (Elt F) VO0.junk (runB0 V c t hz).1) from dif_neg hz]
    rw [PhiS0_succ]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB0 V c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 HB Hg]
    · isplitl [HS0 HS1 HB]
      · isplitl [HS0 HS1]
        · isplitl [HS0]; · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB0_out V c t hz)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIBody1.lean ====
/-
  The body of kernel 1, run symbolically at a grid point of either kind: at the first point it fills its two
  scratch buffers (the projection weights and the projected features) before the block's rows; at a later
  point it reads them back as the first point left them.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-point branch's condition of kernel 1, from the grid coordinate. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

set_option maxHeartbeats 4000000 in
/-- The body of kernel 1 at a grid point where the first-point branch is taken: on whole memrefs, the inputs at
    their contents, the output buffer at anything, the two scratch buffers at anything, it runs to the continuation holding the
    inputs as they were, the output with the pieces its stores wrote and each scratch with the pieces stored into it. The pieces are found
    by the run itself. -/
noncomputable def kernelRun1_A (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) :
    Σ' (L9 : List (View.Piece (Elt F) S256x16 .f32)) (LS0 : List (View.Piece (Elt F) S1024x1 .f32)), { LS1 : List (View.Piece (Elt F) S2048x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]; · iexists _; iexact HS0
    iexists _; iexact HS1

set_option maxHeartbeats 4000000 in
/-- The body of kernel 1 at a grid point where the first-point branch is not taken: on whole memrefs, the inputs at
    their contents, the output buffer at anything, the two scratch buffers at given contents, it runs to the continuation holding the
    inputs as they were, the output with the pieces its stores wrote and the scratch buffers untouched. The pieces are found
    by the run itself. -/
noncomputable def kernelRun1_B (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : ¬cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) (xs0 : Vec F S1024x1 .f32) (xs1 : Vec F S2048x16 .f32) :
    { L9 : List (View.Piece (Elt F) S256x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ owns (c : Thread nD τ) arg10 fullShare xs0 ∗ owns (c : Thread nD τ) arg11 fullShare xs1) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]
    · iexists _; isplitr; · ipureintro; exact harg10.read_unread _
      iexact HS0
    iexists _; isplitr; · ipureintro; exact harg11.read_unread _
    iexact HS1

end Cert.KernelIdeal.Hand

end
-- ==== Proof.KIRegion1.lean ====
/-
  Kernel 1 as a pipeline: what every window's staging buffer and the two scratch buffers hold after each grid
  point, the invariant that carries the scratch from the first point to the later ones, and the body
  obligation at every point.  The arrays' contents when the region is entered are a parameter `V`.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import proofs.«181512_g78709570666604_cont_9to1_m_429_6_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x16 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x16 .f32 := win1_8.stage (cfg1.slots t 8)
abbrev hs1_8 (t : Fin cfg1.N) : (ms1_8 t).IsWhole := hstage1_8 ((cfg1.slots t 8).cast nbuf1_8)
/-- The two scratch operands. -/
abbrev scM1_0 : Memref sig .tc .vmem S1024x1 .f32 := Memref.whole cc1_scratch0
abbrev scM1_1 : Memref sig .tc .vmem S2048x16 .f32 := Memref.whole cc1_scratch1
/-- Views through which the output's and the scratch buffers' contents are stated. -/
abbrev VO1 : View sig .tc .vmem S256x16 .f32 := (Memref.whole cc1_stg8_0 : Memref sig .tc .vmem S256x16 .f32).view
abbrev VS1_0 : View sig .tc .vmem S1024x1 .f32 := scM1_0.view
abbrev VS1_1 : View sig .tc .vmem S2048x16 .f32 := scM1_1.view

/-- The body's run at the first point, on that point's memrefs and blocks. -/
def runA1 (c : Dev nD) :=
  kernelRun1_A (F := F) c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1_0 (Memref.isWhole_whole _) scM1_1 (Memref.isWhole_whole _) ((hcond1 t1_0).mpr rfl) (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)

/-- What the first point leaves in the two scratch buffers. -/
def scr1_0 (c : Dev nD) : Vec F S1024x1 .f32 := VS1_0.read (Elt F) (VS1_0.writes (Elt F) VS1_0.junk (runA1 V c).2.1)
def scr1_1 (c : Dev nD) : Vec F S2048x16 .f32 := VS1_1.read (Elt F) (VS1_1.writes (Elt F) VS1_1.junk (runA1 V c).2.2.1)

/-- The body's run at a later point, the scratch buffers at what the first point left. -/
def runB1 (c : Dev nD) (t : Fin cfg1.N) (h : ¬t.val = 0) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun hc => h ((hcond1 t).mp hc)) (iblk1 V c 0 t) (iblk1 V c 1 t) (iblk1 V c 2 t) (iblk1 V c 3 t) (iblk1 V c 4 t) (iblk1 V c 5 t) (iblk1 V c 6 t) (iblk1 V c 7 t) (scr1_0 V c) (scr1_1 V c)

/-- What the output window's staging buffer holds after the body at point `t`. -/
def outAt1 (c : Dev nD) (t : Fin cfg1.N) : Vec F S256x16 .f32 :=
  if h : t.val = 0 then VO1.read (Elt F) (VO1.writes (Elt F) VO1.junk (runA1 V c).1)
  else VO1.read (Elt F) (VO1.writes (Elt F) VO1.junk (runB1 V c t h).1)

/-- The stores of either run tile the buffers they write. -/
theorem coverA1_out (c : Dev nD) (y : S256x16.Idx) : ∃ pc ∈ (runA1 V c).1, y ∈ pc.1.set :=
  View.cover_of_tiledL (runA1 V c).1 S256x16.size (by sl_kernel_rfl) y
theorem coverA1_s0 (c : Dev nD) (y : S1024x1.Idx) : ∃ pc ∈ (runA1 V c).2.1, y ∈ pc.1.set :=
  View.cover_of_tiledL (runA1 V c).2.1 S1024x1.size (by sl_kernel_rfl) y
theorem coverA1_s1 (c : Dev nD) (y : S2048x16.Idx) : ∃ pc ∈ (runA1 V c).2.2.1, y ∈ pc.1.set :=
  View.cover_of_tiledL (runA1 V c).2.2.1 S2048x16.size (by sl_kernel_rfl) y
theorem coverB1_out (c : Dev nD) (t : Fin cfg1.N) (h : ¬t.val = 0) (y : S256x16.Idx) : ∃ pc ∈ (runB1 V c t h).1, y ∈ pc.1.set :=
  View.cover_of_tiledL (runB1 V c t h).1 S256x16.size (by sl_kernel_rfl) y

/-- The region invariant before position `n`: before the first point every scoped buffer that is no staging buffer
    at anything; afterwards the two scratch buffers at what the first point left, the other such buffers at
    anything; the generator register at some state throughout. -/
def PhiS1 (c : Dev nD) : ℕ → sProp 𝕄
  | 0 => Pipeline.ΦA spec1 c
  | _ + 1 => iprop(iprop(iprop(owns (c : Thread nD τ) scM1_0 fullShare (scr1_0 V c) ∗ owns (c : Thread nD τ) scM1_1 fullShare (scr1_1 V c))
      ∗ Pipeline.scopedRestBut (Ix := Unit) (Name := ℕ) (U := UR sig nD τ) (Lvl := ℕ) (Val := Elt F) spec1 c [cc1_scratch0, cc1_scratch1]) ∗ (∃ r, prngReg c r))

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

theorem PhiS1_succ (c : Dev nD) (n : ℕ) : PhiS1 V c (n + 1)
      = iprop(iprop(iprop(owns (c : Thread nD τ) scM1_0 fullShare (scr1_0 V c) ∗ owns (c : Thread nD τ) scM1_1 fullShare (scr1_1 V c))
      ∗ Pipeline.scopedRestBut (Ix := Unit) (Name := ℕ) (U := UR sig nD τ) (Lvl := ℕ) (Val := Elt F) spec1 c [cc1_scratch0, cc1_scratch1]) ∗ (∃ r, prngReg c r)) := rfl

/-- After any point the invariant gives the class's back: the scratch buffers' named contents are forgotten. -/
theorem PhiS1_out (c : Dev nD) (n : ℕ) : PhiS1 V c (n + 1) ⊢ Pipeline.ΦA spec1 c := by
  rw [PhiS1_succ, PhiA1_eq]
  iintro ⟨⟨⟨HS0, HS1⟩, HB⟩, Hg⟩
  isplitl [HS0 HS1 HB]
  · isplitl [HS0 HS1]
    · isplitl [HS0]; · iexists _; iexact HS0
      iexists _; iexact HS1
    iexact HB
  iexact Hg

/-- The proof data of the pipeline on core `c`: the arrays as the region finds them; after the body each input's
    buffer at its block and the output's at `outAt1`; the two windows on the shared array each at half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outAt1 V c t
  Φ t := PhiS1 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- The shares the arrays are held at: the shared array halved between windows 0 and 1, every other array whole. -/
theorem share1_0 (c : Dev nD) : (dat1 V c).share 0 = fullShare.left := rfl
theorem share1_1 (c : Dev nD) : (dat1 V c).share 1 = fullShare.right := rfl
theorem share1_ge2 (c : Dev nD) : ∀ w : Fin cfg1.W, 2 ≤ w.val → (dat1 V c).share w = fullShare
  | ⟨0, _⟩, h => absurd h (by show ¬ 2 ≤ 0; omega)
  | ⟨1, _⟩, h => absurd h (by show ¬ 2 ≤ 1; omega)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨n + 9, h⟩, _ => absurd h (Nat.not_lt.2 (Nat.le_add_left _ _))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks; at the first point the scratch buffers are handed
    over at anything and come back at what the run stored; at a later point they are handed over at what the first
    point left and come back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) from rfl, show (dat1 V c).Φ t.castSucc = PhiS1 V c t.val from by dsimp only [dat1]; simp only [Fin.coe_castSucc], PhiS1_succ]
  rw [after1_0, after1_1, after1_2, after1_3, after1_4, after1_5, after1_6, after1_7, after1_8]
  by_cases hz : t.val = 0
  · obtain rfl : t = t1_0 := Fin.ext hz
    rw [show PhiS1 V c (t1_0 : Fin cfg1.N).val = Pipeline.ΦA spec1 c from rfl, PhiA1_eq]
    rw [show outAt1 V c t1_0 = VO1.read (Elt F) (VO1.writes (Elt F) VO1.junk (runA1 V c).1) from dif_pos rfl]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA1 V c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, ⟨%es0, HS0⟩, ⟨%es1, HS1⟩⟩
    isplitl [HS0 HS1 HB Hg]
    · isplitl [HS0 HS1 HB]
      · isplitl [HS0 HS1]
        · isplitl [HS0]
          · unfold owns; iexists _; isplitr
            swap; · iexact HS0
            ipureintro; exact View.read_writes_of_cover _ _ _ _ _ (coverA1_s0 V c)
          · unfold owns; iexists _; isplitr
            swap; · iexact HS1
            ipureintro; exact View.read_writes_of_cover _ _ _ _ _ (coverA1_s1 V c)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA1_out V c)
  · obtain ⟨n, hn⟩ : ∃ n, t.val = n + 1 := ⟨t.val - 1, by omega⟩
    rw [show PhiS1 V c t.val = PhiS1 V c (n + 1) from by rw [hn]]
    rw [show outAt1 V c t = VO1.read (Elt F) (VO1.writes (Elt F) VO1.junk (runB1 V c t hz).1) from dif_neg hz]
    rw [PhiS1_succ]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB1 V c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 HB Hg]
    · isplitl [HS0 HS1 HB]
      · isplitl [HS0 HS1]
        · isplitl [HS0]; · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB1_out V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIBody2.lean ====
/-
  The body of kernel 2, run symbolically at a grid point of either kind: at the first point it fills its two
  scratch buffers (the projection weights and the projected features) before the block's rows; at a later
  point it reads them back as the first point left them.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-point branch's condition of kernel 2, from the grid coordinate. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

set_option maxHeartbeats 4000000 in
/-- The body of kernel 2 at a grid point where the first-point branch is taken: on whole memrefs, the inputs at
    their contents, the output buffer at anything, the two scratch buffers at anything, it runs to the continuation holding the
    inputs as they were, the output with the pieces its stores wrote and each scratch with the pieces stored into it. The pieces are found
    by the run itself. -/
noncomputable def kernelRun2_A (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : cond2 i)
    (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) :
    Σ' (L9 : List (View.Piece (Elt F) S256x16 .f32)) (LS0 : List (View.Piece (Elt F) S1x2048 .f32)), { LS1 : List (View.Piece (Elt F) S1024x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__node_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__node_kernel_eq_skeleton]; unfold cc2__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]; · iexists _; iexact HS0
    iexists _; iexact HS1

set_option maxHeartbeats 4000000 in
/-- The body of kernel 2 at a grid point where the first-point branch is not taken: on whole memrefs, the inputs at
    their contents, the output buffer at anything, the two scratch buffers at given contents, it runs to the continuation holding the
    inputs as they were, the output with the pieces its stores wrote and the scratch buffers untouched. The pieces are found
    by the run itself. -/
noncomputable def kernelRun2_B (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : ¬cond2 i)
    (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) (xs0 : Vec F S1x2048 .f32) (xs1 : Vec F S1024x16 .f32) :
    { L9 : List (View.Piece (Elt F) S256x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ owns (c : Thread nD τ) arg10 fullShare xs0 ∗ owns (c : Thread nD τ) arg11 fullShare xs1) -∗ K ⟨⟩))
          ⊢ wp frame (wpE (defs₀ (F := F)) Variants.none c none) E (cc2__node_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc2__node_kernel_eq_skeleton]; unfold cc2__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]
    · iexists _; isplitr; · ipureintro; exact harg10.read_unread _
      iexact HS0
    iexists _; isplitr; · ipureintro; exact harg11.read_unread _
    iexact HS1

end Cert.KernelIdeal.Hand

end
-- ==== Proof.KIRegion2.lean ====
/-
  Kernel 2 as a pipeline: what every window's staging buffer and the two scratch buffers hold after each grid
  point, the invariant that carries the scratch from the first point to the later ones, and the body
  obligation at every point.  The arrays' contents when the region is entered are a parameter `V`.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import proofs.«181512_g78709570666604_cont_9to1_m_429_6_alg».proof.Proof.KIBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, and its wholeness. -/
abbrev ms2_0 (t : Fin cfg2.N) : Memref sig .tc .vmem S256x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x16 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x16 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x16 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x16 .f32 := win2_8.stage (cfg2.slots t 8)
abbrev hs2_8 (t : Fin cfg2.N) : (ms2_8 t).IsWhole := hstage2_8 ((cfg2.slots t 8).cast nbuf2_8)
/-- The two scratch operands. -/
abbrev scM2_0 : Memref sig .tc .vmem S1x2048 .f32 := Memref.whole cc2_scratch0
abbrev scM2_1 : Memref sig .tc .vmem S1024x16 .f32 := Memref.whole cc2_scratch1
/-- Views through which the output's and the scratch buffers' contents are stated. -/
abbrev VO2 : View sig .tc .vmem S256x16 .f32 := (Memref.whole cc2_stg8_0 : Memref sig .tc .vmem S256x16 .f32).view
abbrev VS2_0 : View sig .tc .vmem S1x2048 .f32 := scM2_0.view
abbrev VS2_1 : View sig .tc .vmem S1024x16 .f32 := scM2_1.view

/-- The body's run at the first point, on that point's memrefs and blocks. -/
def runA2 (c : Dev nD) :=
  kernelRun2_A (F := F) c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) (ms2_8 t2_0) (hs2_8 t2_0) scM2_0 (Memref.isWhole_whole _) scM2_1 (Memref.isWhole_whole _) ((hcond2 t2_0).mpr rfl) (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0)

/-- What the first point leaves in the two scratch buffers. -/
def scr2_0 (c : Dev nD) : Vec F S1x2048 .f32 := VS2_0.read (Elt F) (VS2_0.writes (Elt F) VS2_0.junk (runA2 V c).2.1)
def scr2_1 (c : Dev nD) : Vec F S1024x16 .f32 := VS2_1.read (Elt F) (VS2_1.writes (Elt F) VS2_1.junk (runA2 V c).2.2.1)

/-- The body's run at a later point, the scratch buffers at what the first point left. -/
def runB2 (c : Dev nD) (t : Fin cfg2.N) (h : ¬t.val = 0) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hc => h ((hcond2 t).mp hc)) (iblk2 V c 0 t) (iblk2 V c 1 t) (iblk2 V c 2 t) (iblk2 V c 3 t) (iblk2 V c 4 t) (iblk2 V c 5 t) (iblk2 V c 6 t) (iblk2 V c 7 t) (scr2_0 V c) (scr2_1 V c)

/-- What the output window's staging buffer holds after the body at point `t`. -/
def outAt2 (c : Dev nD) (t : Fin cfg2.N) : Vec F S256x16 .f32 :=
  if h : t.val = 0 then VO2.read (Elt F) (VO2.writes (Elt F) VO2.junk (runA2 V c).1)
  else VO2.read (Elt F) (VO2.writes (Elt F) VO2.junk (runB2 V c t h).1)

/-- The stores of either run tile the buffers they write. -/
theorem coverA2_out (c : Dev nD) (y : S256x16.Idx) : ∃ pc ∈ (runA2 V c).1, y ∈ pc.1.set :=
  View.cover_of_tiledL (runA2 V c).1 S256x16.size (by sl_kernel_rfl) y
theorem coverA2_s0 (c : Dev nD) (y : S1x2048.Idx) : ∃ pc ∈ (runA2 V c).2.1, y ∈ pc.1.set :=
  View.cover_of_tiledL (runA2 V c).2.1 S1x2048.size (by sl_kernel_rfl) y
theorem coverA2_s1 (c : Dev nD) (y : S1024x16.Idx) : ∃ pc ∈ (runA2 V c).2.2.1, y ∈ pc.1.set :=
  View.cover_of_tiledL (runA2 V c).2.2.1 S1024x16.size (by sl_kernel_rfl) y
theorem coverB2_out (c : Dev nD) (t : Fin cfg2.N) (h : ¬t.val = 0) (y : S256x16.Idx) : ∃ pc ∈ (runB2 V c t h).1, y ∈ pc.1.set :=
  View.cover_of_tiledL (runB2 V c t h).1 S256x16.size (by sl_kernel_rfl) y

/-- The region invariant before position `n`: before the first point every scoped buffer that is no staging buffer
    at anything; afterwards the two scratch buffers at what the first point left, the other such buffers at
    anything; the generator register at some state throughout. -/
def PhiS2 (c : Dev nD) : ℕ → sProp 𝕄
  | 0 => Pipeline.ΦA spec2 c
  | _ + 1 => iprop(iprop(iprop(owns (c : Thread nD τ) scM2_0 fullShare (scr2_0 V c) ∗ owns (c : Thread nD τ) scM2_1 fullShare (scr2_1 V c))
      ∗ Pipeline.scopedRestBut (Ix := Unit) (Name := ℕ) (U := UR sig nD τ) (Lvl := ℕ) (Val := Elt F) spec2 c [cc2_scratch0, cc2_scratch1]) ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem PhiS2_succ (c : Dev nD) (n : ℕ) : PhiS2 V c (n + 1)
      = iprop(iprop(iprop(owns (c : Thread nD τ) scM2_0 fullShare (scr2_0 V c) ∗ owns (c : Thread nD τ) scM2_1 fullShare (scr2_1 V c))
      ∗ Pipeline.scopedRestBut (Ix := Unit) (Name := ℕ) (U := UR sig nD τ) (Lvl := ℕ) (Val := Elt F) spec2 c [cc2_scratch0, cc2_scratch1]) ∗ (∃ r, prngReg c r)) := rfl

/-- After any point the invariant gives the class's back: the scratch buffers' named contents are forgotten. -/
theorem PhiS2_out (c : Dev nD) (n : ℕ) : PhiS2 V c (n + 1) ⊢ Pipeline.ΦA spec2 c := by
  rw [PhiS2_succ, PhiA2_eq]
  iintro ⟨⟨⟨HS0, HS1⟩, HB⟩, Hg⟩
  isplitl [HS0 HS1 HB]
  · isplitl [HS0 HS1]
    · isplitl [HS0]; · iexists _; iexact HS0
      iexists _; iexact HS1
    iexact HB
  iexact Hg

/-- The proof data of the pipeline on core `c`: the arrays as the region finds them; after the body each input's
    buffer at its block and the output's at `outAt2`; the two windows on the shared array each at half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outAt2 V c t
  Φ t := PhiS2 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The shares the arrays are held at: the shared array halved between windows 0 and 1, every other array whole. -/
theorem share2_0 (c : Dev nD) : (dat2 V c).share 0 = fullShare.left := rfl
theorem share2_1 (c : Dev nD) : (dat2 V c).share 1 = fullShare.right := rfl
theorem share2_ge2 (c : Dev nD) : ∀ w : Fin cfg2.W, 2 ≤ w.val → (dat2 V c).share w = fullShare
  | ⟨0, _⟩, h => absurd h (by show ¬ 2 ≤ 0; omega)
  | ⟨1, _⟩, h => absurd h (by show ¬ 2 ≤ 1; omega)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨n + 9, h⟩, _ => absurd h (Nat.not_lt.2 (Nat.le_add_left _ _))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks; at the first point the scratch buffers are handed
    over at anything and come back at what the run stored; at a later point they are handed over at what the first
    point left and come back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) from rfl, show (dat2 V c).Φ t.castSucc = PhiS2 V c t.val from by dsimp only [dat2]; simp only [Fin.coe_castSucc], PhiS2_succ]
  rw [after2_0, after2_1, after2_2, after2_3, after2_4, after2_5, after2_6, after2_7, after2_8]
  by_cases hz : t.val = 0
  · obtain rfl : t = t2_0 := Fin.ext hz
    rw [show PhiS2 V c (t2_0 : Fin cfg2.N).val = Pipeline.ΦA spec2 c from rfl, PhiA2_eq]
    rw [show outAt2 V c t2_0 = VO2.read (Elt F) (VO2.writes (Elt F) VO2.junk (runA2 V c).1) from dif_pos rfl]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA2 V c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, ⟨%es0, HS0⟩, ⟨%es1, HS1⟩⟩
    isplitl [HS0 HS1 HB Hg]
    · isplitl [HS0 HS1 HB]
      · isplitl [HS0 HS1]
        · isplitl [HS0]
          · unfold owns; iexists _; isplitr
            swap; · iexact HS0
            ipureintro; exact View.read_writes_of_cover _ _ _ _ _ (coverA2_s0 V c)
          · unfold owns; iexists _; isplitr
            swap; · iexact HS1
            ipureintro; exact View.read_writes_of_cover _ _ _ _ _ (coverA2_s1 V c)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA2_out V c)
  · obtain ⟨n, hn⟩ : ∃ n, t.val = n + 1 := ⟨t.val - 1, by omega⟩
    rw [show PhiS2 V c t.val = PhiS2 V c (n + 1) from by rw [hn]]
    rw [show outAt2 V c t = VO2.read (Elt F) (VO2.writes (Elt F) VO2.junk (runB2 V c t hz).1) from dif_neg hz]
    rw [PhiS2_succ]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB2 V c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 HB Hg]
    · isplitl [HS0 HS1 HB]
      · isplitl [HS0 HS1]
        · isplitl [HS0]; · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB2_out V c t hz)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KIShare0.lean ====
/-
  Kernel 0's windows 0 and 1 read one array (the incidence matrix, once by blocks and once whole).  The buffers
  behind the windows' arrays, each held whole, make the pipeline's arrays with that one buffer's ownership split in
  two halves, one per window; and the halves join again when the region is left.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share
variable {c : Dev nD} (dat : Dat τ (Elt F) Unit ℕ (UR sig nD τ) ℕ cfg0 c)

/-- The eight distinct buffers behind the nine windows' arrays. -/
theorem arrRefs0_eq : (Finset.univ.image (Pipeline.arrRef spec0) : Finset (Ref sig .tc)) = [Pipeline.arrRef spec0 1, Pipeline.arrRef spec0 2, Pipeline.arrRef spec0 3, Pipeline.arrRef spec0 4, Pipeline.arrRef spec0 5, Pipeline.arrRef spec0 6, Pipeline.arrRef spec0 7, Pipeline.arrRef spec0 8].toFinset := by decide
theorem arrRefs0_nodup : ([Pipeline.arrRef spec0 1, Pipeline.arrRef spec0 2, Pipeline.arrRef spec0 3, Pipeline.arrRef spec0 4, Pipeline.arrRef spec0 5, Pipeline.arrRef spec0 6, Pipeline.arrRef spec0 7, Pipeline.arrRef spec0 8] : List (Ref sig .tc)).Nodup := by decide

/-- One window's array, whole, at share `q`, as a points-to of the buffer behind it. -/
theorem arr_pt0 (w : Fin cfg0.W) (q : PosShare TreeShare) (hs : dat.share w = q)
    (Fw : (w : Fin cfg0.W) → Buf (Elt F) ((cfg0.win w).arr.view.loc (c.tc : Thread nD τ)))
    (V : (b : Ref sig .tc) → Buf (Elt F) ((c.tc : Thread nD τ).loc b)) (hF : Fw w = V (Pipeline.arrRef spec0 w)) :
    ((cfg0.win w).arr.view.loc (c.tc : Thread nD τ) ↦[(cfg0.win w).arr.view.set]{dat.share w} Fw w : sProp 𝕄)
      = (((c.tc : Thread nD τ).loc (Pipeline.arrRef spec0 w)) ↦{q} V (Pipeline.arrRef spec0 w)) := by
  rw [(arr_whole0 w).set_eq_univ, hs, hF]

/-- The buffers behind the arrays, one by one. -/
theorem arrBufs0_eq (V : (b : Ref sig .tc) → Buf (Elt F) ((c.tc : Thread nD τ).loc b)) :
    (Pipeline.arrBufs spec0 c V : sProp 𝕄) = iprop((((c.tc : Thread nD τ).loc (Pipeline.arrRef spec0 1)) ↦{fullShare} V (Pipeline.arrRef spec0 1)) ∗ (((c.tc : Thread nD τ).loc (Pipeline.arrRef spec0 2)) ↦{fullShare} V (Pipeline.arrRef spec0 2)) ∗ (((c.tc : Thread nD τ).loc (Pipeline.arrRef spec0 3)) ↦{fullShare} V (Pipeline.arrRef spec0 3)) ∗ (((c.tc : Thread nD τ).loc (Pipeline.arrRef spec0 4)) ↦{fullShare} V (Pipeline.arrRef spec0 4)) ∗ (((c.tc : Thread nD τ).loc (Pipeline.arrRef spec0 5)) ↦{fullShare} V (Pipeline.arrRef spec0 5)) ∗ (((c.tc : Thread nD τ).loc (Pipeline.arrRef spec0 6)) ↦{fullShare} V (Pipeline.arrRef spec0 6)) ∗ (((c.tc : Thread nD τ).loc (Pipeline.arrRef spec0 7)) ↦{fullShare} V (Pipeline.arrRef spec0 7)) ∗ (((c.tc : Thread nD τ).loc (Pipeline.arrRef spec0 8)) ↦{fullShare} V (Pipeline.arrRef spec0 8))) := by
  unfold Pipeline.arrBufs
  exact bigSep_eq_bigSepL_of_eq _ arrRefs0_eq arrRefs0_nodup _

/-- ENTRY: the buffers behind the arrays, whole at `V`, are the pipeline's arrays at `V`'s contents, the shared
    buffer split between windows 0 and 1. -/
theorem arrays_of_arrBufs0 (hq0 : dat.share 0 = fullShare.left) (hq1 : dat.share 1 = fullShare.right)
    (hq : ∀ w : Fin cfg0.W, 2 ≤ w.val → dat.share w = fullShare)
    (Fw : (w : Fin cfg0.W) → Buf (Elt F) ((cfg0.win w).arr.view.loc (c.tc : Thread nD τ)))
    (V : (b : Ref sig .tc) → Buf (Elt F) ((c.tc : Thread nD τ).loc b)) (hF : ∀ w, Fw w = V (Pipeline.arrRef spec0 w)) :
    (Pipeline.arrBufs spec0 c V : sProp 𝕄) ⊢ dat.arrays Fw := by
  rw [arrBufs0_eq]; unfold Dat.arrays
  rw [bigSep_W0]
  iintro ⟨H1, H2, H3, H4, H5, H6, H7, H8⟩
  ihave Hs := (pointsTo_share (PosShare.mem_left_op_right fullShare)).1 $$ H1
  icases Hs with ⟨Ha, Hb⟩
  isplitl [Ha]; · iapply (Entails.of_eq (arr_pt0 dat 0 _ hq0 Fw V (hF 0)).symm); iexact Ha
  isplitl [Hb]; · iapply (Entails.of_eq (arr_pt0 dat 1 _ hq1 Fw V (hF 1)).symm); iexact Hb
  isplitl [H2]; · iapply (Entails.of_eq (arr_pt0 dat 2 _ (hq 2 (by decide)) Fw V (hF 2)).symm); iexact H2
  isplitl [H3]; · iapply (Entails.of_eq (arr_pt0 dat 3 _ (hq 3 (by decide)) Fw V (hF 3)).symm); iexact H3
  isplitl [H4]; · iapply (Entails.of_eq (arr_pt0 dat 4 _ (hq 4 (by decide)) Fw V (hF 4)).symm); iexact H4
  isplitl [H5]; · iapply (Entails.of_eq (arr_pt0 dat 5 _ (hq 5 (by decide)) Fw V (hF 5)).symm); iexact H5
  isplitl [H6]; · iapply (Entails.of_eq (arr_pt0 dat 6 _ (hq 6 (by decide)) Fw V (hF 6)).symm); iexact H6
  isplitl [H7]; · iapply (Entails.of_eq (arr_pt0 dat 7 _ (hq 7 (by decide)) Fw V (hF 7)).symm); iexact H7
  iapply (Entails.of_eq (arr_pt0 dat 8 _ (hq 8 (by decide)) Fw V (hF 8)).symm); iexact H8

/-- EXIT: the pipeline's arrays at `V`'s contents are the buffers behind them whole at `V`, the two halves joined. -/
theorem arrBufs_of_arrays0 (hq0 : dat.share 0 = fullShare.left) (hq1 : dat.share 1 = fullShare.right)
    (hq : ∀ w : Fin cfg0.W, 2 ≤ w.val → dat.share w = fullShare)
    (Fw : (w : Fin cfg0.W) → Buf (Elt F) ((cfg0.win w).arr.view.loc (c.tc : Thread nD τ)))
    (V : (b : Ref sig .tc) → Buf (Elt F) ((c.tc : Thread nD τ).loc b)) (hF : ∀ w, Fw w = V (Pipeline.arrRef spec0 w)) :
    dat.arrays Fw ⊢ (Pipeline.arrBufs spec0 c V : sProp 𝕄) := by
  rw [arrBufs0_eq]; unfold Dat.arrays
  rw [bigSep_W0]
  iintro ⟨Ha, Hb, H2, H3, H4, H5, H6, H7, H8⟩
  isplitl [Ha Hb]
  · iapply (pointsTo_share (PosShare.mem_left_op_right fullShare)).2
    isplitl [Ha]; · iapply (Entails.of_eq (arr_pt0 dat 0 _ hq0 Fw V (hF 0))); iexact Ha
    iapply (Entails.of_eq (arr_pt0 dat 1 _ hq1 Fw V (hF 1))); iexact Hb
  isplitl [H2]; · iapply (Entails.of_eq (arr_pt0 dat 2 _ (hq 2 (by decide)) Fw V (hF 2))); iexact H2
  isplitl [H3]; · iapply (Entails.of_eq (arr_pt0 dat 3 _ (hq 3 (by decide)) Fw V (hF 3))); iexact H3
  isplitl [H4]; · iapply (Entails.of_eq (arr_pt0 dat 4 _ (hq 4 (by decide)) Fw V (hF 4))); iexact H4
  isplitl [H5]; · iapply (Entails.of_eq (arr_pt0 dat 5 _ (hq 5 (by decide)) Fw V (hF 5))); iexact H5
  isplitl [H6]; · iapply (Entails.of_eq (arr_pt0 dat 6 _ (hq 6 (by decide)) Fw V (hF 6))); iexact H6
  isplitl [H7]; · iapply (Entails.of_eq (arr_pt0 dat 7 _ (hq 7 (by decide)) Fw V (hF 7))); iexact H7
  iapply (Entails.of_eq (arr_pt0 dat 8 _ (hq 8 (by decide)) Fw V (hF 8))); iexact H8

/-- ENTRY, from a core's unscoped buffers at `V`: the pipeline's arrays and the unscoped rest. -/
theorem arrays_of_unscopedBufs0 (hq0 : dat.share 0 = fullShare.left) (hq1 : dat.share 1 = fullShare.right)
    (hq : ∀ w : Fin cfg0.W, 2 ≤ w.val → dat.share w = fullShare)
    (V : (b : Ref sig .tc) → Buf (Elt F) ((c.tc : Thread nD τ).loc b)) (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs (0 : Fin 3) winFacts₀0.arr_unscoped c V]
  exact sep_mono (arrays_of_arrBufs0 dat hq0 hq1 hq _ V fun w => by rw [show dat.arrAt w 0 = dat.A w from rfl, hA]) .rfl

/-- EXIT, to a core's unscoped buffers at any valuation `V'` that has the arrays at `Fw` and agrees with `V` off them. -/
theorem unscopedBufs_of_arrays0 (hq0 : dat.share 0 = fullShare.left) (hq1 : dat.share 1 = fullShare.right)
    (hq : ∀ w : Fin cfg0.W, 2 ≤ w.val → dat.share w = fullShare)
    (V V' : (b : Ref sig .tc) → Buf (Elt F) ((c.tc : Thread nD τ).loc b))
    (Fw : (w : Fin cfg0.W) → Buf (Elt F) ((cfg0.win w).arr.view.loc (c.tc : Thread nD τ)))
    (hF : ∀ w, Fw w = V' (Pipeline.arrRef spec0 w))
    (hrest : ∀ b, b ∉ Finset.univ.image (Pipeline.arrRef spec0) → V' b = V b) :
    iprop(dat.arrays Fw ∗ Pipeline.unscopedRest spec0 c V) ⊢ (unscopedBufs c V' : sProp 𝕄) := by
  rw [Pipeline.unscopedBufs_split₀ cfgs (0 : Fin 3) winFacts₀0.arr_unscoped c V']
  refine sep_mono (arrBufs_of_arrays0 dat hq0 hq1 hq Fw V' hF) (Entails.of_eq ?_)
  unfold Pipeline.unscopedRest
  exact bigSep_congr fun b hb => by rw [hrest b (Finset.mem_sdiff.mp hb).2]

end Share

end Cert.KernelIdeal.Hand

end
-- ==== Proof.KIShare1.lean ====
/-
  Kernel 1's windows 0 and 1 read one array (the incidence matrix, once by blocks and once whole).  The buffers
  behind the windows' arrays, each held whole, make the pipeline's arrays with that one buffer's ownership split in
  two halves, one per window; and the halves join again when the region is left.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share
variable {c : Dev nD} (dat : Dat τ (Elt F) Unit ℕ (UR sig nD τ) ℕ cfg1 c)

/-- The eight distinct buffers behind the nine windows' arrays. -/
theorem arrRefs1_eq : (Finset.univ.image (Pipeline.arrRef spec1) : Finset (Ref sig .tc)) = [Pipeline.arrRef spec1 1, Pipeline.arrRef spec1 2, Pipeline.arrRef spec1 3, Pipeline.arrRef spec1 4, Pipeline.arrRef spec1 5, Pipeline.arrRef spec1 6, Pipeline.arrRef spec1 7, Pipeline.arrRef spec1 8].toFinset := by decide
theorem arrRefs1_nodup : ([Pipeline.arrRef spec1 1, Pipeline.arrRef spec1 2, Pipeline.arrRef spec1 3, Pipeline.arrRef spec1 4, Pipeline.arrRef spec1 5, Pipeline.arrRef spec1 6, Pipeline.arrRef spec1 7, Pipeline.arrRef spec1 8] : List (Ref sig .tc)).Nodup := by decide

/-- One window's array, whole, at share `q`, as a points-to of the buffer behind it. -/
theorem arr_pt1 (w : Fin cfg1.W) (q : PosShare TreeShare) (hs : dat.share w = q)
    (Fw : (w : Fin cfg1.W) → Buf (Elt F) ((cfg1.win w).arr.view.loc (c.tc : Thread nD τ)))
    (V : (b : Ref sig .tc) → Buf (Elt F) ((c.tc : Thread nD τ).loc b)) (hF : Fw w = V (Pipeline.arrRef spec1 w)) :
    ((cfg1.win w).arr.view.loc (c.tc : Thread nD τ) ↦[(cfg1.win w).arr.view.set]{dat.share w} Fw w : sProp 𝕄)
      = (((c.tc : Thread nD τ).loc (Pipeline.arrRef spec1 w)) ↦{q} V (Pipeline.arrRef spec1 w)) := by
  rw [(arr_whole1 w).set_eq_univ, hs, hF]

/-- The buffers behind the arrays, one by one. -/
theorem arrBufs1_eq (V : (b : Ref sig .tc) → Buf (Elt F) ((c.tc : Thread nD τ).loc b)) :
    (Pipeline.arrBufs spec1 c V : sProp 𝕄) = iprop((((c.tc : Thread nD τ).loc (Pipeline.arrRef spec1 1)) ↦{fullShare} V (Pipeline.arrRef spec1 1)) ∗ (((c.tc : Thread nD τ).loc (Pipeline.arrRef spec1 2)) ↦{fullShare} V (Pipeline.arrRef spec1 2)) ∗ (((c.tc : Thread nD τ).loc (Pipeline.arrRef spec1 3)) ↦{fullShare} V (Pipeline.arrRef spec1 3)) ∗ (((c.tc : Thread nD τ).loc (Pipeline.arrRef spec1 4)) ↦{fullShare} V (Pipeline.arrRef spec1 4)) ∗ (((c.tc : Thread nD τ).loc (Pipeline.arrRef spec1 5)) ↦{fullShare} V (Pipeline.arrRef spec1 5)) ∗ (((c.tc : Thread nD τ).loc (Pipeline.arrRef spec1 6)) ↦{fullShare} V (Pipeline.arrRef spec1 6)) ∗ (((c.tc : Thread nD τ).loc (Pipeline.arrRef spec1 7)) ↦{fullShare} V (Pipeline.arrRef spec1 7)) ∗ (((c.tc : Thread nD τ).loc (Pipeline.arrRef spec1 8)) ↦{fullShare} V (Pipeline.arrRef spec1 8))) := by
  unfold Pipeline.arrBufs
  exact bigSep_eq_bigSepL_of_eq _ arrRefs1_eq arrRefs1_nodup _

/-- ENTRY: the buffers behind the arrays, whole at `V`, are the pipeline's arrays at `V`'s contents, the shared
    buffer split between windows 0 and 1. -/
theorem arrays_of_arrBufs1 (hq0 : dat.share 0 = fullShare.left) (hq1 : dat.share 1 = fullShare.right)
    (hq : ∀ w : Fin cfg1.W, 2 ≤ w.val → dat.share w = fullShare)
    (Fw : (w : Fin cfg1.W) → Buf (Elt F) ((cfg1.win w).arr.view.loc (c.tc : Thread nD τ)))
    (V : (b : Ref sig .tc) → Buf (Elt F) ((c.tc : Thread nD τ).loc b)) (hF : ∀ w, Fw w = V (Pipeline.arrRef spec1 w)) :
    (Pipeline.arrBufs spec1 c V : sProp 𝕄) ⊢ dat.arrays Fw := by
  rw [arrBufs1_eq]; unfold Dat.arrays
  rw [bigSep_W1]
  iintro ⟨H1, H2, H3, H4, H5, H6, H7, H8⟩
  ihave Hs := (pointsTo_share (PosShare.mem_left_op_right fullShare)).1 $$ H1
  icases Hs with ⟨Ha, Hb⟩
  isplitl [Ha]; · iapply (Entails.of_eq (arr_pt1 dat 0 _ hq0 Fw V (hF 0)).symm); iexact Ha
  isplitl [Hb]; · iapply (Entails.of_eq (arr_pt1 dat 1 _ hq1 Fw V (hF 1)).symm); iexact Hb
  isplitl [H2]; · iapply (Entails.of_eq (arr_pt1 dat 2 _ (hq 2 (by decide)) Fw V (hF 2)).symm); iexact H2
  isplitl [H3]; · iapply (Entails.of_eq (arr_pt1 dat 3 _ (hq 3 (by decide)) Fw V (hF 3)).symm); iexact H3
  isplitl [H4]; · iapply (Entails.of_eq (arr_pt1 dat 4 _ (hq 4 (by decide)) Fw V (hF 4)).symm); iexact H4
  isplitl [H5]; · iapply (Entails.of_eq (arr_pt1 dat 5 _ (hq 5 (by decide)) Fw V (hF 5)).symm); iexact H5
  isplitl [H6]; · iapply (Entails.of_eq (arr_pt1 dat 6 _ (hq 6 (by decide)) Fw V (hF 6)).symm); iexact H6
  isplitl [H7]; · iapply (Entails.of_eq (arr_pt1 dat 7 _ (hq 7 (by decide)) Fw V (hF 7)).symm); iexact H7
  iapply (Entails.of_eq (arr_pt1 dat 8 _ (hq 8 (by decide)) Fw V (hF 8)).symm); iexact H8

/-- EXIT: the pipeline's arrays at `V`'s contents are the buffers behind them whole at `V`, the two halves joined. -/
theorem arrBufs_of_arrays1 (hq0 : dat.share 0 = fullShare.left) (hq1 : dat.share 1 = fullShare.right)
    (hq : ∀ w : Fin cfg1.W, 2 ≤ w.val → dat.share w = fullShare)
    (Fw : (w : Fin cfg1.W) → Buf (Elt F) ((cfg1.win w).arr.view.loc (c.tc : Thread nD τ)))
    (V : (b : Ref sig .tc) → Buf (Elt F) ((c.tc : Thread nD τ).loc b)) (hF : ∀ w, Fw w = V (Pipeline.arrRef spec1 w)) :
    dat.arrays Fw ⊢ (Pipeline.arrBufs spec1 c V : sProp 𝕄) := by
  rw [arrBufs1_eq]; unfold Dat.arrays
  rw [bigSep_W1]
  iintro ⟨Ha, Hb, H2, H3, H4, H5, H6, H7, H8⟩
  isplitl [Ha Hb]
  · iapply (pointsTo_share (PosShare.mem_left_op_right fullShare)).2
    isplitl [Ha]; · iapply (Entails.of_eq (arr_pt1 dat 0 _ hq0 Fw V (hF 0))); iexact Ha
    iapply (Entails.of_eq (arr_pt1 dat 1 _ hq1 Fw V (hF 1))); iexact Hb
  isplitl [H2]; · iapply (Entails.of_eq (arr_pt1 dat 2 _ (hq 2 (by decide)) Fw V (hF 2))); iexact H2
  isplitl [H3]; · iapply (Entails.of_eq (arr_pt1 dat 3 _ (hq 3 (by decide)) Fw V (hF 3))); iexact H3
  isplitl [H4]; · iapply (Entails.of_eq (arr_pt1 dat 4 _ (hq 4 (by decide)) Fw V (hF 4))); iexact H4
  isplitl [H5]; · iapply (Entails.of_eq (arr_pt1 dat 5 _ (hq 5 (by decide)) Fw V (hF 5))); iexact H5
  isplitl [H6]; · iapply (Entails.of_eq (arr_pt1 dat 6 _ (hq 6 (by decide)) Fw V (hF 6))); iexact H6
  isplitl [H7]; · iapply (Entails.of_eq (arr_pt1 dat 7 _ (hq 7 (by decide)) Fw V (hF 7))); iexact H7
  iapply (Entails.of_eq (arr_pt1 dat 8 _ (hq 8 (by decide)) Fw V (hF 8))); iexact H8

/-- ENTRY, from a core's unscoped buffers at `V`: the pipeline's arrays and the unscoped rest. -/
theorem arrays_of_unscopedBufs1 (hq0 : dat.share 0 = fullShare.left) (hq1 : dat.share 1 = fullShare.right)
    (hq : ∀ w : Fin cfg1.W, 2 ≤ w.val → dat.share w = fullShare)
    (V : (b : Ref sig .tc) → Buf (Elt F) ((c.tc : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs (1 : Fin 3) winFacts₀1.arr_unscoped c V]
  exact sep_mono (arrays_of_arrBufs1 dat hq0 hq1 hq _ V fun w => by rw [show dat.arrAt w 0 = dat.A w from rfl, hA]) .rfl

/-- EXIT, to a core's unscoped buffers at any valuation `V'` that has the arrays at `Fw` and agrees with `V` off them. -/
theorem unscopedBufs_of_arrays1 (hq0 : dat.share 0 = fullShare.left) (hq1 : dat.share 1 = fullShare.right)
    (hq : ∀ w : Fin cfg1.W, 2 ≤ w.val → dat.share w = fullShare)
    (V V' : (b : Ref sig .tc) → Buf (Elt F) ((c.tc : Thread nD τ).loc b))
    (Fw : (w : Fin cfg1.W) → Buf (Elt F) ((cfg1.win w).arr.view.loc (c.tc : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) := by
  rw [Pipeline.unscopedBufs_split₀ cfgs (1 : Fin 3) winFacts₀1.arr_unscoped c V']
  refine sep_mono (arrBufs_of_arrays1 dat hq0 hq1 hq Fw V' hF) (Entails.of_eq ?_)
  unfold Pipeline.unscopedRest
  exact bigSep_congr fun b hb => by rw [hrest b (Finset.mem_sdiff.mp hb).2]

end Share

end Cert.KernelIdeal.Hand

end
-- ==== Proof.KIShare2.lean ====
/-
  Kernel 2's windows 0 and 1 read one array (the incidence matrix, once by blocks and once whole).  The buffers
  behind the windows' arrays, each held whole, make the pipeline's arrays with that one buffer's ownership split in
  two halves, one per window; and the halves join again when the region is left.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share
variable {c : Dev nD} (dat : Dat τ (Elt F) Unit ℕ (UR sig nD τ) ℕ cfg2 c)

/-- The eight distinct buffers behind the nine windows' arrays. -/
theorem arrRefs2_eq : (Finset.univ.image (Pipeline.arrRef spec2) : Finset (Ref sig .tc)) = [Pipeline.arrRef spec2 1, Pipeline.arrRef spec2 2, Pipeline.arrRef spec2 3, Pipeline.arrRef spec2 4, Pipeline.arrRef spec2 5, Pipeline.arrRef spec2 6, Pipeline.arrRef spec2 7, Pipeline.arrRef spec2 8].toFinset := by decide
theorem arrRefs2_nodup : ([Pipeline.arrRef spec2 1, Pipeline.arrRef spec2 2, Pipeline.arrRef spec2 3, Pipeline.arrRef spec2 4, Pipeline.arrRef spec2 5, Pipeline.arrRef spec2 6, Pipeline.arrRef spec2 7, Pipeline.arrRef spec2 8] : List (Ref sig .tc)).Nodup := by decide

/-- One window's array, whole, at share `q`, as a points-to of the buffer behind it. -/
theorem arr_pt2 (w : Fin cfg2.W) (q : PosShare TreeShare) (hs : dat.share w = q)
    (Fw : (w : Fin cfg2.W) → Buf (Elt F) ((cfg2.win w).arr.view.loc (c.tc : Thread nD τ)))
    (V : (b : Ref sig .tc) → Buf (Elt F) ((c.tc : Thread nD τ).loc b)) (hF : Fw w = V (Pipeline.arrRef spec2 w)) :
    ((cfg2.win w).arr.view.loc (c.tc : Thread nD τ) ↦[(cfg2.win w).arr.view.set]{dat.share w} Fw w : sProp 𝕄)
      = (((c.tc : Thread nD τ).loc (Pipeline.arrRef spec2 w)) ↦{q} V (Pipeline.arrRef spec2 w)) := by
  rw [(arr_whole2 w).set_eq_univ, hs, hF]

/-- The buffers behind the arrays, one by one. -/
theorem arrBufs2_eq (V : (b : Ref sig .tc) → Buf (Elt F) ((c.tc : Thread nD τ).loc b)) :
    (Pipeline.arrBufs spec2 c V : sProp 𝕄) = iprop((((c.tc : Thread nD τ).loc (Pipeline.arrRef spec2 1)) ↦{fullShare} V (Pipeline.arrRef spec2 1)) ∗ (((c.tc : Thread nD τ).loc (Pipeline.arrRef spec2 2)) ↦{fullShare} V (Pipeline.arrRef spec2 2)) ∗ (((c.tc : Thread nD τ).loc (Pipeline.arrRef spec2 3)) ↦{fullShare} V (Pipeline.arrRef spec2 3)) ∗ (((c.tc : Thread nD τ).loc (Pipeline.arrRef spec2 4)) ↦{fullShare} V (Pipeline.arrRef spec2 4)) ∗ (((c.tc : Thread nD τ).loc (Pipeline.arrRef spec2 5)) ↦{fullShare} V (Pipeline.arrRef spec2 5)) ∗ (((c.tc : Thread nD τ).loc (Pipeline.arrRef spec2 6)) ↦{fullShare} V (Pipeline.arrRef spec2 6)) ∗ (((c.tc : Thread nD τ).loc (Pipeline.arrRef spec2 7)) ↦{fullShare} V (Pipeline.arrRef spec2 7)) ∗ (((c.tc : Thread nD τ).loc (Pipeline.arrRef spec2 8)) ↦{fullShare} V (Pipeline.arrRef spec2 8))) := by
  unfold Pipeline.arrBufs
  exact bigSep_eq_bigSepL_of_eq _ arrRefs2_eq arrRefs2_nodup _

/-- ENTRY: the buffers behind the arrays, whole at `V`, are the pipeline's arrays at `V`'s contents, the shared
    buffer split between windows 0 and 1. -/
theorem arrays_of_arrBufs2 (hq0 : dat.share 0 = fullShare.left) (hq1 : dat.share 1 = fullShare.right)
    (hq : ∀ w : Fin cfg2.W, 2 ≤ w.val → dat.share w = fullShare)
    (Fw : (w : Fin cfg2.W) → Buf (Elt F) ((cfg2.win w).arr.view.loc (c.tc : Thread nD τ)))
    (V : (b : Ref sig .tc) → Buf (Elt F) ((c.tc : Thread nD τ).loc b)) (hF : ∀ w, Fw w = V (Pipeline.arrRef spec2 w)) :
    (Pipeline.arrBufs spec2 c V : sProp 𝕄) ⊢ dat.arrays Fw := by
  rw [arrBufs2_eq]; unfold Dat.arrays
  rw [bigSep_W2]
  iintro ⟨H1, H2, H3, H4, H5, H6, H7, H8⟩
  ihave Hs := (pointsTo_share (PosShare.mem_left_op_right fullShare)).1 $$ H1
  icases Hs with ⟨Ha, Hb⟩
  isplitl [Ha]; · iapply (Entails.of_eq (arr_pt2 dat 0 _ hq0 Fw V (hF 0)).symm); iexact Ha
  isplitl [Hb]; · iapply (Entails.of_eq (arr_pt2 dat 1 _ hq1 Fw V (hF 1)).symm); iexact Hb
  isplitl [H2]; · iapply (Entails.of_eq (arr_pt2 dat 2 _ (hq 2 (by decide)) Fw V (hF 2)).symm); iexact H2
  isplitl [H3]; · iapply (Entails.of_eq (arr_pt2 dat 3 _ (hq 3 (by decide)) Fw V (hF 3)).symm); iexact H3
  isplitl [H4]; · iapply (Entails.of_eq (arr_pt2 dat 4 _ (hq 4 (by decide)) Fw V (hF 4)).symm); iexact H4
  isplitl [H5]; · iapply (Entails.of_eq (arr_pt2 dat 5 _ (hq 5 (by decide)) Fw V (hF 5)).symm); iexact H5
  isplitl [H6]; · iapply (Entails.of_eq (arr_pt2 dat 6 _ (hq 6 (by decide)) Fw V (hF 6)).symm); iexact H6
  isplitl [H7]; · iapply (Entails.of_eq (arr_pt2 dat 7 _ (hq 7 (by decide)) Fw V (hF 7)).symm); iexact H7
  iapply (Entails.of_eq (arr_pt2 dat 8 _ (hq 8 (by decide)) Fw V (hF 8)).symm); iexact H8

/-- EXIT: the pipeline's arrays at `V`'s contents are the buffers behind them whole at `V`, the two halves joined. -/
theorem arrBufs_of_arrays2 (hq0 : dat.share 0 = fullShare.left) (hq1 : dat.share 1 = fullShare.right)
    (hq : ∀ w : Fin cfg2.W, 2 ≤ w.val → dat.share w = fullShare)
    (Fw : (w : Fin cfg2.W) → Buf (Elt F) ((cfg2.win w).arr.view.loc (c.tc : Thread nD τ)))
    (V : (b : Ref sig .tc) → Buf (Elt F) ((c.tc : Thread nD τ).loc b)) (hF : ∀ w, Fw w = V (Pipeline.arrRef spec2 w)) :
    dat.arrays Fw ⊢ (Pipeline.arrBufs spec2 c V : sProp 𝕄) := by
  rw [arrBufs2_eq]; unfold Dat.arrays
  rw [bigSep_W2]
  iintro ⟨Ha, Hb, H2, H3, H4, H5, H6, H7, H8⟩
  isplitl [Ha Hb]
  · iapply (pointsTo_share (PosShare.mem_left_op_right fullShare)).2
    isplitl [Ha]; · iapply (Entails.of_eq (arr_pt2 dat 0 _ hq0 Fw V (hF 0))); iexact Ha
    iapply (Entails.of_eq (arr_pt2 dat 1 _ hq1 Fw V (hF 1))); iexact Hb
  isplitl [H2]; · iapply (Entails.of_eq (arr_pt2 dat 2 _ (hq 2 (by decide)) Fw V (hF 2))); iexact H2
  isplitl [H3]; · iapply (Entails.of_eq (arr_pt2 dat 3 _ (hq 3 (by decide)) Fw V (hF 3))); iexact H3
  isplitl [H4]; · iapply (Entails.of_eq (arr_pt2 dat 4 _ (hq 4 (by decide)) Fw V (hF 4))); iexact H4
  isplitl [H5]; · iapply (Entails.of_eq (arr_pt2 dat 5 _ (hq 5 (by decide)) Fw V (hF 5))); iexact H5
  isplitl [H6]; · iapply (Entails.of_eq (arr_pt2 dat 6 _ (hq 6 (by decide)) Fw V (hF 6))); iexact H6
  isplitl [H7]; · iapply (Entails.of_eq (arr_pt2 dat 7 _ (hq 7 (by decide)) Fw V (hF 7))); iexact H7
  iapply (Entails.of_eq (arr_pt2 dat 8 _ (hq 8 (by decide)) Fw V (hF 8))); iexact H8

/-- ENTRY, from a core's unscoped buffers at `V`: the pipeline's arrays and the unscoped rest. -/
theorem arrays_of_unscopedBufs2 (hq0 : dat.share 0 = fullShare.left) (hq1 : dat.share 1 = fullShare.right)
    (hq : ∀ w : Fin cfg2.W, 2 ≤ w.val → dat.share w = fullShare)
    (V : (b : Ref sig .tc) → Buf (Elt F) ((c.tc : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs (2 : Fin 3) winFacts₀2.arr_unscoped c V]
  exact sep_mono (arrays_of_arrBufs2 dat hq0 hq1 hq _ V fun w => by rw [show dat.arrAt w 0 = dat.A w from rfl, hA]) .rfl

/-- EXIT, to a core's unscoped buffers at any valuation `V'` that has the arrays at `Fw` and agrees with `V` off them. -/
theorem unscopedBufs_of_arrays2 (hq0 : dat.share 0 = fullShare.left) (hq1 : dat.share 1 = fullShare.right)
    (hq : ∀ w : Fin cfg2.W, 2 ≤ w.val → dat.share w = fullShare)
    (V V' : (b : Ref sig .tc) → Buf (Elt F) ((c.tc : Thread nD τ).loc b))
    (Fw : (w : Fin cfg2.W) → Buf (Elt F) ((cfg2.win w).arr.view.loc (c.tc : Thread nD τ)))
    (hF : ∀ w, Fw w = V' (Pipeline.arrRef spec2 w))
    (hrest : ∀ b, b ∉ Finset.univ.image (Pipeline.arrRef spec2) → V' b = V b) :
    iprop(dat.arrays Fw ∗ Pipeline.unscopedRest spec2 c V) ⊢ (unscopedBufs c V' : sProp 𝕄) := by
  rw [Pipeline.unscopedBufs_split₀ cfgs (2 : Fin 3) winFacts₀2.arr_unscoped c V']
  refine sep_mono (arrBufs_of_arrays2 dat hq0 hq1 hq Fw V' hF) (Entails.of_eq ?_)
  unfold Pipeline.unscopedRest
  exact bigSep_congr fun b hb => by rw [hrest b (Finset.mem_sdiff.mp hb).2]

end Share

end Cert.KernelIdeal.Hand

end
-- ==== Proof.KIRun.lean ====
/-
  The whole program as four segments — the three reshapes of the biases, then the three kernels — run from the
  launch to the return: the contents of every unscoped buffer at each boundary, every pipeline's proof data at its
  region's entry contents, each region as a segment, and the run, whose final memory holds every unscoped buffer
  at the last boundary's contents.
-/
import proofs.«181512_g78709570666604_cont_9to1_m_429_6_alg».proof.Proof.Gen.KernelIdeal.Launch
import proofs.«181512_g78709570666604_cont_9to1_m_429_6_alg».proof.Proof.Gen.KernelIdeal.Skeleton
import proofs.«181512_g78709570666604_cont_9to1_m_429_6_alg».proof.Proof.Gen.KernelIdeal.Points
import proofs.«181512_g78709570666604_cont_9to1_m_429_6_alg».proof.Proof.Gen.KernelIdeal.Regions
import proofs.«181512_g78709570666604_cont_9to1_m_429_6_alg».proof.Proof.KIRegion0
import proofs.«181512_g78709570666604_cont_9to1_m_429_6_alg».proof.Proof.KIRegion1
import proofs.«181512_g78709570666604_cont_9to1_m_429_6_alg».proof.Proof.KIRegion2
import proofs.«181512_g78709570666604_cont_9to1_m_429_6_alg».proof.Proof.KIShare0
import proofs.«181512_g78709570666604_cont_9to1_m_429_6_alg».proof.Proof.KIShare1
import proofs.«181512_g78709570666604_cont_9to1_m_429_6_alg».proof.Proof.KIShare2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev U0 (c : Dev nD) : Valuation τ sig (Elt F) := fun b => m (c, b)
/-- After the three reshapes (region 0's entry). -/
abbrev U1 (c : Dev nD) : Valuation τ sig (Elt F) := StableHlo.after hostOps0 (U0 m c)
abbrev R1 (c : Dev nD) (b : Ref sig .tc) : Buf (Elt F) ((c : Thread nD τ).loc b) := U1 m c b
/-- After region 0: its result array at what the pipeline leaves, every other buffer as before. -/
def U2 (c : Dev nD) : Valuation τ sig (Elt F) := Function.update (U1 m c) (Proc.devRef .tc main_v3) ((dat0 (R1 m) c).arrAt 8 cfg0.N)
abbrev R2 (c : Dev nD) (b : Ref sig .tc) : Buf (Elt F) ((c : Thread nD τ).loc b) := U2 m c b
/-- After region 1. -/
def U3 (c : Dev nD) : Valuation τ sig (Elt F) := Function.update (U2 m c) (Proc.devRef .tc main_v4) ((dat1 (R2 m) c).arrAt 8 cfg1.N)
abbrev R3 (c : Dev nD) (b : Ref sig .tc) : Buf (Elt F) ((c : Thread nD τ).loc b) := U3 m c b
/-- After region 2. -/
def U4 (c : Dev nD) : Valuation τ sig (Elt F) := Function.update (U3 m c) (Proc.devRef .tc main_v5) ((dat2 (R3 m) c).arrAt 8 cfg2.N)
abbrev R4 (c : Dev nD) (b : Ref sig .tc) : Buf (Elt F) ((c : Thread nD τ).loc b) := U4 m c b

theorem U2_self (c : Dev nD) : R2 m c main_v3 = (dat0 (R1 m) c).arrAt 8 cfg0.N := by delta R2 U2; exact Function.update_self ..
theorem U2_of_ne (c : Dev nD) (b : Ref sig .tc) (h : b ≠ main_v3) : R2 m c b = R1 m c b := by
  delta R2 U2; exact Function.update_of_ne (StableHlo.devRef_ne_of_ne h) ..
theorem U3_self (c : Dev nD) : R3 m c main_v4 = (dat1 (R2 m) c).arrAt 8 cfg1.N := by delta R3 U3; exact Function.update_self ..
theorem U3_of_ne (c : Dev nD) (b : Ref sig .tc) (h : b ≠ main_v4) : R3 m c b = R2 m c b := by
  delta R3 U3; exact Function.update_of_ne (StableHlo.devRef_ne_of_ne h) ..
theorem U4_self (c : Dev nD) : R4 m c main_v5 = (dat2 (R3 m) c).arrAt 8 cfg2.N := by delta R4 U4; exact Function.update_self ..
theorem U4_of_ne (c : Dev nD) (b : Ref sig .tc) (h : b ≠ main_v5) : R4 m c b = R3 m c b := by
  delta R4 U4; exact Function.update_of_ne (StableHlo.devRef_ne_of_ne h) ..

/-- At region 0's exit each of its arrays holds what the pipeline leaves there, and every other buffer what it held at entry. -/
theorem hF0 (c : Dev nD) : ∀ w : Fin cfg0.W, (dat0 (R1 m) c).arrAt w cfg0.N = R2 m c (Pipeline.arrRef spec0 w)
  | ⟨0, _⟩ => ((dat0 (R1 m) c).arrAt_in 0 rfl _).trans ((A_eq0 (R1 m) c 0).trans (U2_of_ne m c _ (by decide)).symm)
  | ⟨1, _⟩ => ((dat0 (R1 m) c).arrAt_in 1 rfl _).trans ((A_eq0 (R1 m) c 1).trans (U2_of_ne m c _ (by decide)).symm)
  | ⟨2, _⟩ => ((dat0 (R1 m) c).arrAt_in 2 rfl _).trans ((A_eq0 (R1 m) c 2).trans (U2_of_ne m c _ (by decide)).symm)
  | ⟨3, _⟩ => ((dat0 (R1 m) c).arrAt_in 3 rfl _).trans ((A_eq0 (R1 m) c 3).trans (U2_of_ne m c _ (by decide)).symm)
  | ⟨4, _⟩ => ((dat0 (R1 m) c).arrAt_in 4 rfl _).trans ((A_eq0 (R1 m) c 4).trans (U2_of_ne m c _ (by decide)).symm)
  | ⟨5, _⟩ => ((dat0 (R1 m) c).arrAt_in 5 rfl _).trans ((A_eq0 (R1 m) c 5).trans (U2_of_ne m c _ (by decide)).symm)
  | ⟨6, _⟩ => ((dat0 (R1 m) c).arrAt_in 6 rfl _).trans ((A_eq0 (R1 m) c 6).trans (U2_of_ne m c _ (by decide)).symm)
  | ⟨7, _⟩ => ((dat0 (R1 m) c).arrAt_in 7 rfl _).trans ((A_eq0 (R1 m) c 7).trans (U2_of_ne m c _ (by decide)).symm)
  | ⟨8, _⟩ => (U2_self m c).symm
  | ⟨n + 9, h⟩ => absurd h (Nat.not_lt.2 (Nat.le_add_left _ _))
theorem hrest0 (c : Dev nD) : ∀ b, b ∉ Finset.univ.image (Pipeline.arrRef spec0) → R2 m c b = R1 m c b :=
  fun b hb => U2_of_ne m c b fun e => hb (Finset.mem_image.mpr ⟨8, Finset.mem_univ _, e.symm⟩)

/-- At region 1's exit each of its arrays holds what the pipeline leaves there, and every other buffer what it held at entry. -/
theorem hF1 (c : Dev nD) : ∀ w : Fin cfg1.W, (dat1 (R2 m) c).arrAt w cfg1.N = R3 m c (Pipeline.arrRef spec1 w)
  | ⟨0, _⟩ => ((dat1 (R2 m) c).arrAt_in 0 rfl _).trans ((A_eq1 (R2 m) c 0).trans (U3_of_ne m c _ (by decide)).symm)
  | ⟨1, _⟩ => ((dat1 (R2 m) c).arrAt_in 1 rfl _).trans ((A_eq1 (R2 m) c 1).trans (U3_of_ne m c _ (by decide)).symm)
  | ⟨2, _⟩ => ((dat1 (R2 m) c).arrAt_in 2 rfl _).trans ((A_eq1 (R2 m) c 2).trans (U3_of_ne m c _ (by decide)).symm)
  | ⟨3, _⟩ => ((dat1 (R2 m) c).arrAt_in 3 rfl _).trans ((A_eq1 (R2 m) c 3).trans (U3_of_ne m c _ (by decide)).symm)
  | ⟨4, _⟩ => ((dat1 (R2 m) c).arrAt_in 4 rfl _).trans ((A_eq1 (R2 m) c 4).trans (U3_of_ne m c _ (by decide)).symm)
  | ⟨5, _⟩ => ((dat1 (R2 m) c).arrAt_in 5 rfl _).trans ((A_eq1 (R2 m) c 5).trans (U3_of_ne m c _ (by decide)).symm)
  | ⟨6, _⟩ => ((dat1 (R2 m) c).arrAt_in 6 rfl _).trans ((A_eq1 (R2 m) c 6).trans (U3_of_ne m c _ (by decide)).symm)
  | ⟨7, _⟩ => ((dat1 (R2 m) c).arrAt_in 7 rfl _).trans ((A_eq1 (R2 m) c 7).trans (U3_of_ne m c _ (by decide)).symm)
  | ⟨8, _⟩ => (U3_self m c).symm
  | ⟨n + 9, h⟩ => absurd h (Nat.not_lt.2 (Nat.le_add_left _ _))
theorem hrest1 (c : Dev nD) : ∀ b, b ∉ Finset.univ.image (Pipeline.arrRef spec1) → R3 m c b = R2 m c b :=
  fun b hb => U3_of_ne m c b fun e => hb (Finset.mem_image.mpr ⟨8, Finset.mem_univ _, e.symm⟩)

/-- At region 2's exit each of its arrays holds what the pipeline leaves there, and every other buffer what it held at entry. -/
theorem hF2 (c : Dev nD) : ∀ w : Fin cfg2.W, (dat2 (R3 m) c).arrAt w cfg2.N = R4 m c (Pipeline.arrRef spec2 w)
  | ⟨0, _⟩ => ((dat2 (R3 m) c).arrAt_in 0 rfl _).trans ((A_eq2 (R3 m) c 0).trans (U4_of_ne m c _ (by decide)).symm)
  | ⟨1, _⟩ => ((dat2 (R3 m) c).arrAt_in 1 rfl _).trans ((A_eq2 (R3 m) c 1).trans (U4_of_ne m c _ (by decide)).symm)
  | ⟨2, _⟩ => ((dat2 (R3 m) c).arrAt_in 2 rfl _).trans ((A_eq2 (R3 m) c 2).trans (U4_of_ne m c _ (by decide)).symm)
  | ⟨3, _⟩ => ((dat2 (R3 m) c).arrAt_in 3 rfl _).trans ((A_eq2 (R3 m) c 3).trans (U4_of_ne m c _ (by decide)).symm)
  | ⟨4, _⟩ => ((dat2 (R3 m) c).arrAt_in 4 rfl _).trans ((A_eq2 (R3 m) c 4).trans (U4_of_ne m c _ (by decide)).symm)
  | ⟨5, _⟩ => ((dat2 (R3 m) c).arrAt_in 5 rfl _).trans ((A_eq2 (R3 m) c 5).trans (U4_of_ne m c _ (by decide)).symm)
  | ⟨6, _⟩ => ((dat2 (R3 m) c).arrAt_in 6 rfl _).trans ((A_eq2 (R3 m) c 6).trans (U4_of_ne m c _ (by decide)).symm)
  | ⟨7, _⟩ => ((dat2 (R3 m) c).arrAt_in 7 rfl _).trans ((A_eq2 (R3 m) c 7).trans (U4_of_ne m c _ (by decide)).symm)
  | ⟨8, _⟩ => (U4_self m c).symm
  | ⟨n + 9, h⟩ => absurd h (Nat.not_lt.2 (Nat.le_add_left _ _))
theorem hrest2 (c : Dev nD) : ∀ b, b ∉ Finset.univ.image (Pipeline.arrRef spec2) → R4 m c b = R3 m c b :=
  fun b hb => U4_of_ne m c b fun e => hb (Finset.mem_image.mpr ⟨8, Finset.mem_univ _, e.symm⟩)

/-- A buffer that neither a reshape nor a region writes reaches the end as launched. -/
theorem R4_of (c : Dev nD) (b : Ref sig .tc) (h5 : b ≠ main_v5) (h4 : b ≠ main_v4) (h3 : b ≠ main_v3) (h : b ∉ hostOps0_W) :
    R4 m c b = m ((c : Thread nD τ).loc b) :=
  (U4_of_ne m c b h5).trans <| (U3_of_ne m c b h4).trans <| (U2_of_ne m c b h3).trans <| (V1_of m c b h).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
  | ⟨2, _⟩ => fun c => dat2 (R3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The reshapes as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (U4 m c) ∗ ∃ r, prngReg c r)

/-! ## The regions as segments -/

set_option backward.isDefEq.respectTransparency.types false in
/-- Region 0 over the thread state: entered from every unscoped buffer at the contents before it, left at the
    contents after it. Its arrays are split out of the unscoped buffers (the shared array's ownership halved
    between its two windows) and put back at the exit contents; the generator register goes into the invariant and
    comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := arrays_of_unscopedBufs0 (pdats m 0 c) (share0_0 (R1 m) c) (share0_1 (R1 m) c) (share0_ge2 (R1 m) c) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PhiS0_out (R1 m) c 3).trans ?_
    unfold Pipeline.ΦA
    iintro ⟨Hr, Hp⟩
    isplitl [Hp]; · iexact Hp
    isplitr; · iempintro
    iexact Hr
  hexit c := by
    have hjoin := unscopedBufs_of_arrays0 (pdats m 0 c) (share0_0 (R1 m) c) (share0_1 (R1 m) c) (share0_ge2 (R1 m) c)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers (the shared array's ownership halved
    between its two windows) and put back at the exit contents; the generator register goes into the invariant and
    comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := arrays_of_unscopedBufs1 (pdats m 1 c) (share1_0 (R2 m) c) (share1_1 (R2 m) c) (share1_ge2 (R2 m) c) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from PhiS1_out (R2 m) c 7).trans ?_
    unfold Pipeline.ΦA
    iintro ⟨Hr, Hp⟩
    isplitl [Hp]; · iexact Hp
    isplitr; · iempintro
    iexact Hr
  hexit c := by
    have hjoin := unscopedBufs_of_arrays1 (pdats m 1 c) (share1_0 (R2 m) c) (share1_1 (R2 m) c) (share1_ge2 (R2 m) c)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers (the shared array's ownership halved
    between its two windows) and put back at the exit contents; the generator register goes into the invariant and
    comes back; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (R3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (R3 m c)
  hentry c := by
    rw [Pipeline.ownSems0_none]
    have hsplit := arrays_of_unscopedBufs2 (pdats m 2 c) (share2_0 (R3 m) c) (share2_1 (R3 m) c) (share2_ge2 (R3 m) c) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from PhiS2_out (R3 m) c 3).trans ?_
    unfold Pipeline.ΦA
    iintro ⟨Hr, Hp⟩
    isplitl [Hp]; · iexact Hp
    isplitr; · iempintro
    iexact Hr
  hexit c := by
    have hjoin := unscopedBufs_of_arrays2 (pdats m 2 c) (share2_0 (R3 m) c) (share2_1 (R3 m) c) (share2_ge2 (R3 m) c)
      (R3 m c) (R4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = U4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (R4_of m c main_arg0 (by decide) (by decide) (by decide) (by decide)),
    (h c _ (mem_uc main_arg1 (by decide))).trans (R4_of m c main_arg1 (by decide) (by decide) (by decide) (by decide)),
    (h c _ (mem_uc main_arg2 (by decide))).trans (R4_of m c main_arg2 (by decide) (by decide) (by decide) (by decide)),
    (h c _ (mem_uc main_arg3 (by decide))).trans (R4_of m c main_arg3 (by decide) (by decide) (by decide) (by decide)),
    (h c _ (mem_uc main_arg4 (by decide))).trans (R4_of m c main_arg4 (by decide) (by decide) (by decide) (by decide)),
    (h c _ (mem_uc main_arg5 (by decide))).trans (R4_of m c main_arg5 (by decide) (by decide) (by decide) (by decide)),
    (h c _ (mem_uc main_arg6 (by decide))).trans (R4_of m c main_arg6 (by decide) (by decide) (by decide) (by decide)),
    (h c _ (mem_uc main_arg7 (by decide))).trans (R4_of m c main_arg7 (by decide) (by decide) (by decide) (by decide)),
    (h c _ (mem_uc main_arg8 (by decide))).trans (R4_of m c main_arg8 (by decide) (by decide) (by decide) (by decide)),
    (h c _ (mem_uc main_arg9 (by decide))).trans (R4_of m c main_arg9 (by decide) (by decide) (by decide) (by decide)),
    (h c _ (mem_uc main_arg10 (by decide))).trans (R4_of m c main_arg10 (by decide) (by decide) (by decide) (by decide)),
    (h c _ (mem_uc main_arg11 (by decide))).trans (R4_of m c main_arg11 (by decide) (by decide) (by decide) (by decide)),
    (h c _ (mem_uc main_arg12 (by decide))).trans (R4_of m c main_arg12 (by decide) (by decide) (by decide) (by decide)),
    (h c _ (mem_uc main_arg13 (by decide))).trans (R4_of m c main_arg13 (by decide) (by decide) (by decide) (by decide))⟩) (run_main m ρ)

/-- THE RESULT: the result array ends at what the last pipeline leaves in it, beside the frame. -/
theorem run_result : θ_run defs (onTc (τ := τ) (main (F := F))) ⟨m, fun _ => 0, ρ⟩ (fun r => ∀ c : Dev nD,
      r.2.mem ((c.tc : Thread nD τ).loc main_v5) = (dat2 (R3 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_v5 (by decide))).trans (U4_self m c), (h c _ (mem_uc main_arg0 (by decide))).trans (R4_of m c main_arg0 (by decide) (by decide) (by decide) (by decide)),
    (h c _ (mem_uc main_arg1 (by decide))).trans (R4_of m c main_arg1 (by decide) (by decide) (by decide) (by decide)),
    (h c _ (mem_uc main_arg2 (by decide))).trans (R4_of m c main_arg2 (by decide) (by decide) (by decide) (by decide)),
    (h c _ (mem_uc main_arg3 (by decide))).trans (R4_of m c main_arg3 (by decide) (by decide) (by decide) (by decide)),
    (h c _ (mem_uc main_arg4 (by decide))).trans (R4_of m c main_arg4 (by decide) (by decide) (by decide) (by decide)),
    (h c _ (mem_uc main_arg5 (by decide))).trans (R4_of m c main_arg5 (by decide) (by decide) (by decide) (by decide)),
    (h c _ (mem_uc main_arg6 (by decide))).trans (R4_of m c main_arg6 (by decide) (by decide) (by decide) (by decide)),
    (h c _ (mem_uc main_arg7 (by decide))).trans (R4_of m c main_arg7 (by decide) (by decide) (by decide) (by decide)),
    (h c _ (mem_uc main_arg8 (by decide))).trans (R4_of m c main_arg8 (by decide) (by decide) (by decide) (by decide)),
    (h c _ (mem_uc main_arg9 (by decide))).trans (R4_of m c main_arg9 (by decide) (by decide) (by decide) (by decide)),
    (h c _ (mem_uc main_arg10 (by decide))).trans (R4_of m c main_arg10 (by decide) (by decide) (by decide) (by decide)),
    (h c _ (mem_uc main_arg11 (by decide))).trans (R4_of m c main_arg11 (by decide) (by decide) (by decide) (by decide)),
    (h c _ (mem_uc main_arg12 (by decide))).trans (R4_of m c main_arg12 (by decide) (by decide) (by decide) (by decide)),
    (h c _ (mem_uc main_arg13 (by decide))).trans (R4_of m c main_arg13 (by decide) (by decide) (by decide) (by decide))⟩) (run_main m ρ)

end Cert.KernelIdeal.Hand

end
-- ==== Proof.Spec.lean ====
/-
  The mathematics of the three stacked graph-convolution layers, stated once over the extended reals and
  importing no program: a node layer, an edge layer, a node layer followed by a row-wise log-softmax.

  A layer takes vertex features, edge features, an incidence-like matrix T (vertices by edges), an adjacency
  mask, a weight matrix, a projection row p and a bias b.  The NODE layer weighs edge e by
  d(e) = Σ_f He(e,f)·p(0,f), forms M(i,j) = Σ_e (T(i,e)·d(e))·T(j,e) off the diagonal and 1 on it, masks it
  entrywise by the adjacency, and returns (M ∘ adj)·(Hv·W) + b.  The EDGE layer is the same with the roles
  of vertices and edges exchanged: d(n) = Σ_h Hv(n,h)·p(0,h), M(i,j) = Σ_n (T(n,i)·d(n))·T(n,j).
-/
import Idealize.ShloMosaic.PureOps.Ideal
import Idealize.ShloMosaic.Lib.ValueIdx

noncomputable section

open scoped BigOperators

namespace Cert.GcnSpec

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Row (a : Nat) : Type := (⟨1, ![a]⟩ : Shape).Idx → EReal

/-- The positive part. -/
def relu (x : EReal) : EReal := max x 0

/-- The weight of row `e` of `H` under the projection row `p`: Σ_f H(e,f)·p(0,f). -/
def weight {n k : Nat} (H : Mat n k) (p : Mat 1 k) (e : Fin n) : EReal :=
  ∑ f : Fin k, H (ix2 e f) * p (ix2 0 f)

/-- The product of two matrices at an entry: Σ_f A(i,f)·B(f,c). -/
def mmul {n k h : Nat} (A : Mat n k) (B : Mat k h) (i : Fin n) (c : Fin h) : EReal :=
  ∑ f : Fin k, A (ix2 i f) * B (ix2 f c)

/-- The node layer's masked mixing matrix at (i,j): 1 on the diagonal, Σ_e (T(i,e)·d(e))·T(j,e) off it, times adj(i,j). -/
def nodeMix {N E : Nat} (T : Mat N E) (d : Fin E → EReal) (adj : Mat N N) (i j : Fin N) : EReal :=
  (if i = j then (1 : EReal) else ∑ e : Fin E, (T (ix2 i e) * d e) * T (ix2 j e)) * adj (ix2 i j)

/-- The edge layer's masked mixing matrix at (i,j): 1 on the diagonal, Σ_n (T(n,i)·d(n))·T(n,j) off it, times adj(i,j). -/
def edgeMix {N E : Nat} (T : Mat N E) (d : Fin N → EReal) (adj : Mat E E) (i j : Fin E) : EReal :=
  (if i = j then (1 : EReal) else ∑ n : Fin N, (T (ix2 n i) * d n) * T (ix2 n j)) * adj (ix2 i j)

/-- A node layer before its activation, at (i,c): Σ_j M(i,j)·(Hv·W)(j,c) + b(c). -/
def nodeLayer {N E kv ke h : Nat} (Hv : Mat N kv) (He : Mat E ke) (adj : Mat N N) (T : Mat N E)
    (W : Mat kv h) (p : Mat 1 ke) (b : Row h) (i : Fin N) (c : Fin h) : EReal :=
  (∑ j : Fin N, nodeMix T (weight He p) adj i j * mmul Hv W j c) + b (ix1 c)

/-- An edge layer before its activation, at (i,c): Σ_j M(i,j)·(He·W)(j,c) + b(c). -/
def edgeLayer {N E kv ke h : Nat} (Hv : Mat N kv) (He : Mat E ke) (adj : Mat E E) (T : Mat N E)
    (W : Mat ke h) (p : Mat 1 kv) (b : Row h) (i : Fin E) (c : Fin h) : EReal :=
  (∑ j : Fin E, edgeMix T (weight Hv p) adj i j * mmul He W j c) + b (ix1 c)

/-- The largest entry of a finite family, from -∞. -/
def rowMax {n : Nat} (x : Fin n → EReal) : EReal := Finset.univ.fold max ⊥ x

/-- The log-softmax of a finite family at `c`: (x c − max x) − log Σ_k exp (x k − max x). -/
def logSoftmax {n : Nat} (x : Fin n → EReal) (c : Fin n) : EReal :=
  (x c - rowMax x) - Ideal.log (∑ k : Fin n, Ideal.exp (x k - rowMax x))

/-- A matrix given entry by entry. -/
def ofFn {a b : Nat} (f : Fin a → Fin b → EReal) : Mat a b := fun j => f (j 0) (j 1)

@[simp] theorem ofFn_ix2 {a b : Nat} (f : Fin a → Fin b → EReal) (i : Fin a) (c : Fin b) : ofFn f (ix2 i c) = f i c := rfl

section Net

variable (X : Mat 1024 128) (Z : Mat 2048 16) (adjE : Mat 2048 2048) (adjV : Mat 1024 1024) (T : Mat 1024 2048)
  (W1 : Mat 128 64) (p1 : Mat 1 16) (b1 : Row 64) (W2 : Mat 16 16) (p2 : Mat 1 64) (b2 : Row 16)
  (W3 : Mat 64 16) (p3 : Mat 1 16) (b3 : Row 16)

/-- The hidden vertex features: the positive part of the first node layer on (X, Z). -/
def hidV : Mat 1024 64 := ofFn fun i c => relu (nodeLayer X Z adjV T W1 p1 b1 i c)

/-- The hidden edge features: the positive part of the edge layer on (hidV, relu Z). -/
def hidE : Mat 2048 16 :=
  ofFn fun i c => relu (edgeLayer (hidV X Z adjV T W1 p1 b1) (fun j => relu (Z j)) adjE T W2 p2 b2 i c)

/-- The network's result: the row-wise log-softmax of the second node layer on (hidV, hidE). -/
def net : Mat 1024 16 :=
  ofFn fun i c => logSoftmax
    (fun k => nodeLayer (hidV X Z adjV T W1 p1 b1) (hidE X Z adjE adjV T W1 p1 b1 W2 p2 b2) adjV T W3 p3 b3 i k) c

end Net

end Cert.GcnSpec

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.KIPayNode.lean ====
/-
  The masked mixing block that both node layers' bodies build from a row block of T, the edge weights, all of T
  and an adjacency block, read at an index: one on the diagonal, the weighted product of rows of T off it, times
  the adjacency entry.
-/
import proofs.«181512_g78709570666604_cont_9to1_m_429_6_alg».proof.Proof.Gen.KernelIdeal.Skeleton
import proofs.«181512_g78709570666604_cont_9to1_m_429_6_alg».proof.Proof.LibMatrixAtIndex

noncomputable section

open scoped BigOperators

namespace Cert.KernelIdeal.Pay

open Idealize.ShloMosaic Idealize.ShloMosaic.ValueIdx Cert.KernelIdeal Cert.KernelIdeal.Gen

/-- The masked mixing block of a node layer at grid position `g`, as the layer body builds it: the weighted
    product of the row block of T with all of T, one on the diagonal, times the adjacency block. -/
def nodeMixBlock (g : Nat) (Tb : FVec Ideal S256x2048 .f32) (d : FVec Ideal S1x2048 .f32)
    (Tf : FVec Ideal S1024x2048 .f32) (adjb : FVec Ideal S256x1024 .f32) : FVec Ideal S256x1024 .f32 :=
  mulf (select (cmpi .eq (addi (broadcast S256x1024 (Scalar.muli (BitVec.ofNat 32 g) 256#32))
        (iota .tc S256x1024 32 [0] iota_S256x1024_d0_w32)) (iota .tc S256x1024 32 [1] iota_S256x1024_d1_w32))
      (broadcast S256x1024 (Scalar.ofBits (F := Ideal) .f32 0x3F800000#32))
      (matmul dot_S256x2048_S1024x2048_S256x1024_1_1_0_0_n_n none
        (mulf Tb (broadcastTo S256x2048 d broadcasts_S1x2048_S256x2048)) Tf
        (constant (F := Ideal) S256x1024 .f32 0x00000000#32))) adjb

/-- The block at `(r, j)`: one where row `g·256 + r` is column `j`, else `Σ_e (T(r,e)·d(e))·T(j,e)`; times adj(r,j). -/
theorem nodeMixBlock_apply (g : Nat) (hg : g < 4) (Tb : FVec Ideal S256x2048 .f32) (d : FVec Ideal S1x2048 .f32)
    (Tf : FVec Ideal S1024x2048 .f32) (adjb : FVec Ideal S256x1024 .f32) (r : Fin 256) (j : Fin 1024) :
    nodeMixBlock g Tb d Tf adjb (ix2 r j)
      = (if g * 256 + r.val = j.val then (1 : EReal)
          else ∑ e : Fin 2048, (Tb (ix2 r e) * d (ix2 0 e)) * Tf (ix2 j e)) * adjb (ix2 r j) := by
  unfold nodeMixBlock
  rw [mulf_apply, select_diag_apply g _ _ _ r j (by have := r.isLt; omega) (by have := j.isLt; omega),
    matmul_rowrow_apply dot_S256x2048_S1024x2048_S256x1024_1_1_0_0_n_n rfl rfl rfl rfl rfl rfl rfl rfl none _ Tf r j]
  refine congrArg (fun x => (if g * 256 + r.val = j.val then (1 : EReal) else x) * adjb (ix2 r j))
    (Finset.sum_congr rfl fun e _ => ?_)
  rw [mulf_apply, broadcastTo_1b_ab_apply]

end Cert.KernelIdeal.Pay

end
-- ==== Proof.KIPay0.lean ====
/-
  The first node layer: the value each store of its body writes, read at one index, as the specification's
  weight, matrix product and positive part of the mixed and biased features.
-/
import proofs.«181512_g78709570666604_cont_9to1_m_429_6_alg».proof.Proof.Spec
import proofs.«181512_g78709570666604_cont_9to1_m_429_6_alg».proof.Proof.Gen.KernelIdeal.Skeleton
import proofs.«181512_g78709570666604_cont_9to1_m_429_6_alg».proof.Proof.LibMatrixAtIndex
import proofs.«181512_g78709570666604_cont_9to1_m_429_6_alg».proof.Proof.KIPayNode

noncomputable section

open scoped BigOperators

namespace Cert.KernelIdeal.Pay

open Idealize.ShloMosaic Idealize.ShloMosaic.ValueIdx Cert.KernelIdeal Cert.KernelIdeal.Gen

/-! ## The first node layer's three stored values at an index -/

/-- The edge weights: at `(0, e)` the weight of row `e` of the edge features under the projection row. -/
theorem k0_pay1_apply (He : FVec Ideal S2048x16 .f32) (p : FVec Ideal S1x16 .f32) (e : Fin 2048) :
    k0_pay1 (F := Ideal) He p (ix2 0 e) = Cert.GcnSpec.weight He p e := by
  unfold k0_pay1 Cert.GcnSpec.weight
  rw [shapeCast_self]
  refine (shapeCast_a_1a_apply _ _ 0 e).trans ?_
  refine (rowSum_apply _ _ _ _ _ e).trans (Finset.sum_congr rfl fun f _ => ?_)
  rw [mulf_apply, broadcastTo_1b_ab_apply]

/-- The transformed vertex features: at `(i, c)` the product of the features with the weight matrix. -/
theorem k0_pay2_apply (Hv : FVec Ideal S1024x128 .f32) (W : FVec Ideal S128x64 .f32) (i : Fin 1024) (c : Fin 64) :
    k0_pay2 (F := Ideal) Hv W (ix2 i c) = Cert.GcnSpec.mmul Hv W i c := by
  unfold k0_pay2 Cert.GcnSpec.mmul
  rw [shapeCast_self]
  exact matmul_rowcol_apply dot_S1024x128_S128x64_S1024x64_1_0_0_1_n_n rfl rfl rfl rfl rfl rfl rfl rfl none Hv W i c

/-- The layer body's stored block as operations on the masked mixing block. -/
theorem k0_pay3_eq (i : grid0.Coords) (Tb : FVec Ideal S256x2048 .f32) (d : FVec Ideal S1x2048 .f32)
    (Tf : FVec Ideal S1024x2048 .f32) (adjb : FVec Ideal S256x1024 .f32) (HW : FVec Ideal S1024x64 .f32)
    (b : FVec Ideal S1x64 .f32) :
    k0_pay3 (F := Ideal) i Tb d Tf adjb HW b
      = maximumf (addf (matmul dot_S256x1024_S1024x64_S256x64_1_0_0_1_n_n none (nodeMixBlock (i 0).val Tb d Tf adjb) HW
            (constant (F := Ideal) S256x64 .f32 0x00000000#32))
          (broadcastTo S256x64 (shapeCast S1x64 b shapeCasts_S1x64_S1x64) broadcasts_S1x64_S256x64))
        (broadcast S256x64 (Scalar.ofBits (F := Ideal) .f32 0x00000000#32)) := rfl

/-- The layer's output block at row `r` of the block at grid position `g`, column `c`: the positive part of
    `Σ_j M(g·256 + r, j)·(Hv·W)(j,c) + b(c)`, with `M` the masked mixing matrix. -/
theorem k0_pay3_apply (i : grid0.Coords) (Tb : FVec Ideal S256x2048 .f32) (d : FVec Ideal S1x2048 .f32)
    (Tf : FVec Ideal S1024x2048 .f32) (adjb : FVec Ideal S256x1024 .f32) (HW : FVec Ideal S1024x64 .f32)
    (b : FVec Ideal S1x64 .f32) (r : Fin 256) (c : Fin 64) :
    k0_pay3 (F := Ideal) i Tb d Tf adjb HW b (ix2 r c)
      = Cert.GcnSpec.relu ((∑ j : Fin 1024, ((if (i 0).val * 256 + r.val = j.val then (1 : EReal)
            else ∑ e : Fin 2048, (Tb (ix2 r e) * d (ix2 0 e)) * Tf (ix2 j e)) * adjb (ix2 r j)) * HW (ix2 j c))
          + b (ix2 0 c)) := by
  have hg : (i 0).val < 4 := (i 0).isLt
  rw [k0_pay3_eq]
  unfold Cert.GcnSpec.relu
  rw [maximumf_apply, addf_apply, broadcast_apply,
    matmul_rowcol_apply dot_S256x1024_S1024x64_S256x64_1_0_0_1_n_n rfl rfl rfl rfl rfl rfl rfl rfl none _ HW r c,
    broadcastTo_1b_ab_apply, shapeCast_self]
  show max _ (Ideal.ofBits .f32 0x00000000#32) = _
  rw [Ideal.ofBits_zero_f32]
  refine congrArg (fun s => max (s + b (ix2 0 c)) 0) (Finset.sum_congr rfl fun j _ => ?_)
  rw [nodeMixBlock_apply _ hg]

end Cert.KernelIdeal.Pay

end
-- ==== Proof.KIValue0.lean ====
/-
  The first node layer's result array after its region: every grid point writes back the block of rows it
  computed, each block is the specification's layer at those rows, and the blocks tile the array.
-/
import proofs.«181512_g78709570666604_cont_9to1_m_429_6_alg».proof.Proof.KIRegion0
import proofs.«181512_g78709570666604_cont_9to1_m_429_6_alg».proof.Proof.KIPay0
import proofs.«181512_g78709570666604_cont_9to1_m_429_6_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

theorem hzero0 : (![0, 0] : Fin 2 → Nat) = fun _ => 0 := funext fun a => by fin_cases a <;> rfl

/-- At the first point the first scratch buffer is left holding the edge weights of the loaded blocks. -/
theorem canonA0_s0 (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : cond0 i) (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5 x6 x7).2.1 = k0_pay1 x4 x6 := by
  unfold kernelRun0_A
  dsimp only
  sl_unfold_words
  rw [View.canon_unit_zero hzero0]
  simp only [View.readAt_eq_ld, harg5.read_unread, harg7.read_unread, View.ld_unit_zero (S := S2048x16) hzero0,
    View.ld_unit_zero (S := S1x16) hzero0]

/-- At the first point the second scratch buffer is left holding the transformed vertex features of the loaded blocks. -/
theorem canonA0_s1 (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : cond0 i) (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5 x6 x7).2.2.1 = k0_pay2 x3 x5 := by
  unfold kernelRun0_A
  dsimp only
  sl_unfold_words
  rw [View.canon_unit_zero hzero0]
  simp only [View.readAt_eq_ld, harg4.read_unread, harg6.read_unread, View.ld_unit_zero (S := S1024x128) hzero0,
    View.ld_unit_zero (S := S128x64) hzero0]

/-- At the first point the output buffer is left holding the layer's block computed from the loaded blocks and from
    what the same point has just stored into the two scratch buffers. -/
theorem canonA0_out (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : cond0 i) (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5 x6 x7).1
      = k0_pay3 i x0 (k0_pay1 x4 x6) x1 x2 (k0_pay2 x3 x5) x7 := by
  unfold kernelRun0_A
  dsimp only
  sl_unfold_words
  rw [View.canon_unit_zero hzero0, View.readCov_unit_zero (S := S1x2048) _ hzero0, View.readCov_unit_zero (S := S1024x64) _ hzero0]
  simp only [View.readAt_eq_ld, harg1.read_unread, harg2.read_unread, harg3.read_unread, harg4.read_unread,
    harg5.read_unread, harg6.read_unread, harg7.read_unread, harg8.read_unread,
    View.ld_unit_zero (S := S256x2048) hzero0, View.ld_unit_zero (S := S1024x2048) hzero0, View.ld_unit_zero (S := S256x1024) hzero0,
    View.ld_unit_zero (S := S1024x128) hzero0, View.ld_unit_zero (S := S2048x16) hzero0, View.ld_unit_zero (S := S128x64) hzero0,
    View.ld_unit_zero (S := S1x16) hzero0, View.ld_unit_zero (S := S1x64) hzero0]

/-- At a later point the output buffer is left holding the layer's block computed from the loaded blocks and from
    what the two scratch buffers hold. -/
theorem canonB0_out (c : Dev nD) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x128 .f32) (harg4 : arg4.IsWhole) (arg5 : Memref sig .tc .vmem S2048x16 .f32) (harg5 : arg5.IsWhole) (arg6 : Memref sig .tc .vmem S128x64 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x2048 .f32) (harg10 : arg10.IsWhole) (arg11 : Memref sig .tc .vmem S1024x64 .f32) (harg11 : arg11.IsWhole) (hc : ¬cond0 i) (x0 : Vec F S256x2048 .f32) (x1 : Vec F S1024x2048 .f32) (x2 : Vec F S256x1024 .f32) (x3 : Vec F S1024x128 .f32) (x4 : Vec F S2048x16 .f32) (x5 : Vec F S128x64 .f32) (x6 : Vec F S1x16 .f32) (x7 : Vec F S1x64 .f32) (xs0 : Vec F S1x2048 .f32) (xs1 : Vec F S1024x64 .f32) :
    View.canon (kernelRun0_B (F := F) c i arg1 harg1 arg2 harg2 arg3 harg3 arg4 harg4 arg5 harg5 arg6 harg6 arg7 harg7 arg8 harg8 arg9 harg9 arg10 harg10 arg11 harg11 hc x0 x1 x2 x3 x4 x5 x6 x7 xs0 xs1).1
      = k0_pay3 i x0 xs0 x1 x2 xs1 x7 := by
  unfold kernelRun0_B
  dsimp only
  sl_unfold_words
  rw [View.canon_unit_zero hzero0]
  simp only [View.readAt_eq_ld, harg1.read_unread, harg2.read_unread, harg3.read_unread, harg8.read_unread,
    harg10.read_unread, harg11.read_unread,
    View.ld_unit_zero (S := S256x2048) hzero0, View.ld_unit_zero (S := S1024x2048) hzero0, View.ld_unit_zero (S := S256x1024) hzero0,
    View.ld_unit_zero (S := S1x64) hzero0, View.ld_unit_zero (S := S1x2048) hzero0, View.ld_unit_zero (S := S1024x64) hzero0]

section Pieces
variable (V : (c : Dev nD) → (b : Ref sig .tc) → Buf (Elt F) ((c : Thread nD τ).loc b))

/-- What the first point leaves in the first scratch buffer: the edge weights, of the whole edge features and
    projection row. -/
theorem scr0_0_eq (c : Dev nD) : scr0_0 V c = k0_pay1 (iblk0 V c 4 t0_0) (iblk0 V c 6 t0_0) := by
  unfold scr0_0
  rw [View.read_writes_eq_canon _ _ _ (coverA0_s0 V c)]
  unfold runA0
  exact canonA0_s0 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) ((hcond0 t0_0).mpr rfl) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)

/-- What the first point leaves in the second scratch buffer: the transformed vertex features. -/
theorem scr0_1_eq (c : Dev nD) : scr0_1 V c = k0_pay2 (iblk0 V c 3 t0_0) (iblk0 V c 5 t0_0) := by
  unfold scr0_1
  rw [View.read_writes_eq_canon _ _ _ (coverA0_s1 V c)]
  unfold runA0
  exact canonA0_s1 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) ((hcond0 t0_0).mpr rfl) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)

/-- What the output's staging buffer holds after point `t`, first or later: the layer's block of that point's
    blocks and of the two scratch buffers as the first point left them. -/
theorem outAt0_eq (c : Dev nD) (t : Fin cfg0.N) :
    outAt0 V c t = k0_pay3 (grid0.coords t) (iblk0 V c 0 t) (scr0_0 V c) (iblk0 V c 1 t) (iblk0 V c 2 t) (scr0_1 V c)
      (iblk0 V c 7 t) := by
  unfold outAt0
  by_cases h : t.val = 0
  · rw [dif_pos h]
    obtain rfl : t = t0_0 := Fin.ext h
    rw [View.read_writes_eq_canon _ _ _ (coverA0_out V c), scr0_0_eq, scr0_1_eq]
    unfold runA0
    exact canonA0_out c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) ((hcond0 t0_0).mpr rfl) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)
  · rw [dif_neg h, View.read_writes_eq_canon _ _ _ (coverB0_out V c t h)]
    unfold runB0
    exact canonB0_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (scr0_0 V c) (scr0_1 V c)

end Pieces

section Value
variable (V : (c : Dev nD) → (b : Ref sig .tc) → Buf (Elt Ideal) ((c : Thread nD τ).loc b))

/-- The printed index maps, decided over the grid: the grid coordinate is the point's number; windows 0, 2 and 8
    are at block row `t`, every other window at block (0, 0). -/
theorem idx_facts0 : ∀ t : Fin cfg0.N, (grid0.coords t 0).val = t.val
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0 :=
  (by decide +kernel : ∀ t : Fin grid0.N, _)

/-- Window 0's block at point `t` is the rows `t·256 …` of its array. -/
theorem iblk0_0_apply (c : Dev nD) (t : Fin cfg0.N) (r : Fin 256) (e : Fin 2048) :
    iblk0 V c 0 t (ix2 r e)
      = (V c main_arg4 : Cert.GcnSpec.Mat 1024 2048) (ix2 ⟨t.val * 256 + r.val, by have := t.isLt; have hN : cfg0.N = 4 := N_0; have := r.isLt; omega⟩ e) := by
  obtain ⟨hco, h00, h01, h10, h11, h20, h21, h30, h31, h40, h41, h50, h51, h60, h61, h70, h71, h80, h81⟩ := idx_facts0 t
  unfold iblk0
  rw [View.read_apply]
  refine congrArg (V c main_arg4) (funext fun a => Fin.ext ?_)
  match a with
  | ⟨0, _⟩ => show win0_0.index t (0 : Fin 2) * 256 + 1 * r.val = t.val * 256 + r.val; rw [h00]; omega
  | ⟨1, _⟩ => show win0_0.index t (1 : Fin 2) * 2048 + 1 * e.val = e.val; rw [h01]; omega

/-- Window 1's block at every point is its whole array. -/
theorem iblk0_1_apply (c : Dev nD) (t : Fin cfg0.N) (r : Fin 1024) (e : Fin 2048) :
    iblk0 V c 1 t (ix2 r e) = (V c main_arg4 : Cert.GcnSpec.Mat 1024 2048) (ix2 r e) := by
  obtain ⟨hco, h00, h01, h10, h11, h20, h21, h30, h31, h40, h41, h50, h51, h60, h61, h70, h71, h80, h81⟩ := idx_facts0 t
  unfold iblk0
  rw [View.read_apply]
  refine congrArg (V c main_arg4) (funext fun a => Fin.ext ?_)
  match a with
  | ⟨0, _⟩ => show win0_1.index t (0 : Fin 2) * 1024 + 1 * r.val = r.val; rw [h10]; omega
  | ⟨1, _⟩ => show win0_1.index t (1 : Fin 2) * 2048 + 1 * e.val = e.val; rw [h11]; omega

/-- Window 2's block at point `t` is the rows `t·256 …` of its array. -/
theorem iblk0_2_apply (c : Dev nD) (t : Fin cfg0.N) (r : Fin 256) (e : Fin 1024) :
    iblk0 V c 2 t (ix2 r e)
      = (V c main_arg3 : Cert.GcnSpec.Mat 1024 1024) (ix2 ⟨t.val * 256 + r.val, by have := t.isLt; have hN : cfg0.N = 4 := N_0; have := r.isLt; omega⟩ e) := by
  obtain ⟨hco, h00, h01, h10, h11, h20, h21, h30, h31, h40, h41, h50, h51, h60, h61, h70, h71, h80, h81⟩ := idx_facts0 t
  unfold iblk0
  rw [View.read_apply]
  refine congrArg (V c main_arg3) (funext fun a => Fin.ext ?_)
  match a with
  | ⟨0, _⟩ => show win0_2.index t (0 : Fin 2) * 256 + 1 * r.val = t.val * 256 + r.val; rw [h20]; omega
  | ⟨1, _⟩ => show win0_2.index t (1 : Fin 2) * 1024 + 1 * e.val = e.val; rw [h21]; omega

/-- Window 3's block at every point is its whole array. -/
theorem iblk0_3_apply (c : Dev nD) (t : Fin cfg0.N) (r : Fin 1024) (e : Fin 128) :
    iblk0 V c 3 t (ix2 r e) = (V c main_arg0 : Cert.GcnSpec.Mat 1024 128) (ix2 r e) := by
  obtain ⟨hco, h00, h01, h10, h11, h20, h21, h30, h31, h40, h41, h50, h51, h60, h61, h70, h71, h80, h81⟩ := idx_facts0 t
  unfold iblk0
  rw [View.read_apply]
  refine congrArg (V c main_arg0) (funext fun a => Fin.ext ?_)
  match a with
  | ⟨0, _⟩ => show win0_3.index t (0 : Fin 2) * 1024 + 1 * r.val = r.val; rw [h30]; omega
  | ⟨1, _⟩ => show win0_3.index t (1 : Fin 2) * 128 + 1 * e.val = e.val; rw [h31]; omega

/-- Window 4's block at every point is its whole array. -/
theorem iblk0_4_apply (c : Dev nD) (t : Fin cfg0.N) (r : Fin 2048) (e : Fin 16) :
    iblk0 V c 4 t (ix2 r e) = (V c main_arg1 : Cert.GcnSpec.Mat 2048 16) (ix2 r e) := by
  obtain ⟨hco, h00, h01, h10, h11, h20, h21, h30, h31, h40, h41, h50, h51, h60, h61, h70, h71, h80, h81⟩ := idx_facts0 t
  unfold iblk0
  rw [View.read_apply]
  refine congrArg (V c main_arg1) (funext fun a => Fin.ext ?_)
  match a with
  | ⟨0, _⟩ => show win0_4.index t (0 : Fin 2) * 2048 + 1 * r.val = r.val; rw [h40]; omega
  | ⟨1, _⟩ => show win0_4.index t (1 : Fin 2) * 16 + 1 * e.val = e.val; rw [h41]; omega

/-- Window 5's block at every point is its whole array. -/
theorem iblk0_5_apply (c : Dev nD) (t : Fin cfg0.N) (r : Fin 128) (e : Fin 64) :
    iblk0 V c 5 t (ix2 r e) = (V c main_arg5 : Cert.GcnSpec.Mat 128 64) (ix2 r e) := by
  obtain ⟨hco, h00, h01, h10, h11, h20, h21, h30, h31, h40, h41, h50, h51, h60, h61, h70, h71, h80, h81⟩ := idx_facts0 t
  unfold iblk0
  rw [View.read_apply]
  refine congrArg (V c main_arg5) (funext fun a => Fin.ext ?_)
  match a with
  | ⟨0, _⟩ => show win0_5.index t (0 : Fin 2) * 128 + 1 * r.val = r.val; rw [h50]; omega
  | ⟨1, _⟩ => show win0_5.index t (1 : Fin 2) * 64 + 1 * e.val = e.val; rw [h51]; omega

/-- Window 6's block at every point is its whole array. -/
theorem iblk0_6_apply (c : Dev nD) (t : Fin cfg0.N) (r : Fin 1) (e : Fin 16) :
    iblk0 V c 6 t (ix2 r e) = (V c main_arg6 : Cert.GcnSpec.Mat 1 16) (ix2 r e) := by
  obtain ⟨hco, h00, h01, h10, h11, h20, h21, h30, h31, h40, h41, h50, h51, h60, h61, h70, h71, h80, h81⟩ := idx_facts0 t
  unfold iblk0
  rw [View.read_apply]
  refine congrArg (V c main_arg6) (funext fun a => Fin.ext ?_)
  match a with
  | ⟨0, _⟩ => show win0_6.index t (0 : Fin 2) * 1 + 1 * r.val = r.val; rw [h60]; omega
  | ⟨1, _⟩ => show win0_6.index t (1 : Fin 2) * 16 + 1 * e.val = e.val; rw [h61]; omega

/-- Window 7's block at every point is its whole array. -/
theorem iblk0_7_apply (c : Dev nD) (t : Fin cfg0.N) (r : Fin 1) (e : Fin 64) :
    iblk0 V c 7 t (ix2 r e) = (V c main_v0 : Cert.GcnSpec.Mat 1 64) (ix2 r e) := by
  obtain ⟨hco, h00, h01, h10, h11, h20, h21, h30, h31, h40, h41, h50, h51, h60, h61, h70, h71, h80, h81⟩ := idx_facts0 t
  unfold iblk0
  rw [View.read_apply]
  refine congrArg (V c main_v0) (funext fun a => Fin.ext ?_)
  match a with
  | ⟨0, _⟩ => show win0_7.index t (0 : Fin 2) * 1 + 1 * r.val = r.val; rw [h70]; omega
  | ⟨1, _⟩ => show win0_7.index t (1 : Fin 2) * 64 + 1 * e.val = e.val; rw [h71]; omega

/-- The first scratch buffer, as the first point left it, holds at `(0, e)` the weight of edge `e`. -/
theorem scr0_0_apply (c : Dev nD) (e : Fin 2048) :
    scr0_0 V c (ix2 0 e) = Cert.GcnSpec.weight (V c main_arg1 : Cert.GcnSpec.Mat 2048 16) (V c main_arg6 : Cert.GcnSpec.Mat 1 16) e := by
  rw [scr0_0_eq]
  refine (Pay.k0_pay1_apply (iblk0 V c 4 t0_0) (iblk0 V c 6 t0_0) e).trans ?_
  unfold Cert.GcnSpec.weight
  refine Finset.sum_congr rfl fun f _ => ?_
  rw [iblk0_4_apply V c t0_0 e f, iblk0_6_apply V c t0_0 0 f]

/-- The second scratch buffer, as the first point left it, holds at `(j, k)` the transformed features of vertex `j`. -/
theorem scr0_1_apply (c : Dev nD) (j : Fin 1024) (k : Fin 64) :
    scr0_1 V c (ix2 j k) = Cert.GcnSpec.mmul (V c main_arg0 : Cert.GcnSpec.Mat 1024 128) (V c main_arg5 : Cert.GcnSpec.Mat 128 64) j k := by
  rw [scr0_1_eq]
  refine (Pay.k0_pay2_apply (iblk0 V c 3 t0_0) (iblk0 V c 5 t0_0) j k).trans ?_
  unfold Cert.GcnSpec.mmul
  refine Finset.sum_congr rfl fun f _ => ?_
  rw [iblk0_3_apply V c t0_0 j f, iblk0_5_apply V c t0_0 f k]

/-- The layer's result as one function of the arrays the region finds: the positive part of the node layer on the
    vertex features, edge features, adjacency, T, weight matrix, projection row and bias. -/
def G0 (c : Dev nD) : Cert.GcnSpec.Mat 1024 64 :=
  Cert.GcnSpec.ofFn fun i k => Cert.GcnSpec.relu (Cert.GcnSpec.nodeLayer (V c main_arg0 : Cert.GcnSpec.Mat 1024 128)
    (V c main_arg1 : Cert.GcnSpec.Mat 2048 16) (V c main_arg3 : Cert.GcnSpec.Mat 1024 1024) (V c main_arg4 : Cert.GcnSpec.Mat 1024 2048)
    (V c main_arg5 : Cert.GcnSpec.Mat 128 64) (V c main_arg6 : Cert.GcnSpec.Mat 1 16) (fun j => (V c main_v0 : Cert.GcnSpec.Mat 1 64) (ix2 0 (j 0))) i k)

/-- What point `t` writes back is block `t` of that function: row `r` of the block is row `t·256 + r` of the
    layer, whose mixing row is the block's — the diagonal test compares the same two numbers. -/
theorem flushed0_eq (c : Dev nD) (t : Fin cfg0.N) :
    (dat0 V c).flushed 8 t = ((cfg0.win 8).blk t).view.read (Elt Ideal) (G0 V c) := by
  obtain ⟨hco, h00, h01, h10, h11, h20, h21, h30, h31, h40, h41, h50, h51, h60, h61, h70, h71, h80, h81⟩ := idx_facts0 t
  show (cfg0.win 8).cut (grid0.coords t) ((dat0 V c).after 8 t) = _
  rw [after0_8, outAt0_eq]
  funext y
  obtain ⟨r, k, rfl⟩ : ∃ (r : Fin 256) (k : Fin 64), y = ix2 r k := ⟨y 0, y 1, eq_ix2 y⟩
  rw [View.read_apply]
  have hrow : t.val * 256 + r.val < 1024 := by have := t.isLt; have hN : cfg0.N = 4 := N_0; have := r.isLt; omega
  have hemb : ((cfg0.win 8).blk t).view.emb (ix2 r k) = ix2 (⟨t.val * 256 + r.val, hrow⟩ : Fin 1024) k :=
    funext fun a => Fin.ext (by
      match a with
      | ⟨0, _⟩ => show win0_8.index t (0 : Fin 2) * 256 + 1 * r.val = t.val * 256 + r.val; rw [h80]; omega
      | ⟨1, _⟩ => show win0_8.index t (1 : Fin 2) * 64 + 1 * k.val = k.val; rw [h81]; omega)
  rw [hemb]
  refine (Pay.k0_pay3_apply (grid0.coords t) (iblk0 V c 0 t) (scr0_0 V c) (iblk0 V c 1 t) (iblk0 V c 2 t) (scr0_1 V c)
    (iblk0 V c 7 t) r k).trans ?_
  unfold G0 Cert.GcnSpec.nodeLayer Cert.GcnSpec.nodeMix
  rw [Cert.GcnSpec.ofFn_ix2]
  refine congrArg Cert.GcnSpec.relu (congrArg₂ (· + ·) (Finset.sum_congr rfl fun j _ => ?_) ?_)
  · rw [iblk0_2_apply V c t r j, scr0_1_apply V c j k, hco]
    refine congrArg₂ (· * ·) (congrArg₂ (· * ·) ?_ rfl) rfl
    refine if_congr ⟨fun h => Fin.ext h, fun h => congrArg Fin.val h⟩ rfl (Finset.sum_congr rfl fun e _ => ?_)
    rw [iblk0_0_apply V c t r e, scr0_0_apply V c e, iblk0_1_apply V c t j e]
  · rw [iblk0_7_apply V c t 0 k]

/-- An index of the result array is in point `t`'s block iff each coordinate is in the block's range on its axis. -/
theorem mem_blk0 (t : Fin cfg0.N) (i : S1024x64.Idx) :
    i ∈ ((cfg0.win 8).blk t).view.set ↔ ∀ a : Fin 2, win0_8.index t a * S256x64.size a ≤ (i a).val
      ∧ (i a).val < win0_8.index t a * S256x64.size a + S256x64.size a := by
  show i ∈ ((View.whole main_v3).slice (win0_8.rect t)).set ↔ _
  rw [View.set_slice_whole, Rect.mem_set_unit]
  exact Iff.rfl

/-- Every row of the result array is in some point's block: row `i` in that of point `i / 256`. -/
theorem cover0 (i : S1024x64.Idx) : ∃ t : Fin cfg0.N, (cfg0.win 8).flush t = true ∧ i ∈ ((cfg0.win 8).blk t).view.set := by
  have hN : cfg0.N = 4 := N_0
  have hi0 : (i 0).val < 1024 := (i 0).isLt
  have hi1 : (i 1).val < 64 := (i 1).isLt
  obtain ⟨t, ht⟩ : ∃ t : Fin cfg0.N, t.val = (i 0).val / 256 := ⟨⟨(i 0).val / 256, by rw [hN]; omega⟩, rfl⟩
  obtain ⟨hco, h00, h01, h10, h11, h20, h21, h30, h31, h40, h41, h50, h51, h60, h61, h70, h71, h80, h81⟩ := idx_facts0 t
  refine ⟨t, flush0_8 t, ?_⟩
  rw [mem_blk0]
  intro a
  match a with
  | ⟨0, _⟩ =>
    show win0_8.index t (0 : Fin 2) * 256 ≤ (i 0).val ∧ (i 0).val < win0_8.index t (0 : Fin 2) * 256 + 256
    rw [h80, ht]; omega
  | ⟨1, _⟩ =>
    show win0_8.index t (1 : Fin 2) * 64 ≤ (i 1).val ∧ (i 1).val < win0_8.index t (1 : Fin 2) * 64 + 64
    rw [h81]; omega

/-- The result array after the region: the positive part of the first node layer, entry by entry. -/
theorem final0 (c : Dev nD) :
    (dat0 V c).arrAt 8 cfg0.N = Cert.GcnSpec.ofFn fun i k => Cert.GcnSpec.relu (Cert.GcnSpec.nodeLayer
      (V c main_arg0 : Cert.GcnSpec.Mat 1024 128) (V c main_arg1 : Cert.GcnSpec.Mat 2048 16) (V c main_arg3 : Cert.GcnSpec.Mat 1024 1024)
      (V c main_arg4 : Cert.GcnSpec.Mat 1024 2048) (V c main_arg5 : Cert.GcnSpec.Mat 128 64) (V c main_arg6 : Cert.GcnSpec.Mat 1 16)
      (fun j => (V c main_v0 : Cert.GcnSpec.Mat 1 64) (ix2 0 (j 0))) i k) :=
  (dat0 V c).arrAt_eq_of_cover 8 (G0 V c) (fun t _ => flushed0_eq V c t) cover0

end Value

end Cert.KernelIdeal.Hand

end
-- ==== Proof.KIPieces1.lean ====
/-
  What the stores of kernel 1's body leave, as values: at the first grid point the two scratch buffers hold
  the vertex weights and the transformed edge features (each the one value stored over the whole buffer), and
  the output block is the layer's value of the input blocks and of those two; at a later point the output
  block is the same value of the input blocks and of the scratch buffers as the first point left them.
-/
import proofs.«181512_g78709570666604_cont_9to1_m_429_6_alg».proof.Proof.KIBody1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer store or load, however spelt. -/
theorem hz1 : (![0, 0] : Fin 2 → Nat) = fun _ => 0 := funext fun a => by fin_cases a <;> rfl

set_option maxHeartbeats 1000000 in
/-- First point: the first scratch buffer is left at the vertex weights. -/
theorem canonA1_s0 (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) :
    View.canon (kernelRun1_A (F := F) c i arg1 harg1 arg2 harg2 arg3 harg3 arg4 harg4 arg5 harg5 arg6 harg6 arg7 harg7 arg8 harg8 arg9 harg9 arg10 harg10 arg11 harg11 hc x0 x1 x2 x3 x4 x5 x6 x7).2.1 = k1_pay1 x3 x6 := by
  unfold kernelRun1_A; dsimp only; sl_unfold_words
  rw [View.canon_unit_zero hz1]
  simp only [View.readAt_eq_ld, harg4.read_unread, harg7.read_unread, View.ld_unit_zero (S := S1024x64) hz1, View.ld_unit_zero (S := S1x64) hz1]

set_option maxHeartbeats 1000000 in
/-- First point: the second scratch buffer is left at the transformed edge features. -/
theorem canonA1_s1 (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) :
    View.canon (kernelRun1_A (F := F) c i arg1 harg1 arg2 harg2 arg3 harg3 arg4 harg4 arg5 harg5 arg6 harg6 arg7 harg7 arg8 harg8 arg9 harg9 arg10 harg10 arg11 harg11 hc x0 x1 x2 x3 x4 x5 x6 x7).2.2.1 = k1_pay2 x4 x5 := by
  unfold kernelRun1_A; dsimp only; sl_unfold_words
  rw [View.canon_unit_zero hz1]
  simp only [View.readAt_eq_ld, harg5.read_unread, harg6.read_unread, View.ld_unit_zero (S := S2048x16) hz1, View.ld_unit_zero (S := S16x16) hz1]

set_option maxHeartbeats 1000000 in
/-- First point: the output block, the two scratch buffers read back as just stored. -/
theorem canonA1_out (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) :
    View.canon (kernelRun1_A (F := F) c i arg1 harg1 arg2 harg2 arg3 harg3 arg4 harg4 arg5 harg5 arg6 harg6 arg7 harg7 arg8 harg8 arg9 harg9 arg10 harg10 arg11 harg11 hc x0 x1 x2 x3 x4 x5 x6 x7).1 = k1_pay3 i x0 (k1_pay1 x3 x6) x1 x2 (k1_pay2 x4 x5) x7 := by
  unfold kernelRun1_A; dsimp only; sl_unfold_words
  rw [View.canon_unit_zero hz1, View.readCov_unit_zero (S := S1024x1) _ hz1, View.readCov_unit_zero (S := S2048x16) _ hz1]
  simp only [View.readAt_eq_ld, harg1.read_unread, harg2.read_unread, harg3.read_unread, harg4.read_unread,
    harg5.read_unread, harg6.read_unread, harg7.read_unread, harg8.read_unread,
    View.ld_unit_zero (S := S1024x256) hz1, View.ld_unit_zero (S := S1024x2048) hz1, View.ld_unit_zero (S := S256x2048) hz1, View.ld_unit_zero (S := S1x16) hz1,
    View.ld_unit_zero (S := S1024x64) hz1, View.ld_unit_zero (S := S1x64) hz1, View.ld_unit_zero (S := S2048x16) hz1, View.ld_unit_zero (S := S16x16) hz1]

set_option maxHeartbeats 1000000 in
/-- A later point: the output block, the two scratch buffers as they are handed over. -/
theorem canonB1_out (c : Dev nD) (i : grid1.Coords) (arg1 : Memref sig .tc .vmem S1024x256 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1024x1 .f32) (harg10 : arg10.IsWhole) (arg11 : Memref sig .tc .vmem S2048x16 .f32) (harg11 : arg11.IsWhole) (hc : ¬cond1 i)
    (x0 : Vec F S1024x256 .f32) (x1 : Vec F S1024x2048 .f32) (x2 : Vec F S256x2048 .f32) (x3 : Vec F S1024x64 .f32) (x4 : Vec F S2048x16 .f32) (x5 : Vec F S16x16 .f32) (x6 : Vec F S1x64 .f32) (x7 : Vec F S1x16 .f32) (xs0 : Vec F S1024x1 .f32) (xs1 : Vec F S2048x16 .f32) :
    View.canon (kernelRun1_B (F := F) c i arg1 harg1 arg2 harg2 arg3 harg3 arg4 harg4 arg5 harg5 arg6 harg6 arg7 harg7 arg8 harg8 arg9 harg9 arg10 harg10 arg11 harg11 hc x0 x1 x2 x3 x4 x5 x6 x7 xs0 xs1).1 = k1_pay3 i x0 xs0 x1 x2 xs1 x7 := by
  unfold kernelRun1_B; dsimp only; sl_unfold_words
  rw [View.canon_unit_zero hz1]
  simp only [View.readAt_eq_ld, harg1.read_unread, harg2.read_unread, harg3.read_unread, harg8.read_unread,
    harg10.read_unread, harg11.read_unread,
    View.ld_unit_zero (S := S1024x256) hz1, View.ld_unit_zero (S := S1024x2048) hz1, View.ld_unit_zero (S := S256x2048) hz1, View.ld_unit_zero (S := S1x16) hz1,
    View.ld_unit_zero (S := S1024x1) hz1, View.ld_unit_zero (S := S2048x16) hz1]

end Cert.KernelIdeal.Hand

end
-- ==== Proof.KIPay1.lean ====
/-
  The edge layer: the value each store of its body writes, read at one index, as the specification's weight,
  matrix product of the positive part, and positive part of the mixed and biased features.
-/
import proofs.«181512_g78709570666604_cont_9to1_m_429_6_alg».proof.Proof.Spec
import proofs.«181512_g78709570666604_cont_9to1_m_429_6_alg».proof.Proof.Gen.KernelIdeal.Skeleton
import proofs.«181512_g78709570666604_cont_9to1_m_429_6_alg».proof.Proof.LibMatrixAtIndex

noncomputable section

open scoped BigOperators

namespace Cert.KernelIdeal.Pay

open Idealize.ShloMosaic Idealize.ShloMosaic.ValueIdx Cert.KernelIdeal Cert.KernelIdeal.Gen

/-! ## The edge layer's three stored values at an index -/

/-- The vertex weights: at `(n, 0)` the weight of row `n` of the vertex features under the projection row. -/
theorem k1_pay1_apply (Hv : FVec Ideal S1024x64 .f32) (p : FVec Ideal S1x64 .f32) (n : Fin 1024) :
    k1_pay1 (F := Ideal) Hv p (ix2 n 0) = Cert.GcnSpec.weight Hv p n := by
  unfold k1_pay1 Cert.GcnSpec.weight
  rw [shapeCast_self]
  refine (shapeCast_col_apply _ _ n 0).trans ?_
  refine (rowSum_apply _ _ _ _ _ n).trans (Finset.sum_congr rfl fun f _ => ?_)
  rw [mulf_apply, shapeCast_self, broadcastTo_1b_ab_apply]

/-- The transformed edge features: at `(i, c)` the product of the positive part of the features with the weight matrix. -/
theorem k1_pay2_apply (He : FVec Ideal S2048x16 .f32) (W : FVec Ideal S16x16 .f32) (i : Fin 2048) (c : Fin 16) :
    k1_pay2 (F := Ideal) He W (ix2 i c) = Cert.GcnSpec.mmul (fun j => Cert.GcnSpec.relu (He j)) W i c := by
  unfold k1_pay2 Cert.GcnSpec.mmul
  rw [shapeCast_self,
    matmul_rowcol_apply dot_S2048x16_S16x16_S2048x16_1_0_0_1_n_n rfl rfl rfl rfl rfl rfl rfl rfl none _ W i c]
  refine Finset.sum_congr rfl fun f _ => ?_
  rw [maximumf_apply, broadcast_apply]
  show max _ (Ideal.ofBits .f32 0x00000000#32) * _ = _
  rw [Ideal.ofBits_zero_f32]
  rfl

/-- The masked mixing block of the edge layer at grid position `g`, as the layer body builds it: the weighted
    product of the column block of T with all of T (both contracted over the vertices), one on the diagonal, times
    the adjacency block. -/
def edgeMixBlock (g : Nat) (Tc : FVec Ideal S1024x256 .f32) (d : FVec Ideal S1024x1 .f32)
    (Tf : FVec Ideal S1024x2048 .f32) (adjb : FVec Ideal S256x2048 .f32) : FVec Ideal S256x2048 .f32 :=
  mulf (select (cmpi .eq (addi (broadcast S256x2048 (Scalar.muli (BitVec.ofNat 32 g) 256#32))
        (iota .tc S256x2048 32 [0] iota_S256x2048_d0_w32)) (iota .tc S256x2048 32 [1] iota_S256x2048_d1_w32))
      (broadcast S256x2048 (Scalar.ofBits (F := Ideal) .f32 0x3F800000#32))
      (matmul dot_S1024x256_S1024x2048_S256x2048_0_0_1_1_n_n none
        (mulf Tc (broadcastTo S1024x256 d broadcasts_S1024x1_S1024x256)) Tf
        (constant (F := Ideal) S256x2048 .f32 0x00000000#32))) adjb

/-- The block at `(r, j)`: one where row `g·256 + r` is column `j`, else `Σ_n (T(n,r)·d(n))·T(n,j)`; times adj(r,j). -/
theorem edgeMixBlock_apply (g : Nat) (hg : g < 8) (Tc : FVec Ideal S1024x256 .f32) (d : FVec Ideal S1024x1 .f32)
    (Tf : FVec Ideal S1024x2048 .f32) (adjb : FVec Ideal S256x2048 .f32) (r : Fin 256) (j : Fin 2048) :
    edgeMixBlock g Tc d Tf adjb (ix2 r j)
      = (if g * 256 + r.val = j.val then (1 : EReal)
          else ∑ n : Fin 1024, (Tc (ix2 n r) * d (ix2 n 0)) * Tf (ix2 n j)) * adjb (ix2 r j) := by
  unfold edgeMixBlock
  rw [mulf_apply, select_diag_apply g _ _ _ r j (by have := r.isLt; omega) (by have := j.isLt; omega),
    matmul_colcol_apply dot_S1024x256_S1024x2048_S256x2048_0_0_1_1_n_n rfl rfl rfl rfl rfl rfl rfl rfl none _ Tf r j]
  refine congrArg (fun x => (if g * 256 + r.val = j.val then (1 : EReal) else x) * adjb (ix2 r j))
    (Finset.sum_congr rfl fun n _ => ?_)
  rw [mulf_apply, broadcastTo_col_apply]

/-- The layer body's stored block as operations on the masked mixing block. -/
theorem k1_pay3_eq (i : grid1.Coords) (Tc : FVec Ideal S1024x256 .f32) (d : FVec Ideal S1024x1 .f32)
    (Tf : FVec Ideal S1024x2048 .f32) (adjb : FVec Ideal S256x2048 .f32) (HW : FVec Ideal S2048x16 .f32)
    (b : FVec Ideal S1x16 .f32) :
    k1_pay3 (F := Ideal) i Tc d Tf adjb HW b
      = maximumf (addf (matmul dot_S256x2048_S2048x16_S256x16_1_0_0_1_n_n none (edgeMixBlock (i 0).val Tc d Tf adjb) HW
            (constant (F := Ideal) S256x16 .f32 0x00000000#32))
          (broadcastTo S256x16 (shapeCast S1x16 b shapeCasts_S1x16_S1x16) broadcasts_S1x16_S256x16))
        (broadcast S256x16 (Scalar.ofBits (F := Ideal) .f32 0x00000000#32)) := rfl

/-- The layer's output block at row `r` of the block at grid position `g`, column `c`: the positive part of
    `Σ_j M(g·256 + r, j)·(He·W)(j,c) + b(c)`, with `M` the masked mixing matrix over the edges. -/
theorem k1_pay3_apply (i : grid1.Coords) (Tc : FVec Ideal S1024x256 .f32) (d : FVec Ideal S1024x1 .f32)
    (Tf : FVec Ideal S1024x2048 .f32) (adjb : FVec Ideal S256x2048 .f32) (HW : FVec Ideal S2048x16 .f32)
    (b : FVec Ideal S1x16 .f32) (r : Fin 256) (c : Fin 16) :
    k1_pay3 (F := Ideal) i Tc d Tf adjb HW b (ix2 r c)
      = Cert.GcnSpec.relu ((∑ j : Fin 2048, ((if (i 0).val * 256 + r.val = j.val then (1 : EReal)
            else ∑ n : Fin 1024, (Tc (ix2 n r) * d (ix2 n 0)) * Tf (ix2 n j)) * adjb (ix2 r j)) * HW (ix2 j c))
          + b (ix2 0 c)) := by
  have hg : (i 0).val < 8 := (i 0).isLt
  rw [k1_pay3_eq]
  unfold Cert.GcnSpec.relu
  rw [maximumf_apply, addf_apply, broadcast_apply,
    matmul_rowcol_apply dot_S256x2048_S2048x16_S256x16_1_0_0_1_n_n rfl rfl rfl rfl rfl rfl rfl rfl none _ HW r c,
    broadcastTo_1b_ab_apply, shapeCast_self]
  show max _ (Ideal.ofBits .f32 0x00000000#32) = _
  rw [Ideal.ofBits_zero_f32]
  refine congrArg (fun s => max (s + b (ix2 0 c)) 0) (Finset.sum_congr rfl fun j _ => ?_)
  rw [edgeMixBlock_apply _ hg]

end Cert.KernelIdeal.Pay

end
-- ==== Proof.KIValue1.lean ====
/-
  The value of kernel 1's result array (the edge layer).  The two scratch buffers hold, from the first grid
  point on, the vertex weights d(n) = Σ_h Hv(n,h)·p(0,h) and the transformed edge features relu(Z)·W; the block
  written at grid point t holds, at row r and column k, the positive part of
  Σ_j M(256·t + r, j)·(relu(Z)·W)(j,k) + b(k), M the masked mixing matrix over the edges built from the column
  block t of T, all of T, and the row block t of the adjacency.  A block's element (r,k) at point t sits in
  the array at row 256·t + r, and the eight blocks tile the 2048 rows: the array is the positive part of the
  specification's edge layer.
-/
import proofs.«181512_g78709570666604_cont_9to1_m_429_6_alg».proof.Proof.KIRegion1
import proofs.«181512_g78709570666604_cont_9to1_m_429_6_alg».proof.Proof.KIPieces1
import proofs.«181512_g78709570666604_cont_9to1_m_429_6_alg».proof.Proof.KIPay1
import proofs.«181512_g78709570666604_cont_9to1_m_429_6_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.GcnSpec

/-! ## The found pieces are the stored values -/

section Pieces
variable {F : FTy → Type} [FloatOps F]
variable (V : (c : Dev nD) → (b : Ref sig .tc) → Buf (Elt F) ((c : Thread nD τ).loc b))

/-- The first scratch buffer after the first point: the weights of the vertex features' rows. -/
theorem scr1_0_eq (c : Dev nD) : scr1_0 V c = k1_pay1 (iblk1 V c 3 t1_0) (iblk1 V c 6 t1_0) := by
  unfold scr1_0
  rw [View.read_writes_eq_canon _ _ _ (coverA1_s0 V c)]
  unfold runA1
  exact canonA1_s0 c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1_0 (Memref.isWhole_whole _) scM1_1 (Memref.isWhole_whole _) ((hcond1 t1_0).mpr rfl) (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)

/-- The second scratch buffer after the first point: the transformed edge features. -/
theorem scr1_1_eq (c : Dev nD) : scr1_1 V c = k1_pay2 (iblk1 V c 4 t1_0) (iblk1 V c 5 t1_0) := by
  unfold scr1_1
  rw [View.read_writes_eq_canon _ _ _ (coverA1_s1 V c)]
  unfold runA1
  exact canonA1_s1 c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1_0 (Memref.isWhole_whole _) scM1_1 (Memref.isWhole_whole _) ((hcond1 t1_0).mpr rfl) (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)

/-- The output block after any point: the layer's value of that point's blocks and of the two scratch buffers. -/
theorem outAt1_eq (c : Dev nD) (t : Fin cfg1.N) :
    outAt1 V c t = k1_pay3 (grid1.coords t) (iblk1 V c 0 t) (scr1_0 V c) (iblk1 V c 1 t) (iblk1 V c 2 t) (scr1_1 V c) (iblk1 V c 7 t) := by
  unfold outAt1
  by_cases h : t.val = 0
  · rw [dif_pos h]
    obtain rfl : t = t1_0 := Fin.ext h
    rw [View.read_writes_eq_canon _ _ _ (coverA1_out V c), scr1_0_eq, scr1_1_eq]
    unfold runA1
    exact canonA1_out c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1_0 (Memref.isWhole_whole _) scM1_1 (Memref.isWhole_whole _) ((hcond1 t1_0).mpr rfl) (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)
  · rw [dif_neg h, View.read_writes_eq_canon _ _ _ (coverB1_out V c t h)]
    unfold runB1
    exact canonB1_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun hc => h ((hcond1 t).mp hc)) (iblk1 V c 0 t) (iblk1 V c 1 t) (iblk1 V c 2 t) (iblk1 V c 3 t) (iblk1 V c 4 t) (iblk1 V c 5 t) (iblk1 V c 6 t) (iblk1 V c 7 t) (scr1_0 V c) (scr1_1 V c)

end Pieces

/-! ## The blocks read at an index, and the block's value -/

section Value
variable (V : (c : Dev nD) → (b : Ref sig .tc) → Buf (Elt Ideal) ((c : Thread nD τ).loc b))

/-- The printed index maps, decided over the eight grid points: the grid coordinate is the point; window 0 moves
    along the columns and windows 2 and 8 along the rows, one block per point; every other window stays. -/
theorem idx_facts1 : ∀ t : Fin cfg1.N, (grid1.coords t 0).val = t.val
    ∧ win1_0.index t (0 : Fin 2) = 0 ∧ win1_0.index t (1 : Fin 2) = t.val
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A row index of the 2048-row arrays from a grid point and a row of its block. -/
def rowAt1 (t : Fin cfg1.N) (r : Fin 256) : Fin 2048 :=
  ⟨t.val * 256 + r.val, by have := t.isLt; have hN : cfg1.N = 8 := N_1; have := r.isLt; omega⟩

/-- Window 0's block at point t is the column block t of T. -/
theorem iblk1_0_apply (c : Dev nD) (t : Fin cfg1.N) (n : Fin 1024) (r : Fin 256) :
    iblk1 V c 0 t (ix2 n r) = (V c main_arg4 : Mat 1024 2048) (ix2 n (rowAt1 t r)) := by
  obtain ⟨hco, h00, h01, -⟩ := idx_facts1 t
  unfold iblk1; rw [View.read_apply]
  refine congrArg (V c main_arg4) (funext fun a => Fin.ext ?_)
  match a with
  | ⟨0, _⟩ => show win1_0.index t (0 : Fin 2) * 1024 + 1 * n.val = n.val; rw [h00]; omega
  | ⟨1, _⟩ => show win1_0.index t (1 : Fin 2) * 256 + 1 * r.val = t.val * 256 + r.val; rw [h01]; omega

/-- Window 2's block at point t is the row block t of the adjacency. -/
theorem iblk1_2_apply (c : Dev nD) (t : Fin cfg1.N) (r : Fin 256) (j : Fin 2048) :
    iblk1 V c 2 t (ix2 r j) = (V c main_arg2 : Mat 2048 2048) (ix2 (rowAt1 t r) j) := by
  obtain ⟨hco, h00, h01, h10, h11, h20, h21, -⟩ := idx_facts1 t
  unfold iblk1; rw [View.read_apply]
  refine congrArg (V c main_arg2) (funext fun a => Fin.ext ?_)
  match a with
  | ⟨0, _⟩ => show win1_2.index t (0 : Fin 2) * 256 + 1 * r.val = t.val * 256 + r.val; rw [h20]; omega
  | ⟨1, _⟩ => show win1_2.index t (1 : Fin 2) * 2048 + 1 * j.val = j.val; rw [h21]; omega

/-- Window 1's block is all of T. -/
theorem iblk1_1_apply (c : Dev nD) (t : Fin cfg1.N) (a : Fin 1024) (b : Fin 2048) :
    iblk1 V c 1 t (ix2 a b) = (V c main_arg4 : Mat 1024 2048) (ix2 a b) := by
  obtain ⟨hco, h00, h01, h10, h11, -⟩ := idx_facts1 t
  unfold iblk1; rw [View.read_apply]
  refine congrArg (V c main_arg4) (funext fun d => Fin.ext ?_)
  match d with
  | ⟨0, _⟩ => show win1_1.index t (0 : Fin 2) * 1024 + 1 * a.val = a.val; rw [h10]; omega
  | ⟨1, _⟩ => show win1_1.index t (1 : Fin 2) * 2048 + 1 * b.val = b.val; rw [h11]; omega

/-- Window 3's block is all of the vertex features. -/
theorem iblk1_3_apply (c : Dev nD) (t : Fin cfg1.N) (a : Fin 1024) (b : Fin 64) :
    iblk1 V c 3 t (ix2 a b) = (V c main_v3 : Mat 1024 64) (ix2 a b) := by
  obtain ⟨hco, h00, h01, h10, h11, h20, h21, h30, h31, -⟩ := idx_facts1 t
  unfold iblk1; rw [View.read_apply]
  refine congrArg (V c main_v3) (funext fun d => Fin.ext ?_)
  match d with
  | ⟨0, _⟩ => show win1_3.index t (0 : Fin 2) * 1024 + 1 * a.val = a.val; rw [h30]; omega
  | ⟨1, _⟩ => show win1_3.index t (1 : Fin 2) * 64 + 1 * b.val = b.val; rw [h31]; omega

/-- Window 4's block is all of the edge features. -/
theorem iblk1_4_apply (c : Dev nD) (t : Fin cfg1.N) (a : Fin 2048) (b : Fin 16) :
    iblk1 V c 4 t (ix2 a b) = (V c main_arg1 : Mat 2048 16) (ix2 a b) := by
  obtain ⟨hco, h00, h01, h10, h11, h20, h21, h30, h31, h40, h41, -⟩ := idx_facts1 t
  unfold iblk1; rw [View.read_apply]
  refine congrArg (V c main_arg1) (funext fun d => Fin.ext ?_)
  match d with
  | ⟨0, _⟩ => show win1_4.index t (0 : Fin 2) * 2048 + 1 * a.val = a.val; rw [h40]; omega
  | ⟨1, _⟩ => show win1_4.index t (1 : Fin 2) * 16 + 1 * b.val = b.val; rw [h41]; omega

/-- Window 5's block is all of the weight matrix. -/
theorem iblk1_5_apply (c : Dev nD) (t : Fin cfg1.N) (a : Fin 16) (b : Fin 16) :
    iblk1 V c 5 t (ix2 a b) = (V c main_arg8 : Mat 16 16) (ix2 a b) := by
  obtain ⟨hco, h00, h01, h10, h11, h20, h21, h30, h31, h40, h41, h50, h51, -⟩ := idx_facts1 t
  unfold iblk1; rw [View.read_apply]
  refine congrArg (V c main_arg8) (funext fun d => Fin.ext ?_)
  match d with
  | ⟨0, _⟩ => show win1_5.index t (0 : Fin 2) * 16 + 1 * a.val = a.val; rw [h50]; omega
  | ⟨1, _⟩ => show win1_5.index t (1 : Fin 2) * 16 + 1 * b.val = b.val; rw [h51]; omega

/-- Window 6's block is all of the projection row. -/
theorem iblk1_6_apply (c : Dev nD) (t : Fin cfg1.N) (a : Fin 1) (b : Fin 64) :
    iblk1 V c 6 t (ix2 a b) = (V c main_arg9 : Mat 1 64) (ix2 a b) := by
  obtain ⟨hco, h00, h01, h10, h11, h20, h21, h30, h31, h40, h41, h50, h51, h60, h61, -⟩ := idx_facts1 t
  unfold iblk1; rw [View.read_apply]
  refine congrArg (V c main_arg9) (funext fun d => Fin.ext ?_)
  match d with
  | ⟨0, _⟩ => show win1_6.index t (0 : Fin 2) * 1 + 1 * a.val = a.val; rw [h60]; omega
  | ⟨1, _⟩ => show win1_6.index t (1 : Fin 2) * 64 + 1 * b.val = b.val; rw [h61]; omega

/-- Window 7's block is all of the bias row. -/
theorem iblk1_7_apply (c : Dev nD) (t : Fin cfg1.N) (a : Fin 1) (b : Fin 16) :
    iblk1 V c 7 t (ix2 a b) = (V c main_v1 : Mat 1 16) (ix2 a b) := by
  obtain ⟨hco, h00, h01, h10, h11, h20, h21, h30, h31, h40, h41, h50, h51, h60, h61, h70, h71, -⟩ := idx_facts1 t
  unfold iblk1; rw [View.read_apply]
  refine congrArg (V c main_v1) (funext fun d => Fin.ext ?_)
  match d with
  | ⟨0, _⟩ => show win1_7.index t (0 : Fin 2) * 1 + 1 * a.val = a.val; rw [h70]; omega
  | ⟨1, _⟩ => show win1_7.index t (1 : Fin 2) * 16 + 1 * b.val = b.val; rw [h71]; omega

/-- A function on a matrix's indices is determined by its values at `ix2 a b`. -/
theorem mat_ext1 {a b : Nat} {f g : Mat a b} (h : ∀ (i : Fin a) (j : Fin b), f (ix2 i j) = g (ix2 i j)) : f = g :=
  funext fun y => (congrArg f (eq_ix2 y)).trans ((h (y 0) (y 1)).trans (congrArg g (eq_ix2 y)).symm)

/-- The stored block's entry (r,k), the block's inputs variables: when row r of the column block of T and of the
    adjacency block are row i of the arrays, i = 256·g + r, it is the positive part of the edge layer at (i,k). -/
theorem edge_block_value1 (g : grid1.Coords) (T : Mat 1024 2048) (adj : Mat 2048 2048) (Hv : Mat 1024 64) (Z : Mat 2048 16)
    (W : Mat 16 16) (p : Mat 1 64) (bias : Mat 1 16) (Tc : Mat 1024 256) (adjb : Mat 256 2048)
    (r : Fin 256) (k : Fin 16) (i : Fin 2048) (hi : (g 0).val * 256 + r.val = i.val)
    (hTc : ∀ n : Fin 1024, Tc (ix2 n r) = T (ix2 n i)) (hadj : ∀ j : Fin 2048, adjb (ix2 r j) = adj (ix2 i j)) :
    k1_pay3 (F := Ideal) g Tc (k1_pay1 (F := Ideal) Hv p) T adjb (k1_pay2 (F := Ideal) Z W) bias (ix2 r k)
      = relu (edgeLayer Hv (fun j => relu (Z j)) adj T W p (fun j => bias (ix2 0 (j 0))) i k) := by
  rw [Pay.k1_pay3_apply]
  unfold edgeLayer
  refine congrArg (fun s => relu (s + bias (ix2 0 k))) (Finset.sum_congr rfl fun j _ => ?_)
  rw [Pay.k1_pay2_apply, hadj]
  unfold edgeMix
  have hsum : (∑ n : Fin 1024, (Tc (ix2 n r) * k1_pay1 (F := Ideal) Hv p (ix2 n 0)) * T (ix2 n j))
      = ∑ n : Fin 1024, (T (ix2 n i) * weight Hv p n) * T (ix2 n j) :=
    Finset.sum_congr rfl fun n _ => by rw [hTc, Pay.k1_pay1_apply]
  rw [hsum]
  by_cases h : i = j
  · rw [if_pos h, if_pos (by rw [hi, h])]
  · rw [if_neg h, if_neg (fun hv => h (Fin.ext (by rw [← hi, hv])))]

/-- The positive part of the specification's edge layer on the arrays as the region finds them. -/
abbrev edgeOut1 (c : Dev nD) : Mat 2048 16 :=
  ofFn fun i k => relu (edgeLayer (V c main_v3) (fun j => relu (V c main_arg1 j)) (V c main_arg2) (V c main_arg4)
    (V c main_arg8) (V c main_arg9) (fun j => V c main_v1 (ix2 0 (j 0))) i k)

set_option maxHeartbeats 1000000 in
/-- What point t writes back is block t of that array. -/
theorem flushed1_eq (c : Dev nD) (t : Fin cfg1.N) :
    (dat1 V c).flushed 8 t = ((cfg1.win 8).blk t).view.read (Elt Ideal) (edgeOut1 V c) := by
  obtain ⟨hco, -, -, -, -, -, -, -, -, -, -, -, -, -, -, -, -, h80, h81⟩ := idx_facts1 t
  show (cfg1.win 8).cut (grid1.coords t) ((dat1 V c).after 8 t) = _
  rw [after1_8, outAt1_eq, scr1_0_eq, scr1_1_eq]
  have e1 : (iblk1 V c 1 t : Mat 1024 2048) = V c main_arg4 := mat_ext1 (iblk1_1_apply V c t)
  have e3 : (iblk1 V c 3 t1_0 : Mat 1024 64) = V c main_v3 := mat_ext1 (iblk1_3_apply V c t1_0)
  have e4 : (iblk1 V c 4 t1_0 : Mat 2048 16) = V c main_arg1 := mat_ext1 (iblk1_4_apply V c t1_0)
  have e5 : (iblk1 V c 5 t1_0 : Mat 16 16) = V c main_arg8 := mat_ext1 (iblk1_5_apply V c t1_0)
  have e6 : (iblk1 V c 6 t1_0 : Mat 1 64) = V c main_arg9 := mat_ext1 (iblk1_6_apply V c t1_0)
  have e7 : (iblk1 V c 7 t : Mat 1 16) = V c main_v1 := mat_ext1 (iblk1_7_apply V c t)
  rw [e1, e3, e4, e5, e6, e7]
  funext y
  obtain ⟨r, k, rfl⟩ : ∃ (r : Fin 256) (k : Fin 16), y = ix2 r k := ⟨y 0, y 1, eq_ix2 y⟩
  rw [View.read_apply]
  have e8 : ((cfg1.win 8).blk t).view.emb (ix2 r k) = ix2 (rowAt1 t r) k := funext fun a => Fin.ext (by
    match a with
    | ⟨0, _⟩ => show win1_8.index t (0 : Fin 2) * 256 + 1 * r.val = t.val * 256 + r.val; rw [h80]; omega
    | ⟨1, _⟩ => show win1_8.index t (1 : Fin 2) * 16 + 1 * k.val = k.val; rw [h81]; omega)
  rw [e8]
  show k1_pay3 (F := Ideal) (grid1.coords t) (iblk1 V c 0 t) (k1_pay1 (F := Ideal) (V c main_v3) (V c main_arg9))
      (V c main_arg4) (iblk1 V c 2 t) (k1_pay2 (F := Ideal) (V c main_arg1) (V c main_arg8)) (V c main_v1) (ix2 r k)
    = edgeOut1 V c (ix2 (rowAt1 t r) k)
  exact (edge_block_value1 (grid1.coords t) (V c main_arg4) (V c main_arg2) (V c main_v3) (V c main_arg1) (V c main_arg8)
    (V c main_arg9) (V c main_v1) (iblk1 V c 0 t) (iblk1 V c 2 t) r k (rowAt1 t r)
    (by show (grid1.coords t 0).val * 256 + r.val = t.val * 256 + r.val; rw [hco])
    (fun n => iblk1_0_apply V c t n r) (fun j => iblk1_2_apply V c t r j)).trans
    (ofFn_ix2 (fun i k => relu (edgeLayer (V c main_v3) (fun j => relu (V c main_arg1 j)) (V c main_arg2) (V c main_arg4)
      (V c main_arg8) (V c main_arg9) (fun j => V c main_v1 (ix2 0 (j 0))) i k)) (rowAt1 t r) k).symm

/-- An index of the array is in point t's block iff each coordinate is in the block's range on its axis. -/
theorem mem_blk1 (t : Fin cfg1.N) (i : S2048x16.Idx) :
    i ∈ ((cfg1.win 8).blk t).view.set ↔ ∀ a : Fin 2, win1_8.index t a * S256x16.size a ≤ (i a).val
      ∧ (i a).val < win1_8.index t a * S256x16.size a + S256x16.size a := by
  show i ∈ ((View.whole main_v4).slice (win1_8.rect t)).set ↔ _
  rw [View.set_slice_whole, Rect.mem_set_unit]
  exact Iff.rfl

/-- Row i of the array is in the block of point i / 256, and every point writes its block back. -/
theorem cover1 (i : S2048x16.Idx) : ∃ t : Fin cfg1.N, (cfg1.win 8).flush t = true ∧ i ∈ ((cfg1.win 8).blk t).view.set := by
  have hN : cfg1.N = 8 := N_1
  have hi0 : (i 0).val < 2048 := (i 0).isLt
  have hi1 : (i 1).val < 16 := (i 1).isLt
  let t : Fin cfg1.N := ⟨(i 0).val / 256, by omega⟩
  obtain ⟨hco, -, -, -, -, -, -, -, -, -, -, -, -, -, -, -, -, h80, h81⟩ := idx_facts1 t
  refine ⟨t, flush1_8 t, ?_⟩
  rw [mem_blk1]
  intro a
  match a with
  | ⟨0, _⟩ =>
    show win1_8.index t (0 : Fin 2) * 256 ≤ (i 0).val ∧ (i 0).val < win1_8.index t (0 : Fin 2) * 256 + 256
    rw [h80]; show (i 0).val / 256 * 256 ≤ (i 0).val ∧ (i 0).val < (i 0).val / 256 * 256 + 256; omega
  | ⟨1, _⟩ =>
    show win1_8.index t (1 : Fin 2) * 16 ≤ (i 1).val ∧ (i 1).val < win1_8.index t (1 : Fin 2) * 16 + 16
    rw [h81]; omega

/-- The result array of kernel 1 after the region: the positive part of the specification's edge layer. -/
theorem final1 (c : Dev nD) : (dat1 V c).arrAt 8 cfg1.N
    = Cert.GcnSpec.ofFn fun i k => Cert.GcnSpec.relu (Cert.GcnSpec.edgeLayer (V c main_v3)
        (fun j => Cert.GcnSpec.relu (V c main_arg1 j)) (V c main_arg2) (V c main_arg4) (V c main_arg8) (V c main_arg9)
        (fun j => V c main_v1 (ix2 0 (j 0))) i k) :=
  (dat1 V c).arrAt_eq_of_cover 8 (edgeOut1 V c) (fun t _ => flushed1_eq V c t) cover1

end Value

end Cert.KernelIdeal.Hand

end
-- ==== Proof.KIPay2.lean ====
/-
  The second node layer: the value each store of its body writes, read at one index, as the specification's
  weight, matrix product, and row-wise log-softmax of the mixed and biased features.
-/
import proofs.«181512_g78709570666604_cont_9to1_m_429_6_alg».proof.Proof.Spec
import proofs.«181512_g78709570666604_cont_9to1_m_429_6_alg».proof.Proof.Gen.KernelIdeal.Skeleton
import proofs.«181512_g78709570666604_cont_9to1_m_429_6_alg».proof.Proof.LibMatrixAtIndex
import proofs.«181512_g78709570666604_cont_9to1_m_429_6_alg».proof.Proof.KIPayNode

noncomputable section

open scoped BigOperators

namespace Cert.KernelIdeal.Pay

open Idealize.ShloMosaic Idealize.ShloMosaic.ValueIdx Cert.KernelIdeal Cert.KernelIdeal.Gen

/-! ## The second node layer's three stored values at an index -/

/-- The edge weights: at `(0, e)` the weight of row `e` of the edge features under the projection row. -/
theorem k2_pay1_apply (He : FVec Ideal S2048x16 .f32) (p : FVec Ideal S1x16 .f32) (e : Fin 2048) :
    k2_pay1 (F := Ideal) He p (ix2 0 e) = Cert.GcnSpec.weight He p e := by
  unfold k2_pay1 Cert.GcnSpec.weight
  rw [shapeCast_self]
  refine (shapeCast_a_1a_apply _ _ 0 e).trans ?_
  refine (rowSum_apply _ _ _ _ _ e).trans (Finset.sum_congr rfl fun f _ => ?_)
  rw [mulf_apply, shapeCast_self, broadcastTo_1b_ab_apply]

/-- The transformed vertex features: at `(i, c)` the product of the features with the weight matrix. -/
theorem k2_pay2_apply (Hv : FVec Ideal S1024x64 .f32) (W : FVec Ideal S64x16 .f32) (i : Fin 1024) (c : Fin 16) :
    k2_pay2 (F := Ideal) Hv W (ix2 i c) = Cert.GcnSpec.mmul Hv W i c := by
  unfold k2_pay2 Cert.GcnSpec.mmul
  rw [shapeCast_self, shapeCast_self]
  exact matmul_rowcol_apply dot_S1024x64_S64x16_S1024x16_1_0_0_1_n_n rfl rfl rfl rfl rfl rfl rfl rfl none Hv W i c

/-- The layer before its log-softmax, as operations on the masked mixing block. -/
def k2_pre (g : Nat) (Tb : FVec Ideal S256x2048 .f32) (d : FVec Ideal S1x2048 .f32) (Tf : FVec Ideal S1024x2048 .f32)
    (adjb : FVec Ideal S256x1024 .f32) (HW : FVec Ideal S1024x16 .f32) (b : FVec Ideal S1x16 .f32) :
    FVec Ideal S256x16 .f32 :=
  addf (matmul dot_S256x1024_S1024x16_S256x16_1_0_0_1_n_n none (nodeMixBlock g Tb d Tf adjb) HW
      (constant (F := Ideal) S256x16 .f32 0x00000000#32))
    (broadcastTo S256x16 (shapeCast S1x16 b shapeCasts_S1x16_S1x16) broadcasts_S1x16_S256x16)

/-- It reads, at `(r, k)`, `Σ_j M(g·256 + r, j)·(Hv·W)(j,k) + b(k)`. -/
theorem k2_pre_apply (g : Nat) (hg : g < 4) (Tb : FVec Ideal S256x2048 .f32) (d : FVec Ideal S1x2048 .f32)
    (Tf : FVec Ideal S1024x2048 .f32) (adjb : FVec Ideal S256x1024 .f32) (HW : FVec Ideal S1024x16 .f32)
    (b : FVec Ideal S1x16 .f32) (r : Fin 256) (k : Fin 16) :
    k2_pre g Tb d Tf adjb HW b (ix2 r k)
      = (∑ j : Fin 1024, ((if g * 256 + r.val = j.val then (1 : EReal)
            else ∑ e : Fin 2048, (Tb (ix2 r e) * d (ix2 0 e)) * Tf (ix2 j e)) * adjb (ix2 r j)) * HW (ix2 j k))
          + b (ix2 0 k) := by
  unfold k2_pre
  rw [addf_apply,
    matmul_rowcol_apply dot_S256x1024_S1024x16_S256x16_1_0_0_1_n_n rfl rfl rfl rfl rfl rfl rfl rfl none _ HW r k,
    broadcastTo_1b_ab_apply, shapeCast_self]
  refine congrArg (fun s => s + b (ix2 0 k)) (Finset.sum_congr rfl fun j _ => ?_)
  rw [nodeMixBlock_apply _ hg]

/-- The layer body's stored block as the row-wise log-softmax of that. -/
theorem k2_pay3_eq (i : grid2.Coords) (Tb : FVec Ideal S256x2048 .f32) (d : FVec Ideal S1x2048 .f32)
    (Tf : FVec Ideal S1024x2048 .f32) (adjb : FVec Ideal S256x1024 .f32) (HW : FVec Ideal S1024x16 .f32)
    (b : FVec Ideal S1x16 .f32) :
    k2_pay3 (F := Ideal) i Tb d Tf adjb HW b
      = subf (subf (k2_pre (i 0).val Tb d Tf adjb HW b) (broadcastTo S256x16 (shapeCast S256x1
            (multiReduction .maximumf [1] S256 (k2_pre (i 0).val Tb d Tf adjb HW b) 0xFF800000#32 reduces_S256x16_S256
              (.inl rfl) rfl) shapeCasts_S256_S256x1) broadcasts_S256x1_S256x16))
        (broadcastTo S256x16 (log (shapeCast S256x1
            (multiReduction .add [1] S256 (exp (subf (k2_pre (i 0).val Tb d Tf adjb HW b) (broadcastTo S256x16
                (shapeCast S256x1 (multiReduction .maximumf [1] S256 (k2_pre (i 0).val Tb d Tf adjb HW b) 0xFF800000#32
                  reduces_S256x16_S256 (.inl rfl) rfl) shapeCasts_S256_S256x1) broadcasts_S256x1_S256x16)))
              0x00000000#32 reduces_S256x16_S256 (.inl rfl) rfl) shapeCasts_S256_S256x1)) broadcasts_S256x1_S256x16) := rfl

/-- The layer's output block at row `r` of the block at grid position `g`, column `c`: the log-softmax, along
    the row, of `Σ_j M(g·256 + r, j)·(Hv·W)(j,k) + b(k)`. -/
theorem k2_pay3_apply (i : grid2.Coords) (Tb : FVec Ideal S256x2048 .f32) (d : FVec Ideal S1x2048 .f32)
    (Tf : FVec Ideal S1024x2048 .f32) (adjb : FVec Ideal S256x1024 .f32) (HW : FVec Ideal S1024x16 .f32)
    (b : FVec Ideal S1x16 .f32) (r : Fin 256) (c : Fin 16) :
    k2_pay3 (F := Ideal) i Tb d Tf adjb HW b (ix2 r c)
      = Cert.GcnSpec.logSoftmax (fun k : Fin 16 => (∑ j : Fin 1024, ((if (i 0).val * 256 + r.val = j.val then (1 : EReal)
            else ∑ e : Fin 2048, (Tb (ix2 r e) * d (ix2 0 e)) * Tf (ix2 j e)) * adjb (ix2 r j)) * HW (ix2 j k))
          + b (ix2 0 k)) c := by
  have hg : (i 0).val < 4 := (i 0).isLt
  rw [k2_pay3_eq]
  exact logSoftmax_rows_apply (k2_pre (i 0).val Tb d Tf adjb HW b) reduces_S256x16_S256 shapeCasts_S256_S256x1
    broadcasts_S256x1_S256x16 (.inl rfl) rfl rfl r c _ (fun k => k2_pre_apply _ hg Tb d Tf adjb HW b r k)

end Cert.KernelIdeal.Pay

end
-- ==== Proof.KIValue2.lean ====
/-
  The second node layer's result array after its region: every grid point writes back the block of rows it
  computed, each block is the row-wise log-softmax of the specification's layer at those rows, and the blocks tile
  the array.
-/
import proofs.«181512_g78709570666604_cont_9to1_m_429_6_alg».proof.Proof.KIRegion2
import proofs.«181512_g78709570666604_cont_9to1_m_429_6_alg».proof.Proof.KIPay2
import proofs.«181512_g78709570666604_cont_9to1_m_429_6_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

theorem hzero2 : (![0, 0] : Fin 2 → Nat) = fun _ => 0 := funext fun a => by fin_cases a <;> rfl

/-- At the first point the first scratch buffer is left holding the edge weights of the loaded blocks. -/
theorem canonA2_s0 (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : cond2 i) (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5 x6 x7).2.1 = k2_pay1 x4 x6 := by
  unfold kernelRun2_A
  dsimp only
  sl_unfold_words
  rw [View.canon_unit_zero hzero2]
  simp only [View.readAt_eq_ld, harg5.read_unread, harg7.read_unread, View.ld_unit_zero (S := S2048x16) hzero2, View.ld_unit_zero (S := S1x16) hzero2]

/-- At the first point the second scratch buffer is left holding the transformed vertex features of the loaded blocks. -/
theorem canonA2_s1 (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : cond2 i) (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5 x6 x7).2.2.1 = k2_pay2 x3 x5 := by
  unfold kernelRun2_A
  dsimp only
  sl_unfold_words
  rw [View.canon_unit_zero hzero2]
  simp only [View.readAt_eq_ld, harg4.read_unread, harg6.read_unread, View.ld_unit_zero (S := S1024x64) hzero2, View.ld_unit_zero (S := S64x16) hzero2]

/-- At the first point the output buffer is left holding the layer's block computed from the loaded blocks and from
    what the same point has just stored into the two scratch buffers. -/
theorem canonA2_out (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : cond2 i) (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5 x6 x7).1
      = k2_pay3 i x0 (k2_pay1 x4 x6) x1 x2 (k2_pay2 x3 x5) x7 := by
  unfold kernelRun2_A
  dsimp only
  sl_unfold_words
  rw [View.canon_unit_zero hzero2, View.readCov_unit_zero (S := S1x2048) _ hzero2, View.readCov_unit_zero (S := S1024x16) _ hzero2]
  simp only [View.readAt_eq_ld, harg1.read_unread, harg2.read_unread, harg3.read_unread, harg4.read_unread, harg5.read_unread, harg6.read_unread, harg7.read_unread, harg8.read_unread,
    View.ld_unit_zero (S := S256x2048) hzero2, View.ld_unit_zero (S := S1024x2048) hzero2, View.ld_unit_zero (S := S256x1024) hzero2, View.ld_unit_zero (S := S1024x64) hzero2, View.ld_unit_zero (S := S2048x16) hzero2, View.ld_unit_zero (S := S64x16) hzero2, View.ld_unit_zero (S := S1x16) hzero2]

/-- At a later point the output buffer is left holding the layer's block computed from the loaded blocks and from
    what the two scratch buffers hold. -/
theorem canonB2_out (c : Dev nD) (i : grid2.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole) (arg4 : Memref sig .tc .vmem S1024x64 .f32) (harg4 : arg4.IsWhole) (arg5 : Memref sig .tc .vmem S2048x16 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S256x16 .f32) (harg9 : arg9.IsWhole) (arg10 : Memref sig .tc .vmem S1x2048 .f32) (harg10 : arg10.IsWhole) (arg11 : Memref sig .tc .vmem S1024x16 .f32) (harg11 : arg11.IsWhole) (hc : ¬cond2 i) (x0 : Vec F S256x2048 .f32) (x1 : Vec F S1024x2048 .f32) (x2 : Vec F S256x1024 .f32) (x3 : Vec F S1024x64 .f32) (x4 : Vec F S2048x16 .f32) (x5 : Vec F S64x16 .f32) (x6 : Vec F S1x16 .f32) (x7 : Vec F S1x16 .f32) (xs0 : Vec F S1x2048 .f32) (xs1 : Vec F S1024x16 .f32) :
    View.canon (kernelRun2_B (F := F) c i arg1 harg1 arg2 harg2 arg3 harg3 arg4 harg4 arg5 harg5 arg6 harg6 arg7 harg7 arg8 harg8 arg9 harg9 arg10 harg10 arg11 harg11 hc x0 x1 x2 x3 x4 x5 x6 x7 xs0 xs1).1
      = k2_pay3 i x0 xs0 x1 x2 xs1 x7 := by
  unfold kernelRun2_B
  dsimp only
  sl_unfold_words
  rw [View.canon_unit_zero hzero2]
  simp only [View.readAt_eq_ld, harg1.read_unread, harg2.read_unread, harg3.read_unread, harg8.read_unread, harg10.read_unread, harg11.read_unread,
    View.ld_unit_zero (S := S256x2048) hzero2, View.ld_unit_zero (S := S1024x2048) hzero2, View.ld_unit_zero (S := S256x1024) hzero2, View.ld_unit_zero (S := S1x16) hzero2, View.ld_unit_zero (S := S1x2048) hzero2, View.ld_unit_zero (S := S1024x16) hzero2]

section Pieces
variable (V : (c : Dev nD) → (b : Ref sig .tc) → Buf (Elt F) ((c : Thread nD τ).loc b))

/-- What the first point leaves in the first scratch buffer: the weights, of the whole features and projection row. -/
theorem scr2_0_eq (c : Dev nD) : scr2_0 V c = k2_pay1 (iblk2 V c 4 t2_0) (iblk2 V c 6 t2_0) := by
  unfold scr2_0
  rw [View.read_writes_eq_canon _ _ _ (coverA2_s0 V c)]
  unfold runA2
  exact canonA2_s0 c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) (ms2_8 t2_0) (hs2_8 t2_0) scM2_0 (Memref.isWhole_whole _) scM2_1 (Memref.isWhole_whole _) ((hcond2 t2_0).mpr rfl) (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0)

/-- What the first point leaves in the second scratch buffer: the transformed features. -/
theorem scr2_1_eq (c : Dev nD) : scr2_1 V c = k2_pay2 (iblk2 V c 3 t2_0) (iblk2 V c 5 t2_0) := by
  unfold scr2_1
  rw [View.read_writes_eq_canon _ _ _ (coverA2_s1 V c)]
  unfold runA2
  exact canonA2_s1 c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) (ms2_8 t2_0) (hs2_8 t2_0) scM2_0 (Memref.isWhole_whole _) scM2_1 (Memref.isWhole_whole _) ((hcond2 t2_0).mpr rfl) (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0)

/-- What the output's staging buffer holds after point `t`, first or later: the layer's block of that point's
    blocks and of the two scratch buffers as the first point left them. -/
theorem outAt2_eq (c : Dev nD) (t : Fin cfg2.N) :
    outAt2 V c t = k2_pay3 (grid2.coords t) (iblk2 V c 0 t) (scr2_0 V c) (iblk2 V c 1 t) (iblk2 V c 2 t) (scr2_1 V c)
      (iblk2 V c 7 t) := by
  unfold outAt2
  by_cases h : t.val = 0
  · rw [dif_pos h]
    obtain rfl : t = t2_0 := Fin.ext h
    rw [View.read_writes_eq_canon _ _ _ (coverA2_out V c), scr2_0_eq, scr2_1_eq]
    unfold runA2
    exact canonA2_out c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) (ms2_8 t2_0) (hs2_8 t2_0) scM2_0 (Memref.isWhole_whole _) scM2_1 (Memref.isWhole_whole _) ((hcond2 t2_0).mpr rfl) (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0)
  · rw [dif_neg h, View.read_writes_eq_canon _ _ _ (coverB2_out V c t h)]
    unfold runB2
    exact canonB2_out c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hc => h ((hcond2 t).mp hc)) (iblk2 V c 0 t) (iblk2 V c 1 t) (iblk2 V c 2 t) (iblk2 V c 3 t) (iblk2 V c 4 t) (iblk2 V c 5 t) (iblk2 V c 6 t) (iblk2 V c 7 t) (scr2_0 V c) (scr2_1 V c)

end Pieces

section Value
variable (V : (c : Dev nD) → (b : Ref sig .tc) → Buf (Elt Ideal) ((c : Thread nD τ).loc b))

/-- The printed index maps, decided over the grid: the grid coordinate is the point's number; windows 0, 2 and 8
    are at block row `t`, every other window at block (0, 0). -/
theorem idx_facts2 : ∀ t : Fin cfg2.N, (grid2.coords t 0).val = t.val
    ∧ win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

/-- Window 0's block at point `t` is the rows `t·256 …` of its array. -/
theorem iblk2_0_apply (c : Dev nD) (t : Fin cfg2.N) (r : Fin 256) (e : Fin 2048) :
    iblk2 V c 0 t (ix2 r e)
      = (V c main_arg4 : Cert.GcnSpec.Mat 1024 2048) (ix2 ⟨t.val * 256 + r.val, by have := t.isLt; have hN : cfg2.N = 4 := N_2; have := r.isLt; omega⟩ e) := by
  obtain ⟨hco, h00, h01, h10, h11, h20, h21, h30, h31, h40, h41, h50, h51, h60, h61, h70, h71, h80, h81⟩ := idx_facts2 t
  unfold iblk2
  rw [View.read_apply]
  refine congrArg (V c main_arg4) (funext fun a => Fin.ext ?_)
  match a with
  | ⟨0, _⟩ => show win2_0.index t (0 : Fin 2) * 256 + 1 * r.val = t.val * 256 + r.val; rw [h00]; omega
  | ⟨1, _⟩ => show win2_0.index t (1 : Fin 2) * 2048 + 1 * e.val = e.val; rw [h01]; omega

/-- Window 1's block at every point is its whole array. -/
theorem iblk2_1_apply (c : Dev nD) (t : Fin cfg2.N) (r : Fin 1024) (e : Fin 2048) :
    iblk2 V c 1 t (ix2 r e) = (V c main_arg4 : Cert.GcnSpec.Mat 1024 2048) (ix2 r e) := by
  obtain ⟨hco, h00, h01, h10, h11, h20, h21, h30, h31, h40, h41, h50, h51, h60, h61, h70, h71, h80, h81⟩ := idx_facts2 t
  unfold iblk2
  rw [View.read_apply]
  refine congrArg (V c main_arg4) (funext fun a => Fin.ext ?_)
  match a with
  | ⟨0, _⟩ => show win2_1.index t (0 : Fin 2) * 1024 + 1 * r.val = r.val; rw [h10]; omega
  | ⟨1, _⟩ => show win2_1.index t (1 : Fin 2) * 2048 + 1 * e.val = e.val; rw [h11]; omega

/-- Window 2's block at point `t` is the rows `t·256 …` of its array. -/
theorem iblk2_2_apply (c : Dev nD) (t : Fin cfg2.N) (r : Fin 256) (e : Fin 1024) :
    iblk2 V c 2 t (ix2 r e)
      = (V c main_arg3 : Cert.GcnSpec.Mat 1024 1024) (ix2 ⟨t.val * 256 + r.val, by have := t.isLt; have hN : cfg2.N = 4 := N_2; have := r.isLt; omega⟩ e) := by
  obtain ⟨hco, h00, h01, h10, h11, h20, h21, h30, h31, h40, h41, h50, h51, h60, h61, h70, h71, h80, h81⟩ := idx_facts2 t
  unfold iblk2
  rw [View.read_apply]
  refine congrArg (V c main_arg3) (funext fun a => Fin.ext ?_)
  match a with
  | ⟨0, _⟩ => show win2_2.index t (0 : Fin 2) * 256 + 1 * r.val = t.val * 256 + r.val; rw [h20]; omega
  | ⟨1, _⟩ => show win2_2.index t (1 : Fin 2) * 1024 + 1 * e.val = e.val; rw [h21]; omega

/-- Window 3's block at every point is its whole array. -/
theorem iblk2_3_apply (c : Dev nD) (t : Fin cfg2.N) (r : Fin 1024) (e : Fin 64) :
    iblk2 V c 3 t (ix2 r e) = (V c main_v3 : Cert.GcnSpec.Mat 1024 64) (ix2 r e) := by
  obtain ⟨hco, h00, h01, h10, h11, h20, h21, h30, h31, h40, h41, h50, h51, h60, h61, h70, h71, h80, h81⟩ := idx_facts2 t
  unfold iblk2
  rw [View.read_apply]
  refine congrArg (V c main_v3) (funext fun a => Fin.ext ?_)
  match a with
  | ⟨0, _⟩ => show win2_3.index t (0 : Fin 2) * 1024 + 1 * r.val = r.val; rw [h30]; omega
  | ⟨1, _⟩ => show win2_3.index t (1 : Fin 2) * 64 + 1 * e.val = e.val; rw [h31]; omega

/-- Window 4's block at every point is its whole array. -/
theorem iblk2_4_apply (c : Dev nD) (t : Fin cfg2.N) (r : Fin 2048) (e : Fin 16) :
    iblk2 V c 4 t (ix2 r e) = (V c main_v4 : Cert.GcnSpec.Mat 2048 16) (ix2 r e) := by
  obtain ⟨hco, h00, h01, h10, h11, h20, h21, h30, h31, h40, h41, h50, h51, h60, h61, h70, h71, h80, h81⟩ := idx_facts2 t
  unfold iblk2
  rw [View.read_apply]
  refine congrArg (V c main_v4) (funext fun a => Fin.ext ?_)
  match a with
  | ⟨0, _⟩ => show win2_4.index t (0 : Fin 2) * 2048 + 1 * r.val = r.val; rw [h40]; omega
  | ⟨1, _⟩ => show win2_4.index t (1 : Fin 2) * 16 + 1 * e.val = e.val; rw [h41]; omega

/-- Window 5's block at every point is its whole array. -/
theorem iblk2_5_apply (c : Dev nD) (t : Fin cfg2.N) (r : Fin 64) (e : Fin 16) :
    iblk2 V c 5 t (ix2 r e) = (V c main_arg11 : Cert.GcnSpec.Mat 64 16) (ix2 r e) := by
  obtain ⟨hco, h00, h01, h10, h11, h20, h21, h30, h31, h40, h41, h50, h51, h60, h61, h70, h71, h80, h81⟩ := idx_facts2 t
  unfold iblk2
  rw [View.read_apply]
  refine congrArg (V c main_arg11) (funext fun a => Fin.ext ?_)
  match a with
  | ⟨0, _⟩ => show win2_5.index t (0 : Fin 2) * 64 + 1 * r.val = r.val; rw [h50]; omega
  | ⟨1, _⟩ => show win2_5.index t (1 : Fin 2) * 16 + 1 * e.val = e.val; rw [h51]; omega

/-- Window 6's block at every point is its whole array. -/
theorem iblk2_6_apply (c : Dev nD) (t : Fin cfg2.N) (r : Fin 1) (e : Fin 16) :
    iblk2 V c 6 t (ix2 r e) = (V c main_arg12 : Cert.GcnSpec.Mat 1 16) (ix2 r e) := by
  obtain ⟨hco, h00, h01, h10, h11, h20, h21, h30, h31, h40, h41, h50, h51, h60, h61, h70, h71, h80, h81⟩ := idx_facts2 t
  unfold iblk2
  rw [View.read_apply]
  refine congrArg (V c main_arg12) (funext fun a => Fin.ext ?_)
  match a with
  | ⟨0, _⟩ => show win2_6.index t (0 : Fin 2) * 1 + 1 * r.val = r.val; rw [h60]; omega
  | ⟨1, _⟩ => show win2_6.index t (1 : Fin 2) * 16 + 1 * e.val = e.val; rw [h61]; omega

/-- Window 7's block at every point is its whole array. -/
theorem iblk2_7_apply (c : Dev nD) (t : Fin cfg2.N) (r : Fin 1) (e : Fin 16) :
    iblk2 V c 7 t (ix2 r e) = (V c main_v2 : Cert.GcnSpec.Mat 1 16) (ix2 r e) := by
  obtain ⟨hco, h00, h01, h10, h11, h20, h21, h30, h31, h40, h41, h50, h51, h60, h61, h70, h71, h80, h81⟩ := idx_facts2 t
  unfold iblk2
  rw [View.read_apply]
  refine congrArg (V c main_v2) (funext fun a => Fin.ext ?_)
  match a with
  | ⟨0, _⟩ => show win2_7.index t (0 : Fin 2) * 1 + 1 * r.val = r.val; rw [h70]; omega
  | ⟨1, _⟩ => show win2_7.index t (1 : Fin 2) * 16 + 1 * e.val = e.val; rw [h71]; omega

/-- The first scratch buffer, as the first point left it, holds at `(0, e)` the weight of edge `e`. -/
theorem scr2_0_apply (c : Dev nD) (e : Fin 2048) :
    scr2_0 V c (ix2 0 e) = Cert.GcnSpec.weight (V c main_v4 : Cert.GcnSpec.Mat 2048 16) (V c main_arg12 : Cert.GcnSpec.Mat 1 16) e := by
  rw [scr2_0_eq]
  refine (Pay.k2_pay1_apply (iblk2 V c 4 t2_0) (iblk2 V c 6 t2_0) e).trans ?_
  unfold Cert.GcnSpec.weight
  refine Finset.sum_congr rfl fun f _ => ?_
  rw [iblk2_4_apply V c t2_0 e f, iblk2_6_apply V c t2_0 0 f]

/-- The second scratch buffer, as the first point left it, holds at `(j, k)` the transformed features of vertex `j`. -/
theorem scr2_1_apply (c : Dev nD) (j : Fin 1024) (k : Fin 16) :
    scr2_1 V c (ix2 j k) = Cert.GcnSpec.mmul (V c main_v3 : Cert.GcnSpec.Mat 1024 64) (V c main_arg11 : Cert.GcnSpec.Mat 64 16) j k := by
  rw [scr2_1_eq]
  refine (Pay.k2_pay2_apply (iblk2 V c 3 t2_0) (iblk2 V c 5 t2_0) j k).trans ?_
  unfold Cert.GcnSpec.mmul
  refine Finset.sum_congr rfl fun f _ => ?_
  rw [iblk2_3_apply V c t2_0 j f, iblk2_5_apply V c t2_0 f k]

/-- The layer's result as one function of the arrays the region finds: the row-wise log-softmax of the node layer on the
    vertex features, edge features, adjacency, T, weight matrix, projection row and bias. -/
def G2 (c : Dev nD) : Cert.GcnSpec.Mat 1024 16 :=
  Cert.GcnSpec.ofFn fun i k => Cert.GcnSpec.logSoftmax (fun k' => Cert.GcnSpec.nodeLayer (V c main_v3 : Cert.GcnSpec.Mat 1024 64)
    (V c main_v4 : Cert.GcnSpec.Mat 2048 16) (V c main_arg3 : Cert.GcnSpec.Mat 1024 1024) (V c main_arg4 : Cert.GcnSpec.Mat 1024 2048)
    (V c main_arg11 : Cert.GcnSpec.Mat 64 16) (V c main_arg12 : Cert.GcnSpec.Mat 1 16) (fun j => (V c main_v2 : Cert.GcnSpec.Mat 1 16) (ix2 0 (j 0))) i k') k

/-- What point `t` writes back is block `t` of that function: row `r` of the block is row `t·256 + r` of the
    layer, whose mixing row is the block's — the diagonal test compares the same two numbers. -/
theorem flushed2_eq (c : Dev nD) (t : Fin cfg2.N) :
    (dat2 V c).flushed 8 t = ((cfg2.win 8).blk t).view.read (Elt Ideal) (G2 V c) := by
  obtain ⟨hco, h00, h01, h10, h11, h20, h21, h30, h31, h40, h41, h50, h51, h60, h61, h70, h71, h80, h81⟩ := idx_facts2 t
  show (cfg2.win 8).cut (grid2.coords t) ((dat2 V c).after 8 t) = _
  rw [after2_8, outAt2_eq]
  funext y
  obtain ⟨r, k, rfl⟩ : ∃ (r : Fin 256) (k : Fin 16), y = ix2 r k := ⟨y 0, y 1, eq_ix2 y⟩
  rw [View.read_apply]
  have hrow : t.val * 256 + r.val < 1024 := by have := t.isLt; have hN : cfg2.N = 4 := N_2; have := r.isLt; omega
  have hemb : ((cfg2.win 8).blk t).view.emb (ix2 r k) = ix2 (⟨t.val * 256 + r.val, hrow⟩ : Fin 1024) k :=
    funext fun a => Fin.ext (by
      match a with
      | ⟨0, _⟩ => show win2_8.index t (0 : Fin 2) * 256 + 1 * r.val = t.val * 256 + r.val; rw [h80]; omega
      | ⟨1, _⟩ => show win2_8.index t (1 : Fin 2) * 16 + 1 * k.val = k.val; rw [h81]; omega)
  rw [hemb]
  show _ = G2 V c (ix2 (⟨t.val * 256 + r.val, hrow⟩ : Fin 1024) k)
  refine (Pay.k2_pay3_apply (grid2.coords t) (iblk2 V c 0 t) (scr2_0 V c) (iblk2 V c 1 t) (iblk2 V c 2 t) (scr2_1 V c)
    (iblk2 V c 7 t) r k).trans ?_
  unfold G2 Cert.GcnSpec.nodeLayer Cert.GcnSpec.nodeMix
  rw [Cert.GcnSpec.ofFn_ix2]
  refine congrArg (fun x => Cert.GcnSpec.logSoftmax x k) (funext fun k' => ?_)
  refine congrArg₂ (· + ·) (Finset.sum_congr rfl fun j _ => ?_) ?_
  · rw [iblk2_2_apply V c t r j, scr2_1_apply V c j k', hco]
    refine congrArg₂ (· * ·) (congrArg₂ (· * ·) ?_ rfl) rfl
    refine if_congr ⟨fun h => Fin.ext h, fun h => congrArg Fin.val h⟩ rfl (Finset.sum_congr rfl fun e _ => ?_)
    rw [iblk2_0_apply V c t r e, scr2_0_apply V c e, iblk2_1_apply V c t j e]
  · rw [iblk2_7_apply V c t 0 k']

/-- An index of the result array is in point `t`'s block iff each coordinate is in the block's range on its axis. -/
theorem mem_blk2 (t : Fin cfg2.N) (i : S1024x16.Idx) :
    i ∈ ((cfg2.win 8).blk t).view.set ↔ ∀ a : Fin 2, win2_8.index t a * S256x16.size a ≤ (i a).val
      ∧ (i a).val < win2_8.index t a * S256x16.size a + S256x16.size a := by
  show i ∈ ((View.whole main_v5).slice (win2_8.rect t)).set ↔ _
  rw [View.set_slice_whole, Rect.mem_set_unit]
  exact Iff.rfl

/-- Every row of the result array is in some point's block: row `i` in that of point `i / 256`. -/
theorem cover2 (i : S1024x16.Idx) : ∃ t : Fin cfg2.N, (cfg2.win 8).flush t = true ∧ i ∈ ((cfg2.win 8).blk t).view.set := by
  have hN : cfg2.N = 4 := N_2
  have hi0 : (i 0).val < 1024 := (i 0).isLt
  have hi1 : (i 1).val < 16 := (i 1).isLt
  obtain ⟨t, ht⟩ : ∃ t : Fin cfg2.N, t.val = (i 0).val / 256 := ⟨⟨(i 0).val / 256, by rw [hN]; omega⟩, rfl⟩
  obtain ⟨hco, h00, h01, h10, h11, h20, h21, h30, h31, h40, h41, h50, h51, h60, h61, h70, h71, h80, h81⟩ := idx_facts2 t
  refine ⟨t, flush2_8 t, ?_⟩
  rw [mem_blk2]
  intro a
  match a with
  | ⟨0, _⟩ =>
    show win2_8.index t (0 : Fin 2) * 256 ≤ (i 0).val ∧ (i 0).val < win2_8.index t (0 : Fin 2) * 256 + 256
    rw [h80, ht]; omega
  | ⟨1, _⟩ =>
    show win2_8.index t (1 : Fin 2) * 16 ≤ (i 1).val ∧ (i 1).val < win2_8.index t (1 : Fin 2) * 16 + 16
    rw [h81]; omega

/-- The result array after the region: the row-wise log-softmax of the node layer, entry by entry. -/
theorem final2 (c : Dev nD) :
    (dat2 V c).arrAt 8 cfg2.N = Cert.GcnSpec.ofFn fun i k => Cert.GcnSpec.logSoftmax (fun k' => Cert.GcnSpec.nodeLayer (V c main_v3 : Cert.GcnSpec.Mat 1024 64)
    (V c main_v4 : Cert.GcnSpec.Mat 2048 16) (V c main_arg3 : Cert.GcnSpec.Mat 1024 1024) (V c main_arg4 : Cert.GcnSpec.Mat 1024 2048)
    (V c main_arg11 : Cert.GcnSpec.Mat 64 16) (V c main_arg12 : Cert.GcnSpec.Mat 1 16) (fun j => (V c main_v2 : Cert.GcnSpec.Mat 1 16) (ix2 0 (j 0))) i k') k :=
  (dat2 V c).arrAt_eq_of_cover 8 (G2 V c) (fun t _ => flushed2_eq V c t) cover2

end Value

end Cert.KernelIdeal.Hand

end
-- ==== Proof.KIFinal.lean ====
/-
  The idealized kernel's result, as one function of the argument arrays: the three regions' result arrays read one
  after the other.  The first region leaves the hidden vertex features, the second the hidden edge features, the
  third the row-wise log-softmax of the last node layer; each region finds the earlier results and the arguments
  where the earlier segments left them, and the three reshaped biases hold the bias vectors' entries.
-/
import proofs.«181512_g78709570666604_cont_9to1_m_429_6_alg».proof.Proof.KIRun
import proofs.«181512_g78709570666604_cont_9to1_m_429_6_alg».proof.Proof.KIValue0
import proofs.«181512_g78709570666604_cont_9to1_m_429_6_alg».proof.Proof.KIValue1
import proofs.«181512_g78709570666604_cont_9to1_m_429_6_alg».proof.Proof.KIValue2
import proofs.«181512_g78709570666604_cont_9to1_m_429_6_alg».proof.Proof.Spec
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem Cert.GcnSpec

variable (m : (ℓ : Loc nD τ sig) → Buf (Elt Ideal) ℓ) (c : Dev nD)

/-- A buffer no reshape writes is, at the first region's entry, as launched. -/
theorem R1_arg (b : Ref sig .tc) (h : b ∉ hostOps0_W) : R1 m c b = m ((c.tc : Thread nD τ).loc b) := (V1_of m c b h).trans rfl

/-- The three reshaped biases hold the bias vectors' entries. -/
theorem bias0 : (fun j : (⟨1, ![64]⟩ : Shape).Idx => (R1 m c main_v0 : S1x64.Idx → EReal) (ix2 0 (j 0))) = m ((c.tc : Thread nD τ).loc main_arg7) := by
  have e : (R1 m c main_v0 : S1x64.Idx → EReal) = shapeCast S1x64 (m ((c.tc : Thread nD τ).loc main_arg7)) shapeCasts_S64_S1x64 := by
    show StableHlo.after hostOps0 (fun b => m (c, b)) (Proc.devRef .tc main_v0) = _
    after_results; rfl
  funext j
  rw [e, eq_ix1 j]
  exact shapeCast_a_1a_apply _ _ 0 _
theorem bias1 : (fun j : (⟨1, ![16]⟩ : Shape).Idx => (R1 m c main_v1 : S1x16.Idx → EReal) (ix2 0 (j 0))) = m ((c.tc : Thread nD τ).loc main_arg10) := by
  have e : (R1 m c main_v1 : S1x16.Idx → EReal) = shapeCast S1x16 (m ((c.tc : Thread nD τ).loc main_arg10)) shapeCasts_S16_S1x16 := by
    show StableHlo.after hostOps0 (fun b => m (c, b)) (Proc.devRef .tc main_v1) = _
    after_results; rfl
  funext j
  rw [e, eq_ix1 j]
  exact shapeCast_a_1a_apply _ _ 0 _
theorem bias2 : (fun j : (⟨1, ![16]⟩ : Shape).Idx => (R1 m c main_v2 : S1x16.Idx → EReal) (ix2 0 (j 0))) = m ((c.tc : Thread nD τ).loc main_arg13) := by
  have e : (R1 m c main_v2 : S1x16.Idx → EReal) = shapeCast S1x16 (m ((c.tc : Thread nD τ).loc main_arg13)) shapeCasts_S16_S1x16 := by
    show StableHlo.after hostOps0 (fun b => m (c, b)) (Proc.devRef .tc main_v2) = _
    after_results; rfl
  funext j
  rw [e, eq_ix1 j]
  exact shapeCast_a_1a_apply _ _ 0 _

/-- After the first region the hidden vertex features' array holds them. -/
theorem v3_eq : R2 m c main_v3 = hidV (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [U2_self, final0 (R1 m) c]
  unfold hidV
  rw [R1_arg m c main_arg0 (by decide), R1_arg m c main_arg1 (by decide), R1_arg m c main_arg3 (by decide), R1_arg m c main_arg4 (by decide), R1_arg m c main_arg5 (by decide), R1_arg m c main_arg6 (by decide), bias0]

/-- After the second region the hidden edge features' array holds them. -/
theorem v4_eq : R3 m c main_v4 = hidE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [U3_self, final1 (R2 m) c]
  unfold hidE
  rw [v3_eq, U2_of_ne m c main_arg1 (by decide), R1_arg m c main_arg1 (by decide), U2_of_ne m c main_arg2 (by decide), R1_arg m c main_arg2 (by decide), U2_of_ne m c main_arg4 (by decide), R1_arg m c main_arg4 (by decide), U2_of_ne m c main_arg8 (by decide), R1_arg m c main_arg8 (by decide), U2_of_ne m c main_arg9 (by decide), R1_arg m c main_arg9 (by decide), U2_of_ne m c main_v1 (by decide), bias1]

/-- After the third region the result array holds the network's result. -/
theorem v5_eq : (dat2 (R3 m) c).arrAt 8 cfg2.N = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [final2 (R3 m) c]
  unfold net
  rw [v4_eq, U3_of_ne m c main_v3 (by decide), v3_eq, U3_of_ne m c main_arg3 (by decide), U2_of_ne m c main_arg3 (by decide), R1_arg m c main_arg3 (by decide), U3_of_ne m c main_arg4 (by decide), U2_of_ne m c main_arg4 (by decide), R1_arg m c main_arg4 (by decide), U3_of_ne m c main_arg11 (by decide), U2_of_ne m c main_arg11 (by decide), R1_arg m c main_arg11 (by decide), U3_of_ne m c main_arg12 (by decide), U2_of_ne m c main_arg12 (by decide), R1_arg m c main_arg12 (by decide), U3_of_ne m c main_v2 (by decide), U2_of_ne m c main_v2 (by decide), bias2]

end Cert.KernelIdeal.Hand

end
-- ==== Proof.RefOps.lean ====
/-
  Facts about single operations on the extended reals that the reference's stages are read with:
  the word of 1 and of -∞, the diagonal indicator a comparison of two counters converts to, the
  forced-diagonal law 1 + (1 - 1)·x = 1 and 0 + (1 - 0)·x = x, the positive part, and a maximum
  taken from -∞ along the last axis of a matrix as the maximum of that row.
-/
import Idealize.ShloMosaic.PureOps.Ideal.Laws
import Idealize.ShloMosaic.Lib.ValueIdx
import proofs.«181512_g78709570666604_cont_9to1_m_429_6_alg».proof.Proof.Spec

noncomputable section

open scoped BigOperators

namespace Cert.RefBridge

open Idealize.ShloMosaic Idealize.ShloMosaic.ValueIdx Cert.GcnSpec

/-- Two indices of a matrix are equal when their two coordinates are (a coordinate `n / 1` is `n`). -/
macro "idx2_eq" : tactic =>
  `(tactic| exact funext fun a => Fin.ext (by
      match a with
      | ⟨0, _⟩ => first | rfl | exact Nat.div_one _
      | ⟨1, _⟩ => first | rfl | exact Nat.div_one _))

/-- Two indices of a vector are equal when their coordinate is. -/
macro "idx1_eq" : tactic =>
  `(tactic| exact funext fun a => Fin.ext (by
      match a with
      | ⟨0, _⟩ => first | rfl | exact Nat.div_one _))

/-- The f32 word 0x3F800000 denotes the real 1. -/
theorem ofBits_one_f32 : Ideal.ofBits .f32 0x3F800000#32 = 1 := by
  simp [Ideal.ofBits, Ideal.ieee]
  rw [← EReal.coe_mul, ← EReal.coe_one, EReal.coe_eq_coe_iff]
  norm_num

/-- The f32 word 0xFF800000 denotes -∞. -/
theorem ofBits_neg_inf_f32 : Ideal.ofBits .f32 0xFF800000#32 = ⊥ := by
  simp [Ideal.ofBits, Ideal.ieee]

/-- Two 32-bit counters below 2^32 compared for equality and converted to a float: 1 where they agree, 0 elsewhere. -/
theorem eye_entry (a b : Nat) (ha : a < 2 ^ 32) (hb : b < 2 ^ 32) :
    FloatOps.uitofp (F := Ideal) .f32 (IntOp.cmpi .eq (IntOp.addi (BitVec.ofNat 32 a) 0#32) (BitVec.ofNat 32 b))
      = if a = b then (1 : EReal) else 0 := by
  unfold IntOp.cmpi IntOp.addi
  rw [BitVec.add_zero]
  show (((BitVec.ofBool (BitVec.ofNat 32 a == BitVec.ofNat 32 b)).toNat : ℝ) : EReal) = _
  by_cases h : a = b
  · subst h; simp
  · have hne : (BitVec.ofNat 32 a == BitVec.ofNat 32 b) = false := by
      rw [beq_eq_false_iff_ne]
      intro hh
      apply h
      have h2 := congrArg BitVec.toNat hh
      rw [BitVec.toNat_ofNat, BitVec.toNat_ofNat, Nat.mod_eq_of_lt ha, Nat.mod_eq_of_lt hb] at h2
      exact h2
    rw [hne, if_neg h]; simp

/-- On the diagonal the mixing entry is forced to 1: 1 + (1 - 1)·x = 1, whatever x (0·x = 0 also at ±∞). -/
theorem diag_on (x : EReal) : (1 : EReal) + ((1 : EReal) - 1) * x = 1 := by
  have h : ((1 : EReal) - 1) = 0 := by
    rw [← EReal.coe_one, ← EReal.coe_sub]; simp
  rw [h, zero_mul, add_zero]

/-- Off the diagonal the mixing entry is kept: 0 + (1 - 0)·x = x. -/
theorem diag_off (x : EReal) : (0 : EReal) + ((1 : EReal) - 0) * x = x := by
  rw [sub_zero, one_mul, zero_add]

/-- The forced-diagonal entry, for either value of the indicator. -/
theorem diag_ite (p : Prop) [Decidable p] (x : EReal) :
    (if p then (1 : EReal) else 0) + ((1 : EReal) - (if p then (1 : EReal) else 0)) * x = if p then (1 : EReal) else x := by
  by_cases h : p
  · rw [if_pos h, if_pos h]; exact diag_on x
  · rw [if_neg h, if_neg h]; exact diag_off x

/-- The positive part applied twice is the positive part. -/
theorem relu_relu (x : EReal) : relu (relu x) = relu x := by
  unfold relu; exact max_eq_left (le_max_right _ _)

/-- A host maximum from -∞ over the last axis of a 1024×16 matrix, read at row r: the maximum of that row. -/
theorem hostReduce_max_rows (x : (⟨2, ![1024, 16]⟩ : Shape).Idx → EReal) (init : (⟨0, ![]⟩ : Shape).Idx → EReal)
    (h : (⟨2, ![1024, 16]⟩ : Shape).ReducesTo [1] ⟨1, ![1024]⟩) (hu : 0 < (⟨0, ![]⟩ : Shape).numel)
    (hinit : init (Shape.Idx.first hu) = ⊥) (r : Fin 1024) :
    Host.reduce (max : EReal → EReal → EReal) x init h hu (ix1 r) = rowMax fun k : Fin 16 => x (ix2 r k) := by
  unfold Host.reduce
  rw [hinit, Shape.foldl_filter_rowMajor_eq_fold h.drop max ⊥ x (ix1 r)]
  unfold rowMax
  have himg : (Finset.univ.filter fun i => h.drop i = ix1 r) = Finset.univ.image (fun k : Fin 16 => ix2 r k) := by
    ext i
    obtain ⟨p, q, rfl⟩ : ∃ (p : Fin 1024) (q : Fin 16), i = ix2 p q := ⟨i 0, i 1, eq_ix2 i⟩
    simp only [Finset.mem_filter, Finset.mem_univ, true_and, Finset.mem_image]
    constructor
    · intro hi
      have h0 : p = r := Fin.ext (by
        have h1 := congrArg Fin.val (congrFun hi 0)
        exact h1)
      subst h0
      exact ⟨q, rfl⟩
    · rintro ⟨k, hk⟩
      have h0 : r = p := congrFun hk 0
      subst h0
      funext d
      match d with
      | ⟨0, _⟩ => rfl
  rw [himg, Finset.fold_image]
  · rfl
  · intro k _ k' _ hk
    exact congrFun hk 1

end Cert.RefBridge

end
-- ==== Proof.RefNode1.lean ====
/-
  The reference's first layer, read stage by stage at an index: the edge weights d(e) = Σ_f Z(e,f)·p1(0,f),
  the products Σ_e (T(i,e)·d(e))·T(j,e), the diagonal indicator, the forced-diagonal masked mixing matrix,
  the product X·W1, the layer Σ_j M(i,j)·(X·W1)(j,c) + b1(c), and its positive part: the hidden vertex
  features of the specification.  The positive part of Z is read here as well.
-/
import proofs.«181512_g78709570666604_cont_9to1_m_429_6_alg».proof.Proof.RefRead
import proofs.«181512_g78709570666604_cont_9to1_m_429_6_alg».proof.Proof.RefOps

noncomputable section

open scoped BigOperators

namespace Cert.RefBridge

open Idealize.ShloMosaic Idealize.ShloMosaic.ValueIdx Cert.GcnSpec Cert.ReferenceIdeal Cert.ReferenceIdeal.Read

variable (x0 : Mat 1024 128) (x1 : Mat 2048 16) (x3 : Mat 1024 1024) (x4 : Mat 1024 2048)
  (x5 : Mat 128 64) (x6 : Mat 1 16) (x7 : Row 64)

/-- The broadcast weight vector at (i,e) is the weight of edge e. -/
theorem weight1 (i : Fin 1024) (e : Fin 2048) :
    val_main_v4 (F := Ideal) x1 x6 (ix2 i e) = weight x1 x6 e := by
  rw [val_main_v4_apply, val_main_v3_apply, val_main_v2_apply, val_main_v1_apply]
  unfold weight
  refine Finset.sum_congr rfl fun f _ => ?_
  rw [val_main_v0_apply]
  have e1 : lidx_main_v1 (idx_main_v2 (idx_main_v3 (idx_main_v4 (ix2 i e)))) f = ix2 e f := by idx2_eq
  have e2 : idx_main_v0 (ridx_main_v1 (idx_main_v2 (idx_main_v3 (idx_main_v4 (ix2 i e)))) f) = ix2 0 f := by idx2_eq
  rw [e1, e2]

/-- The weighted product of T with its transpose at (i,j): Σ_e (T(i,e)·d(e))·T(j,e). -/
theorem mult1 (i j : Fin 1024) :
    val_main_v7 (F := Ideal) x1 x4 x6 (ix2 i j)
      = ∑ e : Fin 2048, (x4 (ix2 i e) * weight x1 x6 e) * x4 (ix2 j e) := by
  rw [val_main_v7_apply]
  refine Finset.sum_congr rfl fun e _ => ?_
  have e1 : lidx_main_v7 (ix2 i j) e = ix2 i e := by idx2_eq
  have e2 : idx_main_v6 (ridx_main_v7 (ix2 i j) e) = ix2 j e := by idx2_eq
  rw [val_main_v5_apply, val_main_v6_apply, e1, e2, weight1]
  rfl

/-- The comparison of the row counter with the column counter, converted: 1 on the diagonal, 0 off it. -/
theorem eye1 (i j : Fin 1024) :
    val_main_v13 (F := Ideal) (ix2 i j) = if i = j then (1 : EReal) else 0 := by
  rw [val_main_v13_apply, val_main_v12_apply, val_main_v11_apply, val_main_v8_apply, val_main_v9_apply,
    val_main_v10_apply, val_main_c_apply]
  refine (eye_entry i.val j.val (by have := i.isLt; omega) (by have := j.isLt; omega)).trans ?_
  by_cases h : i = j
  · rw [if_pos h, if_pos (congrArg Fin.val h)]
  · rw [if_neg h, if_neg (fun hv => h (Fin.ext hv))]

/-- The masked mixing matrix at (i,j) is the specification's. -/
theorem mix1 (i j : Fin 1024) :
    val_main_v18 (F := Ideal) x1 x3 x4 x6 (ix2 i j) = nodeMix x4 (weight x1 x6) x3 i j := by
  rw [val_main_v18_apply, val_main_v17_apply, val_main_v16_apply, val_main_v15_apply, val_main_v14_apply,
    val_main_cst_apply, eye1, mult1]
  unfold nodeMix
  simp only [Ideal.mulf_def, Ideal.addf_def, Ideal.subf_def, Ideal.ofBits_def, ofBits_one_f32]
  rw [diag_ite]

/-- The product X·W1 at (j,c). -/
theorem feat1 (j : Fin 1024) (c : Fin 64) :
    val_main_v19 (F := Ideal) x0 x5 (ix2 j c) = mmul x0 x5 j c := by
  rw [val_main_v19_apply]
  unfold mmul
  refine Finset.sum_congr rfl fun f _ => ?_
  have e1 : lidx_main_v19 (ix2 j c) f = ix2 j f := by idx2_eq
  have e2 : ridx_main_v19 (ix2 j c) f = ix2 f c := by idx2_eq
  rw [e1, e2]

/-- The first layer before its activation at (i,c). -/
theorem layer1 (i : Fin 1024) (c : Fin 64) :
    val_main_v23 (F := Ideal) x0 x1 x3 x4 x5 x6 x7 (ix2 i c) = nodeLayer x0 x1 x3 x4 x5 x6 x7 i c := by
  rw [val_main_v23_apply, val_main_v20_apply, val_main_v22_apply, val_main_v21_apply]
  unfold nodeLayer
  have e3 : idx_main_v21 (idx_main_v22 (ix2 i c)) = ix1 c := by idx1_eq
  have hs : (∑ k : Fin 1024, (val_main_v18 (F := Ideal) x1 x3 x4 x6) (lidx_main_v20 (ix2 i c) k)
        * (val_main_v19 (F := Ideal) x0 x5) (ridx_main_v20 (ix2 i c) k))
      = ∑ j : Fin 1024, nodeMix x4 (weight x1 x6) x3 i j * mmul x0 x5 j c :=
    Finset.sum_congr rfl fun k _ => by
      have e1 : lidx_main_v20 (ix2 i c) k = ix2 i k := by idx2_eq
      have e2 : ridx_main_v20 (ix2 i c) k = ix2 k c := by idx2_eq
      rw [e1, e2, mix1, feat1]
  rw [e3, hs]
  rfl

/-- The hidden vertex features: the reference's first activation is the specification's `hidV`. -/
theorem hidV_eq : val_main_v24 (F := Ideal) x0 x1 x3 x4 x5 x6 x7 = hidV x0 x1 x3 x4 x5 x6 x7 := by
  funext j
  obtain ⟨i, c, rfl⟩ : ∃ (i : Fin 1024) (c : Fin 64), j = ix2 i c := ⟨j 0, j 1, eq_ix2 j⟩
  rw [val_main_v24_apply, layer1, val_main_call0_v0_apply, val_main_call0_cst_apply]
  simp only [Ideal.maximumf_def, Ideal.ofBits_def, Ideal.ofBits_zero_f32]
  rfl

/-- The positive part of the edge features. -/
theorem reluZ_eq : val_main_v25 (F := Ideal) x1 = fun j => relu (x1 j) := by
  funext j
  rw [val_main_v25_apply, val_main_call1_v0_apply, val_main_call1_cst_apply]
  simp only [Ideal.maximumf_def, Ideal.ofBits_def, Ideal.ofBits_zero_f32]
  rfl

end Cert.RefBridge

end
-- ==== Proof.RefEdge.lean ====
/-
  The reference's second layer (the edge layer), read stage by stage at an index, as a function of ITS
  input arrays: the vertex features Hv and the edge features He that the first layer hands it stand here as
  variables, tied to the reference's stages by two hypotheses.  The vertex weights d(n) = Σ_h Hv(n,h)·p2(0,h),
  the products Σ_n (T(n,i)·d(n))·T(n,j), the diagonal indicator, the masked mixing matrix, the product He·W2,
  the layer Σ_j M(i,j)·(He·W2)(j,c) + b2(c), its positive part, and the positive part of Hv taken once more.
-/
import proofs.«181512_g78709570666604_cont_9to1_m_429_6_alg».proof.Proof.RefRead
import proofs.«181512_g78709570666604_cont_9to1_m_429_6_alg».proof.Proof.RefOps

noncomputable section

open scoped BigOperators

namespace Cert.RefBridge

open Idealize.ShloMosaic Idealize.ShloMosaic.ValueIdx Cert.GcnSpec Cert.ReferenceIdeal Cert.ReferenceIdeal.Read

variable (x0 : Mat 1024 128) (x1 : Mat 2048 16) (x2 : Mat 2048 2048) (x3 : Mat 1024 1024) (x4 : Mat 1024 2048)
  (x5 : Mat 128 64) (x6 : Mat 1 16) (x7 : Row 64) (x8 : Mat 16 16) (x9 : Mat 1 64) (x10 : Row 16)
  (Hv : Mat 1024 64) (He : Mat 2048 16)

/-- The broadcast weight vector at (e,n) is the weight of vertex n. -/
theorem weight2 (hHv : val_main_v24 (F := Ideal) x0 x1 x3 x4 x5 x6 x7 = Hv) (e : Fin 2048) (n : Fin 1024) :
    val_main_v31 (F := Ideal) x0 x1 x3 x4 x5 x6 x7 x9 (ix2 e n) = weight Hv x9 n := by
  rw [val_main_v31_apply, val_main_v30_apply, val_main_v28_apply, val_main_v27_apply, hHv]
  unfold weight
  refine Finset.sum_congr rfl fun f _ => ?_
  rw [val_main_v26_apply]
  have e1 : lidx_main_v27 (idx_main_v28 (idx_main_v30 (idx_main_v31 (ix2 e n)))) f = ix2 n f := by idx2_eq
  have e2 : idx_main_v26 (ridx_main_v27 (idx_main_v28 (idx_main_v30 (idx_main_v31 (ix2 e n)))) f) = ix2 0 f := by idx2_eq
  rw [e1, e2]

/-- The weighted product of the transpose of T with T at (i,j): Σ_n (T(n,i)·d(n))·T(n,j). -/
theorem mult2 (hHv : val_main_v24 (F := Ideal) x0 x1 x3 x4 x5 x6 x7 = Hv) (i j : Fin 2048) :
    val_main_v33 (F := Ideal) x0 x1 x3 x4 x5 x6 x7 x9 (ix2 i j)
      = ∑ n : Fin 1024, (x4 (ix2 n i) * weight Hv x9 n) * x4 (ix2 n j) := by
  rw [val_main_v33_apply]
  refine Finset.sum_congr rfl fun n _ => ?_
  have e1 : lidx_main_v33 (ix2 i j) n = ix2 i n := by idx2_eq
  have e2 : idx_main_v29 (ix2 i n) = ix2 n i := by idx2_eq
  have e3 : ridx_main_v33 (ix2 i j) n = ix2 n j := by idx2_eq
  rw [val_main_v32_apply, val_main_v29_apply, e1, e2, e3, weight2 x0 x1 x3 x4 x5 x6 x7 x9 Hv hHv]
  rfl

/-- The comparison of the row counter with the column counter, converted: 1 on the diagonal, 0 off it. -/
theorem eye2 (i j : Fin 2048) :
    val_main_v39 (F := Ideal) (ix2 i j) = if i = j then (1 : EReal) else 0 := by
  rw [val_main_v39_apply, val_main_v38_apply, val_main_v37_apply, val_main_v34_apply, val_main_v35_apply,
    val_main_v36_apply, val_main_c_0_apply]
  refine (eye_entry i.val j.val (by have := i.isLt; omega) (by have := j.isLt; omega)).trans ?_
  by_cases h : i = j
  · rw [if_pos h, if_pos (congrArg Fin.val h)]
  · rw [if_neg h, if_neg (fun hv => h (Fin.ext hv))]

/-- The masked mixing matrix at (i,j) is the specification's. -/
theorem mix2 (hHv : val_main_v24 (F := Ideal) x0 x1 x3 x4 x5 x6 x7 = Hv) (i j : Fin 2048) :
    val_main_v44 (F := Ideal) x0 x1 x2 x3 x4 x5 x6 x7 x9 (ix2 i j) = edgeMix x4 (weight Hv x9) x2 i j := by
  rw [val_main_v44_apply, val_main_v43_apply, val_main_v42_apply, val_main_v41_apply, val_main_v40_apply,
    val_main_cst_1_apply, eye2, mult2 x0 x1 x3 x4 x5 x6 x7 x9 Hv hHv]
  unfold edgeMix
  simp only [Ideal.mulf_def, Ideal.addf_def, Ideal.subf_def, Ideal.ofBits_def, ofBits_one_f32]
  rw [diag_ite]

/-- The product He·W2 at (j,c). -/
theorem feat2 (hHe : val_main_v25 (F := Ideal) x1 = He) (j : Fin 2048) (c : Fin 16) :
    val_main_v45 (F := Ideal) x1 x8 (ix2 j c) = mmul He x8 j c := by
  rw [val_main_v45_apply, hHe]
  unfold mmul
  refine Finset.sum_congr rfl fun f _ => ?_
  have e1 : lidx_main_v45 (ix2 j c) f = ix2 j f := by idx2_eq
  have e2 : ridx_main_v45 (ix2 j c) f = ix2 f c := by idx2_eq
  rw [e1, e2]

/-- The edge layer before its activation at (i,c). -/
theorem layer2 (hHv : val_main_v24 (F := Ideal) x0 x1 x3 x4 x5 x6 x7 = Hv) (hHe : val_main_v25 (F := Ideal) x1 = He)
    (i : Fin 2048) (c : Fin 16) :
    val_main_v49 (F := Ideal) x0 x1 x2 x3 x4 x5 x6 x7 x8 x9 x10 (ix2 i c) = edgeLayer Hv He x2 x4 x8 x9 x10 i c := by
  rw [val_main_v49_apply, val_main_v46_apply, val_main_v48_apply, val_main_v47_apply]
  unfold edgeLayer
  have e3 : idx_main_v47 (idx_main_v48 (ix2 i c)) = ix1 c := by idx1_eq
  have hs : (∑ k : Fin 2048, (val_main_v44 (F := Ideal) x0 x1 x2 x3 x4 x5 x6 x7 x9) (lidx_main_v46 (ix2 i c) k)
        * (val_main_v45 (F := Ideal) x1 x8) (ridx_main_v46 (ix2 i c) k))
      = ∑ j : Fin 2048, edgeMix x4 (weight Hv x9) x2 i j * mmul He x8 j c :=
    Finset.sum_congr rfl fun k _ => by
      have e1 : lidx_main_v46 (ix2 i c) k = ix2 i k := by idx2_eq
      have e2 : ridx_main_v46 (ix2 i c) k = ix2 k c := by idx2_eq
      rw [e1, e2, mix2 x0 x1 x2 x3 x4 x5 x6 x7 x9 Hv hHv, feat2 x1 x8 He hHe]
  rw [e3, hs]
  rfl

/-- The reference's second activation of the edge features: the positive part of the edge layer. -/
theorem edge_out (hHv : val_main_v24 (F := Ideal) x0 x1 x3 x4 x5 x6 x7 = Hv) (hHe : val_main_v25 (F := Ideal) x1 = He) :
    val_main_v51 (F := Ideal) x0 x1 x2 x3 x4 x5 x6 x7 x8 x9 x10
      = ofFn fun i c => relu (edgeLayer Hv He x2 x4 x8 x9 x10 i c) := by
  funext j
  obtain ⟨i, c, rfl⟩ : ∃ (i : Fin 2048) (c : Fin 16), j = ix2 i c := ⟨j 0, j 1, eq_ix2 j⟩
  rw [val_main_v51_apply, layer2 x0 x1 x2 x3 x4 x5 x6 x7 x8 x9 x10 Hv He hHv hHe, val_main_call3_v0_apply,
    val_main_call3_cst_apply]
  simp only [Ideal.maximumf_def, Ideal.ofBits_def, Ideal.ofBits_zero_f32]
  rfl

/-- The reference's second activation of the vertex features: the positive part of Hv. -/
theorem vert_out (hHv : val_main_v24 (F := Ideal) x0 x1 x3 x4 x5 x6 x7 = Hv) :
    val_main_v50 (F := Ideal) x0 x1 x3 x4 x5 x6 x7 = fun j => relu (Hv j) := by
  funext j
  rw [val_main_v50_apply, hHv, val_main_call2_v0_apply, val_main_call2_cst_apply]
  simp only [Ideal.maximumf_def, Ideal.ofBits_def, Ideal.ofBits_zero_f32]
  rfl

end Cert.RefBridge

end
-- ==== Proof.RefNode3.lean ====
/-
  The reference's third layer (a node layer), read stage by stage at an index, as a function of ITS input
  arrays: the vertex features Hv and the edge features He that the second layer hands it stand here as
  variables, tied to the reference's stages by two hypotheses.  The edge weights d(e) = Σ_f He(e,f)·p3(0,f),
  the products Σ_e (T(i,e)·d(e))·T(j,e), the diagonal indicator, the masked mixing matrix, the product Hv·W3
  and the layer Σ_j M(i,j)·(Hv·W3)(j,c) + b3(c).
-/
import proofs.«181512_g78709570666604_cont_9to1_m_429_6_alg».proof.Proof.RefRead
import proofs.«181512_g78709570666604_cont_9to1_m_429_6_alg».proof.Proof.RefOps

noncomputable section

open scoped BigOperators

namespace Cert.RefBridge

open Idealize.ShloMosaic Idealize.ShloMosaic.ValueIdx Cert.GcnSpec Cert.ReferenceIdeal Cert.ReferenceIdeal.Read

variable (x0 : Mat 1024 128) (x1 : Mat 2048 16) (x2 : Mat 2048 2048) (x3 : Mat 1024 1024) (x4 : Mat 1024 2048)
  (x5 : Mat 128 64) (x6 : Mat 1 16) (x7 : Row 64) (x8 : Mat 16 16) (x9 : Mat 1 64) (x10 : Row 16)
  (x11 : Mat 64 16) (x12 : Mat 1 16) (x13 : Row 16) (Hv : Mat 1024 64) (He : Mat 2048 16)

/-- The broadcast weight vector at (i,e) is the weight of edge e. -/
theorem weight3 (hHe : val_main_v51 (F := Ideal) x0 x1 x2 x3 x4 x5 x6 x7 x8 x9 x10 = He) (i : Fin 1024) (e : Fin 2048) :
    val_main_v56 (F := Ideal) x0 x1 x2 x3 x4 x5 x6 x7 x8 x9 x10 x12 (ix2 i e) = weight He x12 e := by
  rw [val_main_v56_apply, val_main_v55_apply, val_main_v54_apply, val_main_v53_apply, hHe]
  unfold weight
  refine Finset.sum_congr rfl fun f _ => ?_
  rw [val_main_v52_apply]
  have e1 : lidx_main_v53 (idx_main_v54 (idx_main_v55 (idx_main_v56 (ix2 i e)))) f = ix2 e f := by idx2_eq
  have e2 : idx_main_v52 (ridx_main_v53 (idx_main_v54 (idx_main_v55 (idx_main_v56 (ix2 i e)))) f) = ix2 0 f := by idx2_eq
  rw [e1, e2]

/-- The weighted product of T with its transpose at (i,j): Σ_e (T(i,e)·d(e))·T(j,e). -/
theorem mult3 (hHe : val_main_v51 (F := Ideal) x0 x1 x2 x3 x4 x5 x6 x7 x8 x9 x10 = He) (i j : Fin 1024) :
    val_main_v59 (F := Ideal) x0 x1 x2 x3 x4 x5 x6 x7 x8 x9 x10 x12 (ix2 i j)
      = ∑ e : Fin 2048, (x4 (ix2 i e) * weight He x12 e) * x4 (ix2 j e) := by
  rw [val_main_v59_apply]
  refine Finset.sum_congr rfl fun e _ => ?_
  have e1 : lidx_main_v59 (ix2 i j) e = ix2 i e := by idx2_eq
  have e2 : idx_main_v58 (ridx_main_v59 (ix2 i j) e) = ix2 j e := by idx2_eq
  rw [val_main_v57_apply, val_main_v58_apply, e1, e2, weight3 (hHe := hHe)]
  rfl

/-- The comparison of the row counter with the column counter, converted: 1 on the diagonal, 0 off it. -/
theorem eye3 (i j : Fin 1024) :
    val_main_v65 (F := Ideal) (ix2 i j) = if i = j then (1 : EReal) else 0 := by
  rw [val_main_v65_apply, val_main_v64_apply, val_main_v63_apply, val_main_v60_apply, val_main_v61_apply,
    val_main_v62_apply, val_main_c_2_apply]
  refine (eye_entry i.val j.val (by have := i.isLt; omega) (by have := j.isLt; omega)).trans ?_
  by_cases h : i = j
  · rw [if_pos h, if_pos (congrArg Fin.val h)]
  · rw [if_neg h, if_neg (fun hv => h (Fin.ext hv))]

/-- The masked mixing matrix at (i,j) is the specification's. -/
theorem mix3 (hHe : val_main_v51 (F := Ideal) x0 x1 x2 x3 x4 x5 x6 x7 x8 x9 x10 = He) (i j : Fin 1024) :
    val_main_v70 (F := Ideal) x0 x1 x2 x3 x4 x5 x6 x7 x8 x9 x10 x12 (ix2 i j) = nodeMix x4 (weight He x12) x3 i j := by
  rw [val_main_v70_apply, val_main_v69_apply, val_main_v68_apply, val_main_v67_apply, val_main_v66_apply,
    val_main_cst_3_apply, eye3, mult3 (hHe := hHe)]
  unfold nodeMix
  simp only [Ideal.mulf_def, Ideal.addf_def, Ideal.subf_def, Ideal.ofBits_def, ofBits_one_f32]
  rw [diag_ite]

/-- The product Hv·W3 at (j,c). -/
theorem feat3 (hHv : val_main_v50 (F := Ideal) x0 x1 x3 x4 x5 x6 x7 = Hv) (j : Fin 1024) (c : Fin 16) :
    val_main_v71 (F := Ideal) x0 x1 x3 x4 x5 x6 x7 x11 (ix2 j c) = mmul Hv x11 j c := by
  rw [val_main_v71_apply, hHv]
  unfold mmul
  refine Finset.sum_congr rfl fun f _ => ?_
  have e1 : lidx_main_v71 (ix2 j c) f = ix2 j f := by idx2_eq
  have e2 : ridx_main_v71 (ix2 j c) f = ix2 f c := by idx2_eq
  rw [e1, e2]

/-- The third layer at (i,c). -/
theorem layer3 (hHv : val_main_v50 (F := Ideal) x0 x1 x3 x4 x5 x6 x7 = Hv)
    (hHe : val_main_v51 (F := Ideal) x0 x1 x2 x3 x4 x5 x6 x7 x8 x9 x10 = He) (i : Fin 1024) (c : Fin 16) :
    val_main_v75 (F := Ideal) x0 x1 x2 x3 x4 x5 x6 x7 x8 x9 x10 x11 x12 x13 (ix2 i c) = nodeLayer Hv He x3 x4 x11 x12 x13 i c := by
  rw [val_main_v75_apply, val_main_v72_apply, val_main_v74_apply, val_main_v73_apply]
  unfold nodeLayer
  have e3 : idx_main_v73 (idx_main_v74 (ix2 i c)) = ix1 c := by idx1_eq
  have hs : (∑ k : Fin 1024, (val_main_v70 (F := Ideal) x0 x1 x2 x3 x4 x5 x6 x7 x8 x9 x10 x12) (lidx_main_v72 (ix2 i c) k)
        * (val_main_v71 (F := Ideal) x0 x1 x3 x4 x5 x6 x7 x11) (ridx_main_v72 (ix2 i c) k))
      = ∑ j : Fin 1024, nodeMix x4 (weight He x12) x3 i j * mmul Hv x11 j c :=
    Finset.sum_congr rfl fun k _ => by
      have e1 : lidx_main_v72 (ix2 i c) k = ix2 i k := by idx2_eq
      have e2 : ridx_main_v72 (ix2 i c) k = ix2 k c := by idx2_eq
      rw [e1, e2, mix3 (hHe := hHe), feat3 (hHv := hHv)]
  rw [e3, hs]
  rfl

/-- The third layer as an array. -/
theorem node3_out (hHv : val_main_v50 (F := Ideal) x0 x1 x3 x4 x5 x6 x7 = Hv)
    (hHe : val_main_v51 (F := Ideal) x0 x1 x2 x3 x4 x5 x6 x7 x8 x9 x10 = He) :
    val_main_v75 (F := Ideal) x0 x1 x2 x3 x4 x5 x6 x7 x8 x9 x10 x11 x12 x13 = ofFn (nodeLayer Hv He x3 x4 x11 x12 x13) := by
  funext j
  obtain ⟨i, c, rfl⟩ : ∃ (i : Fin 1024) (c : Fin 16), j = ix2 i c := ⟨j 0, j 1, eq_ix2 j⟩
  rw [ofFn_ix2]
  exact layer3 x0 x1 x2 x3 x4 x5 x6 x7 x8 x9 x10 x11 x12 x13 Hv He hHv hHe i c

end Cert.RefBridge

end
-- ==== Proof.RefSoftmax.lean ====
/-
  The reference's closing log-softmax over each row of a 1024×16 array Y (the third layer's result, a variable
  here): the row maximum taken from -∞, the shifted row, the logarithm of the sum of its exponentials, and
  their difference: the specification's `logSoftmax` of the row.
-/
import proofs.«181512_g78709570666604_cont_9to1_m_429_6_alg».proof.Proof.RefRead
import proofs.«181512_g78709570666604_cont_9to1_m_429_6_alg».proof.Proof.RefOps

noncomputable section

open scoped BigOperators

namespace Cert.RefBridge

open Idealize.ShloMosaic Idealize.ShloMosaic.ValueIdx Cert.GcnSpec Cert.ReferenceIdeal Cert.ReferenceIdeal.Read

variable (x0 : Mat 1024 128) (x1 : Mat 2048 16) (x2 : Mat 2048 2048) (x3 : Mat 1024 1024) (x4 : Mat 1024 2048)
  (x5 : Mat 128 64) (x6 : Mat 1 16) (x7 : Row 64) (x8 : Mat 16 16) (x9 : Mat 1 64) (x10 : Row 16)
  (x11 : Mat 64 16) (x12 : Mat 1 16) (x13 : Row 16) (Y : Mat 1024 16)

/-- The host maximum, written with the float operation's name, along the last axis from -∞: the row's maximum. -/
theorem hostReduce_maximumf_rows (x : (⟨2, ![1024, 16]⟩ : Shape).Idx → EReal) (init : (⟨0, ![]⟩ : Shape).Idx → EReal)
    (h : (⟨2, ![1024, 16]⟩ : Shape).ReducesTo [1] ⟨1, ![1024]⟩) (hu : 0 < (⟨0, ![]⟩ : Shape).numel)
    (hinit : init (Shape.Idx.first hu) = ⊥) (r : Fin 1024) :
    Host.reduce (FloatOps.maximumf (F := Ideal) (φ := .f32)) x init h hu (ix1 r) = rowMax fun k : Fin 16 => x (ix2 r k) :=
  hostReduce_max_rows x init h hu hinit r

/-- The row maximum the reference subtracts, at row i. -/
theorem rowmax3 (hY : val_main_v75 (F := Ideal) x0 x1 x2 x3 x4 x5 x6 x7 x8 x9 x10 x11 x12 x13 = Y) (i : Fin 1024) :
    val_main_call4_v2 (F := Ideal) x0 x1 x2 x3 x4 x5 x6 x7 x8 x9 x10 x11 x12 x13 (ix1 i) = rowMax fun k : Fin 16 => Y (ix2 i k) := by
  rw [val_main_call4_v2_apply, val_main_call4_v1_apply, val_main_call4_cst_0_apply]
  unfold val_main_call4_v0
  rw [hY, hostReduce_maximumf_rows Y _ _ _ (by rw [val_main_call4_cst_apply]; exact ofBits_neg_inf_f32) i]
  simp only [Ideal.maximumf_def, Ideal.ofBits_def, ofBits_neg_inf_f32]
  exact max_eq_right bot_le

/-- The shifted entry at (i,c): Y(i,c) minus the maximum of row i. -/
theorem shift3 (hY : val_main_v75 (F := Ideal) x0 x1 x2 x3 x4 x5 x6 x7 x8 x9 x10 x11 x12 x13 = Y) (i : Fin 1024) (c : Fin 16) :
    val_main_call4_v5 (F := Ideal) x0 x1 x2 x3 x4 x5 x6 x7 x8 x9 x10 x11 x12 x13 (ix2 i c) = Y (ix2 i c) - rowMax fun k : Fin 16 => Y (ix2 i k) := by
  rw [val_main_call4_v5_apply, val_main_call4_v4_apply, val_main_call4_v3_apply, hY]
  have e1 : idx_main_call4_v3 (idx_main_call4_v4 (ix2 i c)) = ix1 i := by idx1_eq
  rw [e1, rowmax3 (hY := hY)]
  rfl

/-- The broadcast logarithm of the sum of the shifted row's exponentials, at (i,c). -/
theorem lse3 (hY : val_main_v75 (F := Ideal) x0 x1 x2 x3 x4 x5 x6 x7 x8 x9 x10 x11 x12 x13 = Y) (i : Fin 1024) (c : Fin 16) :
    val_main_call4_v10 (F := Ideal) x0 x1 x2 x3 x4 x5 x6 x7 x8 x9 x10 x11 x12 x13 (ix2 i c)
      = Ideal.log (∑ k : Fin 16, Ideal.exp (Y (ix2 i k) - rowMax fun k' : Fin 16 => Y (ix2 i k'))) := by
  rw [val_main_call4_v10_apply, val_main_call4_v9_apply, val_main_call4_v8_apply, val_main_call4_v7_apply,
    val_main_call4_cst_1_apply]
  have e1 : idx_main_call4_v8 (idx_main_call4_v10 (ix2 i c)) = ix1 i := by idx1_eq
  have hs : (∑ k : Fin 16, (val_main_call4_v6 (F := Ideal) x0 x1 x2 x3 x4 x5 x6 x7 x8 x9 x10 x11 x12 x13) (idx_main_call4_v7 (ix1 i) k))
      = ∑ k : Fin 16, Ideal.exp (Y (ix2 i k) - rowMax fun k' : Fin 16 => Y (ix2 i k')) :=
    Finset.sum_congr rfl fun k _ => by
      have e2 : idx_main_call4_v7 (ix1 i) k = ix2 i k := by idx2_eq
      rw [val_main_call4_v6_apply, e2, shift3 (hY := hY)]
      rfl
  rw [e1, hs]
  simp only [Ideal.hostUnary_log_def, Ideal.ofBits_def, Ideal.ofBits_zero_f32, zero_add]

/-- The reference's result: the row-wise log-softmax of Y. -/
theorem softmax_out (hY : val_main_v75 (F := Ideal) x0 x1 x2 x3 x4 x5 x6 x7 x8 x9 x10 x11 x12 x13 = Y) :
    val_main_v76 (F := Ideal) x0 x1 x2 x3 x4 x5 x6 x7 x8 x9 x10 x11 x12 x13 = ofFn fun i c => logSoftmax (fun k : Fin 16 => Y (ix2 i k)) c := by
  funext j
  obtain ⟨i, c, rfl⟩ : ∃ (i : Fin 1024) (c : Fin 16), j = ix2 i c := ⟨j 0, j 1, eq_ix2 j⟩
  rw [val_main_v76_apply, shift3 (hY := hY), lse3 (hY := hY)]
  rfl

end Cert.RefBridge

end
-- ==== Proof.RefNet.lean ====
/-
  The reference computes the specification's network.  The three layers and the closing log-softmax, each read
  as a function of its own input arrays, are composed: the first layer's activation is the hidden vertex
  features, the second layer's is the hidden edge features, the vertex features pass through a second positive
  part unchanged (the positive part of a positive part is itself), and the third layer followed by the
  row-wise log-softmax is the network.  The reference's run then ends with its result buffer at the network
  of its fourteen arguments and the arguments unchanged.
-/
import proofs.«181512_g78709570666604_cont_9to1_m_429_6_alg».proof.Proof.RefNode1
import proofs.«181512_g78709570666604_cont_9to1_m_429_6_alg».proof.Proof.RefEdge
import proofs.«181512_g78709570666604_cont_9to1_m_429_6_alg».proof.Proof.RefNode3
import proofs.«181512_g78709570666604_cont_9to1_m_429_6_alg».proof.Proof.RefSoftmax

noncomputable section

open scoped BigOperators

namespace Cert.RefBridge

open Idealize.ShloMosaic Idealize.ShloMosaic.ValueIdx Cert.GcnSpec Cert.ReferenceIdeal Cert.ReferenceIdeal.Read
open Cert.ReferenceIdeal.Gen Idealize.ShloMosaic.TcCoe Idealize.SL.Sem Idealize.ShloMosaic.StableHlo

/-- The reference's last stage, as a function of the fourteen arguments, is the specification's network. -/
theorem net_eq (x0 : Mat 1024 128) (x1 : Mat 2048 16) (x2 : Mat 2048 2048) (x3 : Mat 1024 1024) (x4 : Mat 1024 2048)
    (x5 : Mat 128 64) (x6 : Mat 1 16) (x7 : Row 64) (x8 : Mat 16 16) (x9 : Mat 1 64) (x10 : Row 16)
    (x11 : Mat 64 16) (x12 : Mat 1 16) (x13 : Row 16) :
    val_main_v76 (F := Ideal) x0 x1 x2 x3 x4 x5 x6 x7 x8 x9 x10 x11 x12 x13
      = net x0 x1 x2 x3 x4 x5 x6 x7 x8 x9 x10 x11 x12 x13 := by
  have hv : val_main_v24 (F := Ideal) x0 x1 x3 x4 x5 x6 x7 = hidV x0 x1 x3 x4 x5 x6 x7 :=
    hidV_eq x0 x1 x3 x4 x5 x6 x7
  have he : val_main_v25 (F := Ideal) x1 = fun j => relu (x1 j) := reluZ_eq x1
  have he2 : val_main_v51 (F := Ideal) x0 x1 x2 x3 x4 x5 x6 x7 x8 x9 x10
      = hidE x0 x1 x2 x3 x4 x5 x6 x7 x8 x9 x10 :=
    edge_out (x2 := x2) (x8 := x8) (x9 := x9) (x10 := x10) (hHv := hv) (hHe := he)
  have hv2 : val_main_v50 (F := Ideal) x0 x1 x3 x4 x5 x6 x7 = hidV x0 x1 x3 x4 x5 x6 x7 := by
    rw [vert_out (hHv := hv)]
    funext j
    obtain ⟨i, c, rfl⟩ : ∃ (i : Fin 1024) (c : Fin 64), j = ix2 i c := ⟨j 0, j 1, eq_ix2 j⟩
    exact relu_relu _
  have hy := node3_out (x11 := x11) (x12 := x12) (x13 := x13) (hHv := hv2) (hHe := he2)
  exact softmax_out (hY := hy)

/-- Every weakly fair execution of the reference terminates with its result buffer at the specification's
    network of the arguments' launch contents, and the arguments unchanged. -/
theorem ref_run (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v76)
        = Cert.GcnSpec.net
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run Cert.ReferenceIdeal.defs _ _).mono
    (fun r h c => ⟨(h c).1.trans ((Read.val_main_v76_eq m c).trans (net_eq _ _ _ _ _ _ _ _ _ _ _ _ _ _)), (h c).2⟩)
    (Cert.ReferenceIdeal.Value.run (F := Ideal) m ρ)

end Cert.RefBridge

end
-- ==== Proof.lean ====
/-
  The certificate's five claims.  The kernel and its idealization each run as four segments — three reshapes of
  the biases, then one pipelined kernel per graph-convolution layer — and leave every argument array as launched
  (the kernels' two windows on the incidence matrix hold it at half its ownership each; the two scratch buffers
  a kernel fills at its first grid point are carried to the later points by the region's invariant).  The
  idealization's rewrites are six bf16 round trips, the identity on the extended reals.  At the extended reals the
  idealized kernel's result array and the reference's are one function of the arguments, `Cert.GcnSpec.net`:
  three layers, each Σ_j M(i,j)·(H·W)(j,c) + b(c) with M the masked, diagonal-one mixing matrix, the last followed
  by a row-wise log-softmax.
-/
import proofs.«181512_g78709570666604_cont_9to1_m_429_6_alg».proof.Defs
import proofs.«181512_g78709570666604_cont_9to1_m_429_6_alg».proof.Proof.Gen.Kernel
import proofs.«181512_g78709570666604_cont_9to1_m_429_6_alg».proof.Proof.Gen.KernelIdeal
import proofs.«181512_g78709570666604_cont_9to1_m_429_6_alg».proof.Proof.Gen.ReferenceIdeal
import proofs.«181512_g78709570666604_cont_9to1_m_429_6_alg».proof.Proof.Gen.Pre_finite_inputs
import proofs.«181512_g78709570666604_cont_9to1_m_429_6_alg».proof.Proof.KRun
import proofs.«181512_g78709570666604_cont_9to1_m_429_6_alg».proof.Proof.KIRun
import proofs.«181512_g78709570666604_cont_9to1_m_429_6_alg».proof.Proof.KIFinal
import proofs.«181512_g78709570666604_cont_9to1_m_429_6_alg».proof.Proof.RefNet
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefBridge.ref_run m ρ)

/-- Each of the six rewrites removed a round trip through bf16, which is the identity on the extended reals. -/
theorem preserves : Cert.preserves_Kernel_KernelIdeal :=
  ⟨IdealRules.truncf_extf.statement _ .f32 .bf16, IdealRules.truncf_extf.statement _ .f32 .bf16, IdealRules.truncf_extf.statement _ .f32 .bf16,
   IdealRules.truncf_extf.statement _ .f32 .bf16, IdealRules.truncf_extf.statement _ .f32 .bf16, IdealRules.truncf_extf.statement _ .f32 .bf16⟩

/-- Both runs end with the result array at the network's function of the arguments, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.GcnSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run (Cert.KernelIdeal.defs (F := Ideal)) _ _).mono
      (fun _ h c => ⟨(h c).1.trans (Cert.KernelIdeal.Hand.v5_eq m c), (h c).2⟩) (Cert.KernelIdeal.Hand.run_result (F := Ideal) m ρ)
  · refine (θ_run (Cert.ReferenceIdeal.defs (F := Ideal)) _ _).mono (fun _ h c => ⟨?_, (h c).2⟩) (Cert.RefBridge.ref_run m' ρ')
    obtain ⟨e0, e1, e2, e3, e4, e5, e6, e7, e8, e9, e10, e11, e12, e13⟩ := hagree c
    rw [(h c).1, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
